-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S512x1024 : Shape := ⟨2, ![512, 1024]⟩
abbrev S512x3072 : Shape := ⟨2, ![512, 3072]⟩
abbrev S1x3072 : Shape := ⟨2, ![1, 3072]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 26
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S8192x1024, .bf16⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x3072, .f32⟩
  | .hbm, ⟨15, _⟩ => ⟨S1024x3072, .bf16⟩
  | .hbm, ⟨16, _⟩ => ⟨S3072, .f32⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S4x2048x1024, .bf16⟩
  | .hbm, ⟨21, _⟩ => ⟨S4x2048x1024, .bf16⟩
  | .hbm, ⟨22, _⟩ => ⟨S4x2048x1024, .bf16⟩
  | .hbm, ⟨23, _⟩ => ⟨S1024x1024, .f32⟩
  | .hbm, ⟨24, _⟩ => ⟨S1024x1024, .bf16⟩
  | .hbm, ⟨25, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1024x1024, .bf16⟩
  | .local _ .vmem, ⟨17, _⟩ => ⟨S1024, .f32⟩
  | .local _ .vmem, ⟨18, _⟩ => ⟨S1x512x1024, .f32⟩
  | .local _ .vmem, ⟨19, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x1024_S8192x1024 : S4x2048x1024.ShapeCasts S8192x1024
  bitsLt_bf16_f32 : FTy.bits .bf16 < FTy.bits .f32
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S512x1024_o0_0_S512x64 : S512x1024.Slices ![0, 0] S512x64
  slices_S2048x1024_o0_0_S2048x64 : S2048x1024.Slices ![0, 0] S2048x64
  reduces_S512x2048_S512 : S512x2048.Reduces [1] S512
  shapeCasts_S512_S512x1 : S512.ShapeCasts S512x1
  broadcasts_S512x1_S512x2048 : S512x1.Broadcasts S512x2048
  slices_S512x1024_o0_64_S512x64 : S512x1024.Slices ![0, 64] S512x64
  slices_S2048x1024_o0_64_S2048x64 : S2048x1024.Slices ![0, 64] S2048x64
  slices_S512x1024_o0_128_S512x64 : S512x1024.Slices ![0, 128] S512x64
  slices_S2048x1024_o0_128_S2048x64 : S2048x1024.Slices ![0, 128] S2048x64
  slices_S512x1024_o0_192_S512x64 : S512x1024.Slices ![0, 192] S512x64
  slices_S2048x1024_o0_192_S2048x64 : S2048x1024.Slices ![0, 192] S2048x64
  slices_S512x1024_o0_256_S512x64 : S512x1024.Slices ![0, 256] S512x64
  slices_S2048x1024_o0_256_S2048x64 : S2048x1024.Slices ![0, 256] S2048x64
  slices_S512x1024_o0_320_S512x64 : S512x1024.Slices ![0, 320] S512x64
  slices_S2048x1024_o0_320_S2048x64 : S2048x1024.Slices ![0, 320] S2048x64
  slices_S512x1024_o0_384_S512x64 : S512x1024.Slices ![0, 384] S512x64
  slices_S2048x1024_o0_384_S2048x64 : S2048x1024.Slices ![0, 384] S2048x64
  slices_S512x1024_o0_448_S512x64 : S512x1024.Slices ![0, 448] S512x64
  slices_S2048x1024_o0_448_S2048x64 : S2048x1024.Slices ![0, 448] S2048x64
  slices_S512x1024_o0_512_S512x64 : S512x1024.Slices ![0, 512] S512x64
  slices_S2048x1024_o0_512_S2048x64 : S2048x1024.Slices ![0, 512] S2048x64
  slices_S512x1024_o0_576_S512x64 : S512x1024.Slices ![0, 576] S512x64
  slices_S2048x1024_o0_576_S2048x64 : S2048x1024.Slices ![0, 576] S2048x64
  slices_S512x1024_o0_640_S512x64 : S512x1024.Slices ![0, 640] S512x64
  slices_S2048x1024_o0_640_S2048x64 : S2048x1024.Slices ![0, 640] S2048x64
  slices_S512x1024_o0_704_S512x64 : S512x1024.Slices ![0, 704] S512x64
  slices_S2048x1024_o0_704_S2048x64 : S2048x1024.Slices ![0, 704] S2048x64
  slices_S512x1024_o0_768_S512x64 : S512x1024.Slices ![0, 768] S512x64
  slices_S2048x1024_o0_768_S2048x64 : S2048x1024.Slices ![0, 768] S2048x64
  slices_S512x1024_o0_832_S512x64 : S512x1024.Slices ![0, 832] S512x64
  slices_S2048x1024_o0_832_S2048x64 : S2048x1024.Slices ![0, 832] S2048x64
  slices_S512x1024_o0_896_S512x64 : S512x1024.Slices ![0, 896] S512x64
  slices_S2048x1024_o0_896_S2048x64 : S2048x1024.Slices ![0, 896] S2048x64
  slices_S512x1024_o0_960_S512x64 : S512x1024.Slices ![0, 960] S512x64
  slices_S2048x1024_o0_960_S2048x64 : S2048x1024.Slices ![0, 960] S2048x64
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x64, .f32⟩
  | .hbm, ⟨46, _⟩ => ⟨S4x2048x16x64, .f32⟩
  | .hbm, ⟨47, _⟩ => ⟨S4x2048x1024, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.K.Blocks.lean ====
/-
  The shared definitions of the kernel's two pipelined regions, at any float instance.

  Region 0 (the fused projection): at grid point t the body loads a 512-row block of the activations, the whole
  concatenated weight matrix and the whole concatenated bias, and stores three 512 x 1024 blocks (queries, keys,
  values).  Region 1 (attention and the output projection): at grid point (b, i) the body loads a 512-row block of the
  queries of batch b, all 2048 rows of the keys and of the values of batch b, the output weights and bias, and stores
  one 512 x 1024 block of the result.

  Here: each window's block read off the array the region finds (blockOf0 / blockOf1); what each body leaves in each
  output window's buffer as a function of the input blocks (the single store of each output as a one-piece canon);
  and the proof data of the two pipelines.
-/
import proofs.«136797_j3427383902664_2_alg».proof.Proof.Gen.Kernel.Launch
import proofs.«136797_j3427383902664_2_alg».proof.Proof.Gen.Kernel.Skeleton
import proofs.«136797_j3427383902664_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the TensorCore's buffer contents when a region is entered
variable (V : (c : Dev nD) → (b : Ref sig .tc) → Buf (Elt F) ((c : Thread nD τ).loc b))

/-! ## Region 0: the fused projection -/

/-- Window w's block at point t of region 0, read off its array as the region finds it. -/
def blockOf0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 x 1024 rectangle (the activations' block, and each of the three stored blocks). -/
abbrev rX : Rect S512x1024 := Rect.unit (s := S512x1024) ![0, 0] S512x1024.size inb_S512x1024_S512x1024_0_0
/-- The whole 1024 x 3072 rectangle (the concatenated weights). -/
abbrev rW : Rect S1024x3072 := Rect.unit (s := S1024x3072) ![0, 0] S1024x3072.size inb_S1024x3072_S1024x3072_0_0
/-- The whole 3072 rectangle (the concatenated bias). -/
abbrev rB : Rect S3072 := Rect.unit (s := S3072) ![0] S3072.size inb_S3072_S3072_0

/-- The queries' block after the body: columns 0..1023 of x·W + bias. -/
def projQ (x0 : Vec F S512x1024 .bf16) (x1 : Vec F S1024x3072 .bf16) (x2 : Vec F S3072 .f32) : Vec F S512x1024 .bf16 :=
  View.canon [⟨rX, k0_pay2 (View.ld x0 rX) (View.ld x1 rW) (View.ld x2 rB)⟩]
/-- The keys' block after the body: columns 1024..2047 of x·W + bias. -/
def projK (x0 : Vec F S512x1024 .bf16) (x1 : Vec F S1024x3072 .bf16) (x2 : Vec F S3072 .f32) : Vec F S512x1024 .bf16 :=
  View.canon [⟨rX, k0_pay3 (View.ld x0 rX) (View.ld x1 rW) (View.ld x2 rB)⟩]
/-- The values' block after the body: columns 2048..3071 of x·W + bias. -/
def projV (x0 : Vec F S512x1024 .bf16) (x1 : Vec F S1024x3072 .bf16) (x2 : Vec F S3072 .f32) : Vec F S512x1024 .bf16 :=
  View.canon [⟨rX, k0_pay4 (View.ld x0 rX) (View.ld x1 rW) (View.ld x2 rB)⟩]

/-- The proof data of region 0 on core c: the arrays as the region finds them; after the body at point t each
    input's buffer at its block, each output's at the projection of the input blocks. -/
def dat0 (c : Dev nD) : Dat τ (Elt F) Unit ℕ (UR sig nD τ) ℕ cfg0 c where
  A w := V c (Pipeline.arrRef spec0 w)
  after w t := match w with
    | ⟨0, _⟩ => blockOf0 V c 0 t
    | ⟨1, _⟩ => blockOf0 V c 1 t
    | ⟨2, _⟩ => blockOf0 V c 2 t
    | ⟨3, _⟩ => projQ (blockOf0 V c 0 t) (blockOf0 V c 1 t) (blockOf0 V c 2 t)
    | ⟨4, _⟩ => projK (blockOf0 V c 0 t) (blockOf0 V c 1 t) (blockOf0 V c 2 t)
    | ⟨5, _⟩ => projV (blockOf0 V c 0 t) (blockOf0 V c 1 t) (blockOf0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blockOf0 V c 0 t := by dsimp only [dat0]
theorem after0_1 (c : Dev nD) (t : Fin cfg0.N) : (dat0 V c).after 1 t = blockOf0 V c 1 t := by dsimp only [dat0]
theorem after0_2 (c : Dev nD) (t : Fin cfg0.N) : (dat0 V c).after 2 t = blockOf0 V c 2 t := by dsimp only [dat0]
theorem after0_3 (c : Dev nD) (t : Fin cfg0.N) : (dat0 V c).after 3 t = projQ (blockOf0 V c 0 t) (blockOf0 V c 1 t) (blockOf0 V c 2 t) := by dsimp only [dat0]
theorem after0_4 (c : Dev nD) (t : Fin cfg0.N) : (dat0 V c).after 4 t = projK (blockOf0 V c 0 t) (blockOf0 V c 1 t) (blockOf0 V c 2 t) := by dsimp only [dat0]
theorem after0_5 (c : Dev nD) (t : Fin cfg0.N) : (dat0 V c).after 5 t = projV (blockOf0 V c 0 t) (blockOf0 V c 1 t) (blockOf0 V c 2 t) := by dsimp only [dat0]

/-! ## Region 1: attention and the output projection -/

/-- Window w's block at point t of region 1, read off its array as the region finds it. -/
def blockOf1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1 x 512 x 1024 rectangle (the queries' block, and the stored block). -/
abbrev rQ : Rect S1x512x1024 := Rect.unit (s := S1x512x1024) ![0, 0, 0] S1x512x1024.size inb_S1x512x1024_S1x512x1024_0_0_0
/-- The whole 1 x 2048 x 1024 rectangle (the keys' and the values' block). -/
abbrev rKV : Rect S1x2048x1024 := Rect.unit (s := S1x2048x1024) ![0, 0, 0] S1x2048x1024.size inb_S1x2048x1024_S1x2048x1024_0_0_0
/-- The whole 1024 x 1024 rectangle (the output weights). -/
abbrev rWo : Rect S1024x1024 := Rect.unit (s := S1024x1024) ![0, 0] S1024x1024.size inb_S1024x1024_S1024x1024_0_0
/-- The whole 1024 rectangle (the output bias). -/
abbrev rBo : Rect S1024 := Rect.unit (s := S1024) ![0] S1024.size inb_S1024_S1024_0

/-- The sixteen heads' contexts side by side, 64 columns each, from the loaded query, key and value blocks: head h
    is softmax(q_h k_hᵀ / 8) v_h on columns 64h .. 64h+63. -/
def headsCat (v0 : Vec F S1x512x1024 .bf16) (v2 v4 : Vec F S1x2048x1024 .bf16) : FVec F S512x1024 .f32 :=
  concatenate S512x1024 1
    [⟨S512x64, k1_pay6 v0 v2 v4⟩,
     ⟨S512x64, k1_pay9 (k1_pay7 v4) (k1_pay8 v0 v2) (constant S512x64 .f32 0x00000000#32)⟩,
     ⟨S512x64, k1_pay10 (k1_pay3 v0) (k1_pay4 v2) (k1_pay5 v4)⟩,
     ⟨S512x64, k1_pay11 (k1_pay3 v0) (k1_pay4 v2) (k1_pay5 v4)⟩,
     ⟨S512x64, k1_pay14 (k1_pay12 (k1_pay5 v4)) (k1_pay13 (k1_pay3 v0) (k1_pay4 v2))⟩,
     ⟨S512x64, k1_pay15 (k1_pay3 v0) (k1_pay4 v2) (k1_pay5 v4)⟩,
     ⟨S512x64, k1_pay16 (k1_pay3 v0) (k1_pay4 v2) (k1_pay5 v4)⟩,
     ⟨S512x64, k1_pay19 (k1_pay17 (k1_pay5 v4)) (k1_pay18 (k1_pay3 v0) (k1_pay4 v2))⟩,
     ⟨S512x64, k1_pay20 (k1_pay3 v0) (k1_pay4 v2) (k1_pay5 v4)⟩,
     ⟨S512x64, k1_pay21 (k1_pay3 v0) (k1_pay4 v2) (k1_pay5 v4)⟩,
     ⟨S512x64, k1_pay25 (k1_pay22 (k1_pay3 v0)) (k1_pay23 (k1_pay4 v2)) (k1_pay24 (k1_pay5 v4))⟩,
     ⟨S512x64, k1_pay26 (k1_pay3 v0) (k1_pay4 v2) (k1_pay5 v4)⟩,
     ⟨S512x64, k1_pay29 (k1_pay27 (k1_pay5 v4)) (k1_pay28 (k1_pay3 v0) (k1_pay4 v2))⟩,
     ⟨S512x64, k1_pay30 (k1_pay3 v0) (k1_pay4 v2) (k1_pay5 v4)⟩,
     ⟨S512x64, k1_pay31 (k1_pay3 v0) (k1_pay4 v2) (k1_pay5 v4)⟩,
     ⟨S512x64, k1_pay1 (k1_pay32 (k1_pay5 v4)) (k1_pay33 (k1_pay3 v0) (k1_pay4 v2))⟩]
    concatenates_S512x64_S512x64_S512x64_S512x64_S512x64_S512x64_S512x64_S512x64_S512x64_S512x64_S512x64_S512x64_S512x64_S512x64_S512x64_S512x64_S512x1024_d1

/-- The result block after the body: the heads' contexts times the output weights, plus the output bias. -/
def attnOut (x0 : Vec F S1x512x1024 .bf16) (x1 x2 : Vec F S1x2048x1024 .bf16) (x3 : Vec F S1024x1024 .bf16) (x4 : Vec F S1024 .f32) :
    Vec F S1x512x1024 .f32 :=
  View.canon [⟨rQ, k1_pay2 (headsCat (View.ld x0 rQ) (View.ld x1 rKV) (View.ld x2 rKV)) (View.ld x3 rWo) (View.ld x4 rBo)⟩]

/-- The proof data of region 1 on core c. -/
def dat1 (c : Dev nD) : Dat τ (Elt F) Unit ℕ (UR sig nD τ) ℕ cfg1 c where
  A w := V c (Pipeline.arrRef spec1 w)
  after w t := match w with
    | ⟨0, _⟩ => blockOf1 V c 0 t
    | ⟨1, _⟩ => blockOf1 V c 1 t
    | ⟨2, _⟩ => blockOf1 V c 2 t
    | ⟨3, _⟩ => blockOf1 V c 3 t
    | ⟨4, _⟩ => blockOf1 V c 4 t
    | ⟨5, _⟩ => attnOut (blockOf1 V c 0 t) (blockOf1 V c 1 t) (blockOf1 V c 2 t) (blockOf1 V c 3 t) (blockOf1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blockOf1 V c 0 t := by dsimp only [dat1]
theorem after1_1 (c : Dev nD) (t : Fin cfg1.N) : (dat1 V c).after 1 t = blockOf1 V c 1 t := by dsimp only [dat1]
theorem after1_2 (c : Dev nD) (t : Fin cfg1.N) : (dat1 V c).after 2 t = blockOf1 V c 2 t := by dsimp only [dat1]
theorem after1_3 (c : Dev nD) (t : Fin cfg1.N) : (dat1 V c).after 3 t = blockOf1 V c 3 t := by dsimp only [dat1]
theorem after1_4 (c : Dev nD) (t : Fin cfg1.N) : (dat1 V c).after 4 t = blockOf1 V c 4 t := by dsimp only [dat1]
theorem after1_5 (c : Dev nD) (t : Fin cfg1.N) : (dat1 V c).after 5 t =
    attnOut (blockOf1 V c 0 t) (blockOf1 V c 1 t) (blockOf1 V c 2 t) (blockOf1 V c 3 t) (blockOf1 V c 4 t) := by dsimp only [dat1]

end Cert.Kernel.Hand

end
-- ==== Proof.K.Body0.lean ====
/-
  Region 0 (the fused projection): the body obligation of its pipeline, at the region-entry contents V.

  At every grid point each input window's current staging buffer holds that window's block of the array the region
  finds: the activations' block is fetched at every point; the weights and the bias are fetched at the first point only,
  and at a later point their block index has not moved, so the buffer still holds the same (whole) block.  The body
  loads the three inputs, and for each output loads its buffer (the value is discarded) and stores the whole 512 x 1024
  block once; one whole-block store covers the buffer, so what the body leaves reads as the one-piece canon of
  Blocks.lean (projQ, projK, projV).
-/
import proofs.«136797_j3427383902664_2_alg».proof.Proof.K.Blocks

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

/-- Input window 0 (the activations) holds its block at every point, for any proof data whose array is V's and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blockOf0 V c 0 t) (t : Fin cfg0.N) (d) : dat.before 0 t d = blockOf0 V c 0 t :=
  (dat.before_in_eq_fetched 0 rfl (fun _ => rfl) (fun _ _ _ => rfl) (fun t => by rw [hafter]; unfold Dat.blockOf blockOf0; rw [hA]; try rfl) t d).trans
    (by unfold Dat.fetched Dat.blockOf blockOf0; rw [hA]; try rfl)

/-- Input window 1 (the concatenated weights) holds its block at every point, fetched there or not: where it is not
    fetched its block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = blockOf0 V c 1 t) (t : Fin cfg0.N) (d) : dat.before 1 t d = blockOf0 V c 1 t :=
  (dat.before_in_eq_fetched 1 rfl (fun _ => rfl) (fun _ _ _ => rfl) (fun t => by rw [hafter]; unfold Dat.blockOf blockOf0; rw [hA]; try rfl) t d).trans
    (by unfold Dat.fetched Dat.blockOf blockOf0; rw [hA]; try rfl)

/-- Input window 2 (the concatenated bias) holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = blockOf0 V c 2 t) (t : Fin cfg0.N) (d) : dat.before 2 t d = blockOf0 V c 2 t :=
  (dat.before_in_eq_fetched 2 rfl (fun _ => rfl) (fun _ _ _ => rfl) (fun t => by rw [hafter]; unfold Dat.blockOf blockOf0; rw [hA]; try rfl) t d).trans
    (by unfold Dat.fetched Dat.blockOf blockOf0; rw [hA]; try rfl)

theorem before0_0 (c : Dev nD) (t : Fin cfg0.N) (d) : (dat0 V c).before 0 t d = blockOf0 V c 0 t :=
  before0_0_of V (dat0 V c) (A_eq0 V c 0) (after0_0 V c) t d
theorem before0_1 (c : Dev nD) (t : Fin cfg0.N) (d) : (dat0 V c).before 1 t d = blockOf0 V c 1 t :=
  before0_1_of V (dat0 V c) (A_eq0 V c 1) (after0_1 V c) t d
theorem before0_2 (c : Dev nD) (t : Fin cfg0.N) (d) : (dat0 V c).before 2 t d = blockOf0 V c 2 t :=
  before0_2_of V (dat0 V c) (A_eq0 V c 2) (after0_2 V c) t d

/-! ## One whole-block store covers its buffer -/

/-- The single store of an output block is of the whole 512 x 1024 rectangle, so it covers the buffer. -/
theorem coverX (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 1000000 in
/-- The body on whole staging memrefs, the inputs' at contents x0 x1 x2 and the outputs' at anything, runs to the
    continuation holding the inputs' as they were and the outputs' at the three projections of the inputs. -/
theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .bf16) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projQ x0 x1 x2) ∗ owns (c : Thread nD τ) arg5 fullShare (projK x0 x1 x2)
            ∗ owns (c : Thread nD τ) arg6 fullShare (projV x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverX _)
  isplitl [H4]
  · iexists _; isplitr
    swap; · iexact H4
    ipureintro
    exact View.read_writes_eq_canon _ _ _ (coverX _)
  iexists _; isplitr
  swap; · iexact H5
  ipureintro
  exact View.read_writes_eq_canon _ _ _ (coverX _)

/-! ## The body obligation, at a generic point -/

/-- What the body is called with at point t: the invariant, the core's dues, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (blockOf0 V c 0 t) (blockOf0 V c 1 t) (blockOf0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1's body obligation: at every grid point the attention body, run on the window buffers holding the point's
  input blocks, leaves the result block in the output window's buffer.
-/
import proofs.«136797_j3427383902664_2_alg».proof.Proof.K.Blocks

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the TensorCore's buffer contents when a region is entered
variable (V : (c : Dev nD) → (b : Ref sig .tc) → Buf (Elt F) ((c : Thread nD τ).loc b))

local notation "𝕄" => MT nD τ sig Unit (Elt F) ℕ (UR sig nD τ) ℕ

/-! ## The input windows' buffers hold their blocks -/

/-- An input window's current buffer holds its block at every point, whether the pipeline fetched it there or the
    block index has not moved since the last fetch; for any proof data over the region-entry arrays whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = blockOf1 V c 0 t) (t : Fin cfg1.N) (d) : dat.before 0 t d = blockOf1 V c 0 t :=
  (dat.before_in_eq_fetched 0 rfl (fun _ => rfl) (fun _ _ _ => rfl) (fun t => by rw [hafter]; unfold Dat.blockOf blockOf1; rw [hA]; try rfl) t d).trans
    (by unfold Dat.fetched Dat.blockOf blockOf1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blockOf1 V c 1 t) (t : Fin cfg1.N) (d) : dat.before 1 t d = blockOf1 V c 1 t :=
  (dat.before_in_eq_fetched 1 rfl (fun _ => rfl) (fun _ _ _ => rfl) (fun t => by rw [hafter]; unfold Dat.blockOf blockOf1; rw [hA]; try rfl) t d).trans
    (by unfold Dat.fetched Dat.blockOf blockOf1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = blockOf1 V c 2 t) (t : Fin cfg1.N) (d) : dat.before 2 t d = blockOf1 V c 2 t :=
  (dat.before_in_eq_fetched 2 rfl (fun _ => rfl) (fun _ _ _ => rfl) (fun t => by rw [hafter]; unfold Dat.blockOf blockOf1; rw [hA]; try rfl) t d).trans
    (by unfold Dat.fetched Dat.blockOf blockOf1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = blockOf1 V c 3 t) (t : Fin cfg1.N) (d) : dat.before 3 t d = blockOf1 V c 3 t :=
  (dat.before_in_eq_fetched 3 rfl (fun _ => rfl) (fun _ _ _ => rfl) (fun t => by rw [hafter]; unfold Dat.blockOf blockOf1; rw [hA]; try rfl) t d).trans
    (by unfold Dat.fetched Dat.blockOf blockOf1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = blockOf1 V c 4 t) (t : Fin cfg1.N) (d) : dat.before 4 t d = blockOf1 V c 4 t :=
  (dat.before_in_eq_fetched 4 rfl (fun _ => rfl) (fun _ _ _ => rfl) (fun t => by rw [hafter]; unfold Dat.blockOf blockOf1; rw [hA]; try rfl) t d).trans
    (by unfold Dat.fetched Dat.blockOf blockOf1; rw [hA]; try rfl)

/-! ## The single store covers the output buffer -/

theorem cover1_5 (p0 : Vec F S1x512x1024 .f32) (y : S1x512x1024.Idx) :
    ∃ pc ∈ ([⟨rQ, p0⟩] : List (View.Piece (Elt F) S1x512x1024 .f32)), y ∈ pc.1.set :=
  View.cover_of_tiled [⟨rQ, p0⟩] S1x512x1024.size (by rfl) y

/-! ## The body's triple -/

set_option maxHeartbeats 1000000 in
/-- The attention body on whole buffers, the five inputs' at read contents x0..x4 and the output's at anything,
    runs to the continuation holding the inputs' as they were and the output's at attnOut of the inputs'. -/
theorem sound_kernel1 (c : Dev nD) (E : Set ℕ) (i : grid1.Coords)
    (arg2 : Memref sig .tc .vmem S1x512x1024 .bf16) (harg2 : arg2.IsWhole)
    (arg3 : Memref sig .tc .vmem S1x2048x1024 .bf16) (harg3 : arg3.IsWhole)
    (arg4 : Memref sig .tc .vmem S1x2048x1024 .bf16) (harg4 : arg4.IsWhole)
    (arg5 : Memref sig .tc .vmem S1024x1024 .bf16) (harg5 : arg5.IsWhole)
    (arg6 : Memref sig .tc .vmem S1024 .f32) (harg6 : arg6.IsWhole)
    (arg7 : Memref sig .tc .vmem S1x512x1024 .f32) (harg7 : arg7.IsWhole)
    (x0 : Vec F S1x512x1024 .bf16) (x1 x2 : Vec F S1x2048x1024 .bf16) (x3 : Vec F S1024x1024 .bf16) (x4 : Vec F S1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (attnOut x0 x1 x2 x3 x4)) -∗ K ⟨⟩))
      ⊢ wp frame (wpE (defs₀ (F := F)) Variants.none c none) E
          (cc1__attn_o_kernel i arg2 harg2 arg3 harg3 arg4 harg4 arg5 harg5 arg6 harg6 arg7 harg7) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover1_5 _)).trans ?_
  unfold attnOut headsCat
  sl_unfold_run_names
  rfl

/-! ## The body obligation, at a generic point -/

theorem before1_0 (c : Dev nD) (t : Fin cfg1.N) (d) : (dat1 V c).before 0 t d = blockOf1 V c 0 t :=
  before1_0_of V (dat1 V c) (A_eq1 V c 0) (after1_0 V c) t d
theorem before1_1 (c : Dev nD) (t : Fin cfg1.N) (d) : (dat1 V c).before 1 t d = blockOf1 V c 1 t :=
  before1_1_of V (dat1 V c) (A_eq1 V c 1) (after1_1 V c) t d
theorem before1_2 (c : Dev nD) (t : Fin cfg1.N) (d) : (dat1 V c).before 2 t d = blockOf1 V c 2 t :=
  before1_2_of V (dat1 V c) (A_eq1 V c 2) (after1_2 V c) t d
theorem before1_3 (c : Dev nD) (t : Fin cfg1.N) (d) : (dat1 V c).before 3 t d = blockOf1 V c 3 t :=
  before1_3_of V (dat1 V c) (A_eq1 V c 3) (after1_3 V c) t d
theorem before1_4 (c : Dev nD) (t : Fin cfg1.N) (d) : (dat1 V c).before 4 t d = blockOf1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blockOf1 V c 0 t) (blockOf1 V c 1 t) (blockOf1 V c 2 t) (blockOf1 V c 3 t) (blockOf1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the kernel's @main: a stretch of host operations (reshape, casts, transposes and the two
  concatenations), region 0 (the fused projection), a second stretch (three reshapes, a transpose and a cast), region 1
  (attention and the output projection).

  The buffer contents at each boundary are a fold from the launch memory: a stretch's effect on the valuation, then a
  region's arrays at what its write-backs leave and every other buffer as entered.  Each region is a segment over the
  thread state "every unscoped buffer at the boundary's contents, the generator register at some state, nothing owed";
  the launch theorem over the four segments gives a run that terminates, with every unscoped buffer read at the last
  boundary's contents W4.  The nine argument arrays are written by no stretch and by no region (the output bias is read
  through an input window of region 1), so W4 at each is the launch memory.
-/
import proofs.«136797_j3427383902664_2_alg».proof.Proof.K.Body0
import proofs.«136797_j3427383902664_2_alg».proof.Proof.K.Body1
import proofs.«136797_j3427383902664_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- A buffer that neither host stretch writes and that is no window's array of either region holds at the last
    boundary what the launch memory holds. -/
theorem W4_of_untouched (c : Dev nD) (b : Ref sig .tc) (h4 : ∀ w, Pipeline.arrRef spec1 w ≠ b) (h3 : b ∉ hostOps1_W)
    (h2 : ∀ w, Pipeline.arrRef spec0 w ≠ b) (h1 : b ∉ hostOps0_W) :
    W4 m ρ c (Proc.devRef .tc b) = m ((c : Thread nD τ).loc b) :=
  calc W4 m ρ c (Proc.devRef .tc b)
    _ = W3 m ρ c (Proc.devRef .tc b) := W4_of_ne m ρ c b h4
    _ = W2 m ρ c (Proc.devRef .tc b) := StableHlo.after_of_writes_sub hostOps1 _ hostOps1_writes h3
    _ = W1 m ρ c (Proc.devRef .tc b) := W2_of_ne m ρ c b h2
    _ = W0 m ρ c (Proc.devRef .tc b) := StableHlo.after_of_writes_sub hostOps0 _ hostOps0_writes h1
    _ = m ((c : Thread nD τ).loc b) := rfl

theorem W4_main_arg0 (c : Dev nD) : W4 m ρ c (Proc.devRef .tc main_arg0) = m ((c : Thread nD τ).loc main_arg0) :=
  W4_of_untouched m ρ c main_arg0 (by decide) (by decide) (by decide) (by decide)
theorem W4_main_arg1 (c : Dev nD) : W4 m ρ c (Proc.devRef .tc main_arg1) = m ((c : Thread nD τ).loc main_arg1) :=
  W4_of_untouched m ρ c main_arg1 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)
theorem W4_main_arg6 (c : Dev nD) : W4 m ρ c (Proc.devRef .tc main_arg6) = m ((c : Thread nD τ).loc main_arg6) :=
  W4_of_untouched m ρ c main_arg6 (by decide) (by decide) (by decide) (by decide)
theorem W4_main_arg7 (c : Dev nD) : W4 m ρ c (Proc.devRef .tc main_arg7) = m ((c : Thread nD τ).loc main_arg7) :=
  W4_of_untouched m ρ c main_arg7 (by decide) (by decide) (by decide) (by decide)

/-- The output bias is the array of region 1's input window 4: the pipeline leaves an input's array as entered. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 4).trans (((dat1 (V3 m ρ) c).arrAt_in 4 rfl _).trans (A_eq1 (V3 m ρ) c 4))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- The result array is region 1's output window 5: at the end it holds what the pipeline's write-backs leave. -/
theorem W4_main_v14 (c : Dev nD) : W4 m ρ c (Proc.devRef .tc main_v14) = (dat1 (V3 m ρ) c).arrAt 5 cfg1.N :=
  W4_arr m ρ c 5

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at W1, left at W2.  Its arrays are split out of
    the unscoped buffers and put back at the exit contents; the generator register goes into the invariant and out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4 (what the launch reads at
    the end), in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- The whole run: from any memory with zero counters every weakly fair execution of @main on the TensorCores
    terminates, nothing faulting, and in every final state each unscoped buffer of each core holds the last boundary's
    contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.Kernel.Hand

end
-- ==== Proof.KI.Blocks.lean ====
/-
  The shared definitions of the idealized kernel's two pipelined regions, at any float instance.

  Region 0 (the fused projection): at grid point t the body loads a 512-row block of the activations, the whole
  concatenated weight matrix and the whole concatenated bias, and stores three 512 x 1024 blocks (queries, keys,
  values).  Region 1 (attention and the output projection): at grid point (b, i) the body loads a 512-row block of the
  queries of batch b, all 2048 rows of the keys and of the values of batch b, the output weights and bias, and stores
  one 512 x 1024 block of the result.

  Here: each window's block read off the array the region finds (blockOf0 / blockOf1); what each body leaves in each
  output window's buffer as a function of the input blocks (the single store of each output as a one-piece canon);
  and the proof data of the two pipelines.
-/
import proofs.«136797_j3427383902664_2_alg».proof.Proof.Gen.KernelIdeal.Launch
import proofs.«136797_j3427383902664_2_alg».proof.Proof.Gen.KernelIdeal.Skeleton
import proofs.«136797_j3427383902664_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the TensorCore's buffer contents when a region is entered
variable (V : (c : Dev nD) → (b : Ref sig .tc) → Buf (Elt F) ((c : Thread nD τ).loc b))

/-! ## Region 0: the fused projection -/

/-- Window w's block at point t of region 0, read off its array as the region finds it. -/
def blockOf0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 x 1024 rectangle (the activations' block, and each of the three stored blocks). -/
abbrev rX : Rect S512x1024 := Rect.unit (s := S512x1024) ![0, 0] S512x1024.size inb_S512x1024_S512x1024_0_0
/-- The whole 1024 x 3072 rectangle (the concatenated weights). -/
abbrev rW : Rect S1024x3072 := Rect.unit (s := S1024x3072) ![0, 0] S1024x3072.size inb_S1024x3072_S1024x3072_0_0
/-- The whole 3072 rectangle (the concatenated bias). -/
abbrev rB : Rect S3072 := Rect.unit (s := S3072) ![0] S3072.size inb_S3072_S3072_0

/-- The queries' block after the body: columns 0..1023 of x·W + bias. -/
def projQ (x0 : Vec F S512x1024 .bf16) (x1 : Vec F S1024x3072 .bf16) (x2 : Vec F S3072 .f32) : Vec F S512x1024 .bf16 :=
  View.canon [⟨rX, k0_pay2 (View.ld x0 rX) (View.ld x1 rW) (View.ld x2 rB)⟩]
/-- The keys' block after the body: columns 1024..2047 of x·W + bias. -/
def projK (x0 : Vec F S512x1024 .bf16) (x1 : Vec F S1024x3072 .bf16) (x2 : Vec F S3072 .f32) : Vec F S512x1024 .bf16 :=
  View.canon [⟨rX, k0_pay3 (View.ld x0 rX) (View.ld x1 rW) (View.ld x2 rB)⟩]
/-- The values' block after the body: columns 2048..3071 of x·W + bias. -/
def projV (x0 : Vec F S512x1024 .bf16) (x1 : Vec F S1024x3072 .bf16) (x2 : Vec F S3072 .f32) : Vec F S512x1024 .bf16 :=
  View.canon [⟨rX, k0_pay4 (View.ld x0 rX) (View.ld x1 rW) (View.ld x2 rB)⟩]

/-- The proof data of region 0 on core c: the arrays as the region finds them; after the body at point t each
    input's buffer at its block, each output's at the projection of the input blocks. -/
def dat0 (c : Dev nD) : Dat τ (Elt F) Unit ℕ (UR sig nD τ) ℕ cfg0 c where
  A w := V c (Pipeline.arrRef spec0 w)
  after w t := match w with
    | ⟨0, _⟩ => blockOf0 V c 0 t
    | ⟨1, _⟩ => blockOf0 V c 1 t
    | ⟨2, _⟩ => blockOf0 V c 2 t
    | ⟨3, _⟩ => projQ (blockOf0 V c 0 t) (blockOf0 V c 1 t) (blockOf0 V c 2 t)
    | ⟨4, _⟩ => projK (blockOf0 V c 0 t) (blockOf0 V c 1 t) (blockOf0 V c 2 t)
    | ⟨5, _⟩ => projV (blockOf0 V c 0 t) (blockOf0 V c 1 t) (blockOf0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blockOf0 V c 0 t := by dsimp only [dat0]
theorem after0_1 (c : Dev nD) (t : Fin cfg0.N) : (dat0 V c).after 1 t = blockOf0 V c 1 t := by dsimp only [dat0]
theorem after0_2 (c : Dev nD) (t : Fin cfg0.N) : (dat0 V c).after 2 t = blockOf0 V c 2 t := by dsimp only [dat0]
theorem after0_3 (c : Dev nD) (t : Fin cfg0.N) : (dat0 V c).after 3 t = projQ (blockOf0 V c 0 t) (blockOf0 V c 1 t) (blockOf0 V c 2 t) := by dsimp only [dat0]
theorem after0_4 (c : Dev nD) (t : Fin cfg0.N) : (dat0 V c).after 4 t = projK (blockOf0 V c 0 t) (blockOf0 V c 1 t) (blockOf0 V c 2 t) := by dsimp only [dat0]
theorem after0_5 (c : Dev nD) (t : Fin cfg0.N) : (dat0 V c).after 5 t = projV (blockOf0 V c 0 t) (blockOf0 V c 1 t) (blockOf0 V c 2 t) := by dsimp only [dat0]

/-! ## Region 1: attention and the output projection -/

/-- Window w's block at point t of region 1, read off its array as the region finds it. -/
def blockOf1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1 x 512 x 1024 rectangle (the queries' block, and the stored block). -/
abbrev rQ : Rect S1x512x1024 := Rect.unit (s := S1x512x1024) ![0, 0, 0] S1x512x1024.size inb_S1x512x1024_S1x512x1024_0_0_0
/-- The whole 1 x 2048 x 1024 rectangle (the keys' and the values' block). -/
abbrev rKV : Rect S1x2048x1024 := Rect.unit (s := S1x2048x1024) ![0, 0, 0] S1x2048x1024.size inb_S1x2048x1024_S1x2048x1024_0_0_0
/-- The whole 1024 x 1024 rectangle (the output weights). -/
abbrev rWo : Rect S1024x1024 := Rect.unit (s := S1024x1024) ![0, 0] S1024x1024.size inb_S1024x1024_S1024x1024_0_0
/-- The whole 1024 rectangle (the output bias). -/
abbrev rBo : Rect S1024 := Rect.unit (s := S1024) ![0] S1024.size inb_S1024_S1024_0

/-- The sixteen heads' contexts side by side, 64 columns each, from the loaded query, key and value blocks: head h
    is softmax(q_h k_hᵀ / 8) v_h on columns 64h .. 64h+63. -/
def headsCat (v0 : Vec F S1x512x1024 .bf16) (v2 v4 : Vec F S1x2048x1024 .bf16) : FVec F S512x1024 .f32 :=
  concatenate S512x1024 1
    [⟨S512x64, k1_pay6 v0 v2 v4⟩,
     ⟨S512x64, k1_pay9 (k1_pay7 v4) (k1_pay8 v0 v2) (constant S512x64 .f32 0x00000000#32)⟩,
     ⟨S512x64, k1_pay10 (k1_pay3 v0) (k1_pay4 v2) (k1_pay5 v4)⟩,
     ⟨S512x64, k1_pay11 (k1_pay3 v0) (k1_pay4 v2) (k1_pay5 v4)⟩,
     ⟨S512x64, k1_pay14 (k1_pay12 (k1_pay5 v4)) (k1_pay13 (k1_pay3 v0) (k1_pay4 v2))⟩,
     ⟨S512x64, k1_pay15 (k1_pay3 v0) (k1_pay4 v2) (k1_pay5 v4)⟩,
     ⟨S512x64, k1_pay16 (k1_pay3 v0) (k1_pay4 v2) (k1_pay5 v4)⟩,
     ⟨S512x64, k1_pay19 (k1_pay17 (k1_pay5 v4)) (k1_pay18 (k1_pay3 v0) (k1_pay4 v2))⟩,
     ⟨S512x64, k1_pay20 (k1_pay3 v0) (k1_pay4 v2) (k1_pay5 v4)⟩,
     ⟨S512x64, k1_pay21 (k1_pay3 v0) (k1_pay4 v2) (k1_pay5 v4)⟩,
     ⟨S512x64, k1_pay25 (k1_pay22 (k1_pay3 v0)) (k1_pay23 (k1_pay4 v2)) (k1_pay24 (k1_pay5 v4))⟩,
     ⟨S512x64, k1_pay26 (k1_pay3 v0) (k1_pay4 v2) (k1_pay5 v4)⟩,
     ⟨S512x64, k1_pay29 (k1_pay27 (k1_pay5 v4)) (k1_pay28 (k1_pay3 v0) (k1_pay4 v2))⟩,
     ⟨S512x64, k1_pay30 (k1_pay3 v0) (k1_pay4 v2) (k1_pay5 v4)⟩,
     ⟨S512x64, k1_pay31 (k1_pay3 v0) (k1_pay4 v2) (k1_pay5 v4)⟩,
     ⟨S512x64, k1_pay1 (k1_pay32 (k1_pay5 v4)) (k1_pay33 (k1_pay3 v0) (k1_pay4 v2))⟩]
    concatenates_S512x64_S512x64_S512x64_S512x64_S512x64_S512x64_S512x64_S512x64_S512x64_S512x64_S512x64_S512x64_S512x64_S512x64_S512x64_S512x64_S512x1024_d1

/-- The result block after the body: the heads' contexts times the output weights, plus the output bias. -/
def attnOut (x0 : Vec F S1x512x1024 .bf16) (x1 x2 : Vec F S1x2048x1024 .bf16) (x3 : Vec F S1024x1024 .bf16) (x4 : Vec F S1024 .f32) :
    Vec F S1x512x1024 .f32 :=
  View.canon [⟨rQ, k1_pay2 (headsCat (View.ld x0 rQ) (View.ld x1 rKV) (View.ld x2 rKV)) (View.ld x3 rWo) (View.ld x4 rBo)⟩]

/-- The proof data of region 1 on core c. -/
def dat1 (c : Dev nD) : Dat τ (Elt F) Unit ℕ (UR sig nD τ) ℕ cfg1 c where
  A w := V c (Pipeline.arrRef spec1 w)
  after w t := match w with
    | ⟨0, _⟩ => blockOf1 V c 0 t
    | ⟨1, _⟩ => blockOf1 V c 1 t
    | ⟨2, _⟩ => blockOf1 V c 2 t
    | ⟨3, _⟩ => blockOf1 V c 3 t
    | ⟨4, _⟩ => blockOf1 V c 4 t
    | ⟨5, _⟩ => attnOut (blockOf1 V c 0 t) (blockOf1 V c 1 t) (blockOf1 V c 2 t) (blockOf1 V c 3 t) (blockOf1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blockOf1 V c 0 t := by dsimp only [dat1]
theorem after1_1 (c : Dev nD) (t : Fin cfg1.N) : (dat1 V c).after 1 t = blockOf1 V c 1 t := by dsimp only [dat1]
theorem after1_2 (c : Dev nD) (t : Fin cfg1.N) : (dat1 V c).after 2 t = blockOf1 V c 2 t := by dsimp only [dat1]
theorem after1_3 (c : Dev nD) (t : Fin cfg1.N) : (dat1 V c).after 3 t = blockOf1 V c 3 t := by dsimp only [dat1]
theorem after1_4 (c : Dev nD) (t : Fin cfg1.N) : (dat1 V c).after 4 t = blockOf1 V c 4 t := by dsimp only [dat1]
theorem after1_5 (c : Dev nD) (t : Fin cfg1.N) : (dat1 V c).after 5 t =
    attnOut (blockOf1 V c 0 t) (blockOf1 V c 1 t) (blockOf1 V c 2 t) (blockOf1 V c 3 t) (blockOf1 V c 4 t) := by dsimp only [dat1]

end Cert.KernelIdeal.Hand

end
-- ==== Proof.KI.Body0.lean ====
/-
  Region 0 (the fused projection): the body obligation of its pipeline, at the region-entry contents V.

  At every grid point each input window's current staging buffer holds that window's block of the array the region
  finds: the activations' block is fetched at every point; the weights and the bias are fetched at the first point only,
  and at a later point their block index has not moved, so the buffer still holds the same (whole) block.  The body
  loads the three inputs, and for each output loads its buffer (the value is discarded) and stores the whole 512 x 1024
  block once; one whole-block store covers the buffer, so what the body leaves reads as the one-piece canon of
  Blocks.lean (projQ, projK, projV).
-/
import proofs.«136797_j3427383902664_2_alg».proof.Proof.KI.Blocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

/-- Input window 0 (the activations) holds its block at every point, for any proof data whose array is V's and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blockOf0 V c 0 t) (t : Fin cfg0.N) (d) : dat.before 0 t d = blockOf0 V c 0 t :=
  (dat.before_in_eq_fetched 0 rfl (fun _ => rfl) (fun _ _ _ => rfl) (fun t => by rw [hafter]; unfold Dat.blockOf blockOf0; rw [hA]; try rfl) t d).trans
    (by unfold Dat.fetched Dat.blockOf blockOf0; rw [hA]; try rfl)

/-- Input window 1 (the concatenated weights) holds its block at every point, fetched there or not: where it is not
    fetched its block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = blockOf0 V c 1 t) (t : Fin cfg0.N) (d) : dat.before 1 t d = blockOf0 V c 1 t :=
  (dat.before_in_eq_fetched 1 rfl (fun _ => rfl) (fun _ _ _ => rfl) (fun t => by rw [hafter]; unfold Dat.blockOf blockOf0; rw [hA]; try rfl) t d).trans
    (by unfold Dat.fetched Dat.blockOf blockOf0; rw [hA]; try rfl)

/-- Input window 2 (the concatenated bias) holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = blockOf0 V c 2 t) (t : Fin cfg0.N) (d) : dat.before 2 t d = blockOf0 V c 2 t :=
  (dat.before_in_eq_fetched 2 rfl (fun _ => rfl) (fun _ _ _ => rfl) (fun t => by rw [hafter]; unfold Dat.blockOf blockOf0; rw [hA]; try rfl) t d).trans
    (by unfold Dat.fetched Dat.blockOf blockOf0; rw [hA]; try rfl)

theorem before0_0 (c : Dev nD) (t : Fin cfg0.N) (d) : (dat0 V c).before 0 t d = blockOf0 V c 0 t :=
  before0_0_of V (dat0 V c) (A_eq0 V c 0) (after0_0 V c) t d
theorem before0_1 (c : Dev nD) (t : Fin cfg0.N) (d) : (dat0 V c).before 1 t d = blockOf0 V c 1 t :=
  before0_1_of V (dat0 V c) (A_eq0 V c 1) (after0_1 V c) t d
theorem before0_2 (c : Dev nD) (t : Fin cfg0.N) (d) : (dat0 V c).before 2 t d = blockOf0 V c 2 t :=
  before0_2_of V (dat0 V c) (A_eq0 V c 2) (after0_2 V c) t d

/-! ## One whole-block store covers its buffer -/

/-- The single store of an output block is of the whole 512 x 1024 rectangle, so it covers the buffer. -/
theorem coverX (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 1000000 in
/-- The body on whole staging memrefs, the inputs' at contents x0 x1 x2 and the outputs' at anything, runs to the
    continuation holding the inputs' as they were and the outputs' at the three projections of the inputs. -/
theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .bf16) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projQ x0 x1 x2) ∗ owns (c : Thread nD τ) arg5 fullShare (projK x0 x1 x2)
            ∗ owns (c : Thread nD τ) arg6 fullShare (projV x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverX _)
  isplitl [H4]
  · iexists _; isplitr
    swap; · iexact H4
    ipureintro
    exact View.read_writes_eq_canon _ _ _ (coverX _)
  iexists _; isplitr
  swap; · iexact H5
  ipureintro
  exact View.read_writes_eq_canon _ _ _ (coverX _)

/-! ## The body obligation, at a generic point -/

/-- What the body is called with at point t: the invariant, the core's dues, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (blockOf0 V c 0 t) (blockOf0 V c 1 t) (blockOf0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1's body obligation: at every grid point the attention body, run on the window buffers holding the point's
  input blocks, leaves the result block in the output window's buffer.
-/
import proofs.«136797_j3427383902664_2_alg».proof.Proof.KI.Blocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the TensorCore's buffer contents when a region is entered
variable (V : (c : Dev nD) → (b : Ref sig .tc) → Buf (Elt F) ((c : Thread nD τ).loc b))

local notation "𝕄" => MT nD τ sig Unit (Elt F) ℕ (UR sig nD τ) ℕ

/-! ## The input windows' buffers hold their blocks -/

/-- An input window's current buffer holds its block at every point, whether the pipeline fetched it there or the
    block index has not moved since the last fetch; for any proof data over the region-entry arrays whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = blockOf1 V c 0 t) (t : Fin cfg1.N) (d) : dat.before 0 t d = blockOf1 V c 0 t :=
  (dat.before_in_eq_fetched 0 rfl (fun _ => rfl) (fun _ _ _ => rfl) (fun t => by rw [hafter]; unfold Dat.blockOf blockOf1; rw [hA]; try rfl) t d).trans
    (by unfold Dat.fetched Dat.blockOf blockOf1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blockOf1 V c 1 t) (t : Fin cfg1.N) (d) : dat.before 1 t d = blockOf1 V c 1 t :=
  (dat.before_in_eq_fetched 1 rfl (fun _ => rfl) (fun _ _ _ => rfl) (fun t => by rw [hafter]; unfold Dat.blockOf blockOf1; rw [hA]; try rfl) t d).trans
    (by unfold Dat.fetched Dat.blockOf blockOf1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = blockOf1 V c 2 t) (t : Fin cfg1.N) (d) : dat.before 2 t d = blockOf1 V c 2 t :=
  (dat.before_in_eq_fetched 2 rfl (fun _ => rfl) (fun _ _ _ => rfl) (fun t => by rw [hafter]; unfold Dat.blockOf blockOf1; rw [hA]; try rfl) t d).trans
    (by unfold Dat.fetched Dat.blockOf blockOf1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = blockOf1 V c 3 t) (t : Fin cfg1.N) (d) : dat.before 3 t d = blockOf1 V c 3 t :=
  (dat.before_in_eq_fetched 3 rfl (fun _ => rfl) (fun _ _ _ => rfl) (fun t => by rw [hafter]; unfold Dat.blockOf blockOf1; rw [hA]; try rfl) t d).trans
    (by unfold Dat.fetched Dat.blockOf blockOf1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = blockOf1 V c 4 t) (t : Fin cfg1.N) (d) : dat.before 4 t d = blockOf1 V c 4 t :=
  (dat.before_in_eq_fetched 4 rfl (fun _ => rfl) (fun _ _ _ => rfl) (fun t => by rw [hafter]; unfold Dat.blockOf blockOf1; rw [hA]; try rfl) t d).trans
    (by unfold Dat.fetched Dat.blockOf blockOf1; rw [hA]; try rfl)

/-! ## The single store covers the output buffer -/

theorem cover1_5 (p0 : Vec F S1x512x1024 .f32) (y : S1x512x1024.Idx) :
    ∃ pc ∈ ([⟨rQ, p0⟩] : List (View.Piece (Elt F) S1x512x1024 .f32)), y ∈ pc.1.set :=
  View.cover_of_tiled [⟨rQ, p0⟩] S1x512x1024.size (by rfl) y

/-! ## The body's triple -/

set_option maxHeartbeats 1000000 in
/-- The attention body on whole buffers, the five inputs' at read contents x0..x4 and the output's at anything,
    runs to the continuation holding the inputs' as they were and the output's at attnOut of the inputs'. -/
theorem sound_kernel1 (c : Dev nD) (E : Set ℕ) (i : grid1.Coords)
    (arg2 : Memref sig .tc .vmem S1x512x1024 .bf16) (harg2 : arg2.IsWhole)
    (arg3 : Memref sig .tc .vmem S1x2048x1024 .bf16) (harg3 : arg3.IsWhole)
    (arg4 : Memref sig .tc .vmem S1x2048x1024 .bf16) (harg4 : arg4.IsWhole)
    (arg5 : Memref sig .tc .vmem S1024x1024 .bf16) (harg5 : arg5.IsWhole)
    (arg6 : Memref sig .tc .vmem S1024 .f32) (harg6 : arg6.IsWhole)
    (arg7 : Memref sig .tc .vmem S1x512x1024 .f32) (harg7 : arg7.IsWhole)
    (x0 : Vec F S1x512x1024 .bf16) (x1 x2 : Vec F S1x2048x1024 .bf16) (x3 : Vec F S1024x1024 .bf16) (x4 : Vec F S1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (attnOut x0 x1 x2 x3 x4)) -∗ K ⟨⟩))
      ⊢ wp frame (wpE (defs₀ (F := F)) Variants.none c none) E
          (cc1__attn_o_kernel i arg2 harg2 arg3 harg3 arg4 harg4 arg5 harg5 arg6 harg6 arg7 harg7) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover1_5 _)).trans ?_
  unfold attnOut headsCat
  sl_unfold_run_names
  rfl

/-! ## The body obligation, at a generic point -/

theorem before1_0 (c : Dev nD) (t : Fin cfg1.N) (d) : (dat1 V c).before 0 t d = blockOf1 V c 0 t :=
  before1_0_of V (dat1 V c) (A_eq1 V c 0) (after1_0 V c) t d
theorem before1_1 (c : Dev nD) (t : Fin cfg1.N) (d) : (dat1 V c).before 1 t d = blockOf1 V c 1 t :=
  before1_1_of V (dat1 V c) (A_eq1 V c 1) (after1_1 V c) t d
theorem before1_2 (c : Dev nD) (t : Fin cfg1.N) (d) : (dat1 V c).before 2 t d = blockOf1 V c 2 t :=
  before1_2_of V (dat1 V c) (A_eq1 V c 2) (after1_2 V c) t d
theorem before1_3 (c : Dev nD) (t : Fin cfg1.N) (d) : (dat1 V c).before 3 t d = blockOf1 V c 3 t :=
  before1_3_of V (dat1 V c) (A_eq1 V c 3) (after1_3 V c) t d
theorem before1_4 (c : Dev nD) (t : Fin cfg1.N) (d) : (dat1 V c).before 4 t d = blockOf1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blockOf1 V c 0 t) (blockOf1 V c 1 t) (blockOf1 V c 2 t) (blockOf1 V c 3 t) (blockOf1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the idealized kernel's @main: a stretch of host operations (reshape, casts, transposes and the two
  concatenations), region 0 (the fused projection), a second stretch (three reshapes, a transpose and a cast), region 1
  (attention and the output projection).

  The buffer contents at each boundary are a fold from the launch memory: a stretch's effect on the valuation, then a
  region's arrays at what its write-backs leave and every other buffer as entered.  Each region is a segment over the
  thread state "every unscoped buffer at the boundary's contents, the generator register at some state, nothing owed";
  the launch theorem over the four segments gives a run that terminates, with every unscoped buffer read at the last
  boundary's contents W4.  The nine argument arrays are written by no stretch and by no region (the output bias is read
  through an input window of region 1), so W4 at each is the launch memory.
-/
import proofs.«136797_j3427383902664_2_alg».proof.Proof.KI.Body0
import proofs.«136797_j3427383902664_2_alg».proof.Proof.KI.Body1
import proofs.«136797_j3427383902664_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- A buffer that neither host stretch writes and that is no window's array of either region holds at the last
    boundary what the launch memory holds. -/
theorem W4_of_untouched (c : Dev nD) (b : Ref sig .tc) (h4 : ∀ w, Pipeline.arrRef spec1 w ≠ b) (h3 : b ∉ hostOps1_W)
    (h2 : ∀ w, Pipeline.arrRef spec0 w ≠ b) (h1 : b ∉ hostOps0_W) :
    W4 m ρ c (Proc.devRef .tc b) = m ((c : Thread nD τ).loc b) :=
  calc W4 m ρ c (Proc.devRef .tc b)
    _ = W3 m ρ c (Proc.devRef .tc b) := W4_of_ne m ρ c b h4
    _ = W2 m ρ c (Proc.devRef .tc b) := StableHlo.after_of_writes_sub hostOps1 _ hostOps1_writes h3
    _ = W1 m ρ c (Proc.devRef .tc b) := W2_of_ne m ρ c b h2
    _ = W0 m ρ c (Proc.devRef .tc b) := StableHlo.after_of_writes_sub hostOps0 _ hostOps0_writes h1
    _ = m ((c : Thread nD τ).loc b) := rfl

theorem W4_main_arg0 (c : Dev nD) : W4 m ρ c (Proc.devRef .tc main_arg0) = m ((c : Thread nD τ).loc main_arg0) :=
  W4_of_untouched m ρ c main_arg0 (by decide) (by decide) (by decide) (by decide)
theorem W4_main_arg1 (c : Dev nD) : W4 m ρ c (Proc.devRef .tc main_arg1) = m ((c : Thread nD τ).loc main_arg1) :=
  W4_of_untouched m ρ c main_arg1 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)
theorem W4_main_arg6 (c : Dev nD) : W4 m ρ c (Proc.devRef .tc main_arg6) = m ((c : Thread nD τ).loc main_arg6) :=
  W4_of_untouched m ρ c main_arg6 (by decide) (by decide) (by decide) (by decide)
theorem W4_main_arg7 (c : Dev nD) : W4 m ρ c (Proc.devRef .tc main_arg7) = m ((c : Thread nD τ).loc main_arg7) :=
  W4_of_untouched m ρ c main_arg7 (by decide) (by decide) (by decide) (by decide)

/-- The output bias is the array of region 1's input window 4: the pipeline leaves an input's array as entered. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 4).trans (((dat1 (V3 m ρ) c).arrAt_in 4 rfl _).trans (A_eq1 (V3 m ρ) c 4))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- The result array is region 1's output window 5: at the end it holds what the pipeline's write-backs leave. -/
theorem W4_main_v14 (c : Dev nD) : W4 m ρ c (Proc.devRef .tc main_v14) = (dat1 (V3 m ρ) c).arrAt 5 cfg1.N :=
  W4_arr m ρ c 5

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at W1, left at W2.  Its arrays are split out of
    the unscoped buffers and put back at the exit contents; the generator register goes into the invariant and out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4 (what the launch reads at
    the end), in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- The whole run: from any memory with zero counters every weakly fair execution of @main on the TensorCores
    terminates, nothing faulting, and in every final state each unscoped buffer of each core holds the last boundary's
    contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.KernelIdeal.Hand

end
-- ==== Proof.Spec.lean ====
/-
  Multi-head attention on the extended reals: the one function both programs compute.

  For activations x (4 batches of 2048 rows of 1024 features), weight matrices W stored (output, input) and biases b:
    lin x W b       = x · Wᵀ + b                               (a linear layer, row by row)
    score Q K       = the inner product of a query row and a key row over the 64 columns of one head, times 1/8
    prob Q K        = the softmax of a query's scores over the 2048 keys, the row maximum subtracted first
    ctx Q K V       = the probabilities times the values, head by head; head h owns columns 64h .. 64h+63
    mha             = lin (ctx (lin x Wq bq) (lin x Wk bk) (lin x Wv bv)) Wo bo
  The word 0x3E000000 is 1/8 and the word 0xFF800000 is −∞; neither is ever evaluated: both sides carry the same word.
-/
import Idealize.ShloMosaic.PureOps.Ideal
import Idealize.ShloMosaic.PureOps.Ideal.Laws
import Idealize.ShloMosaic.Lib.ValueIdx

noncomputable section

namespace Cert.Mha

open Idealize.ShloMosaic Idealize.ShloMosaic.ValueIdx

/-- A batch of activations: batch, row, feature. -/
abbrev Act := Fin 4 → Fin 2048 → Fin 1024 → EReal
/-- A weight matrix, stored (output feature, input feature). -/
abbrev Wt := Fin 1024 → Fin 1024 → EReal
/-- A bias. -/
abbrev Bias := Fin 1024 → EReal

/-- An array of shape [4, 2048, 1024] as a function of its three coordinates. -/
def act3 (a : (⟨3, ![4, 2048, 1024]⟩ : Shape).Idx → EReal) : Act := fun n s d => a (ix3 n s d)
/-- An array of shape [1024, 1024] as a function of its two coordinates. -/
def mat2 (a : (⟨2, ![1024, 1024]⟩ : Shape).Idx → EReal) : Wt := fun e d => a (ix2 e d)
/-- An array of shape [1024] as a function of its coordinate. -/
def vec1 (a : (⟨1, ![1024]⟩ : Shape).Idx → EReal) : Bias := fun e => a (ix1 e)

/-- The scale 1/8 = 1/sqrt 64, as the word both programs carry. -/
def eighth : EReal := Ideal.ofBits .f32 0x3E000000#32
/-- The value the row maximum starts from (−∞), as the word both programs carry. -/
def floorVal : EReal := Ideal.ofBits .f32 0xFF800000#32

/-- A linear layer: row (n, s) of x times the transpose of W, plus the bias. -/
def lin (x : Act) (W : Wt) (b : Bias) : Act :=
  fun n s e => (∑ d : Fin 1024, x n s d * W e d) + b e

/-- Column d of head h among the 1024 features. -/
def col (h : Fin 16) (d : Fin 64) : Fin 1024 := ⟨h.val * 64 + d.val, by have := h.isLt; have := d.isLt; omega⟩

/-- The head a feature column belongs to. -/
def headOf (j : Fin 1024) : Fin 16 := ⟨j.val / 64, by have := j.isLt; omega⟩

/-- The scaled score of query row q against key row k in head h of batch n. -/
def score (Q K : Act) (n : Fin 4) (h : Fin 16) (q k : Fin 2048) : EReal :=
  (∑ d : Fin 64, Q n q (col h d) * K n k (col h d)) * eighth

/-- The maximum of a row of 2048 scores, folded from −∞. -/
def rowMax (f : Fin 2048 → EReal) : EReal := (Finset.univ : Finset (Fin 2048)).fold max floorVal f

/-- The unnormalized weight exp(score − row maximum). -/
def expo (Q K : Act) (n : Fin 4) (h : Fin 16) (q k : Fin 2048) : EReal :=
  Ideal.exp (score Q K n h q k - rowMax (score Q K n h q))

/-- The softmax probability of key k for query q. -/
def prob (Q K : Act) (n : Fin 4) (h : Fin 16) (q k : Fin 2048) : EReal :=
  Ideal.div (expo Q K n h q k) (∑ k' : Fin 2048, expo Q K n h q k')

/-- The attention context: for feature column j (of head j / 64) the probabilities times the values' column j. -/
def ctx (Q K V : Act) : Act :=
  fun n s j => ∑ k : Fin 2048, prob Q K n (headOf j) s k * V n k j

/-- Multi-head attention with its four linear layers. -/
def mha (x : Act) (Wq : Wt) (bq : Bias) (Wk : Wt) (bk : Bias) (Wv : Wt) (bv : Bias) (Wo : Wt) (bo : Bias) : Act :=
  lin (ctx (lin x Wq bq) (lin x Wk bk) (lin x Wv bv)) Wo bo

/-- Taking the maximum with the starting value once more changes nothing: the fold already dominates it. -/
theorem max_floor_rowMax (f : Fin 2048 → EReal) : max floorVal (rowMax f) = rowMax f :=
  max_eq_right (Finset.le_fold_max (b := floorVal) (f := f) (s := Finset.univ) floorVal |>.mpr (Or.inl le_rfl))

end Cert.Mha

end
-- ==== Proof.KV.Host0.lean ====
/-
  The host operations before the projection region, read at an index on the extended reals (where a change of float
  format is the identity): the activations [4, 2048, 1024] flattened to 8192 rows, row n · 2048 + s being (n, s);
  the three weight matrices transposed and laid side by side in the columns 0.., 1024.., 2048.. of a
  1024 x 3072 matrix; the three bias vectors laid end to end in a vector of 3072.
-/
import proofs.«136797_j3427383902664_2_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KVal

open Idealize.ShloMosaic Idealize.ShloMosaic.ValueIdx Cert.KernelIdeal Cert.KernelIdeal.Gen

/-! ## A three-operand operation's result -/

/-- The result of an operation over a literal family of three references, each operand's contents at its own
    reference (so that the operands' own contents can be rewritten in turn). -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-! ## Three pieces of 1024 laid along an axis, read at an index -/

/-- Three 1024 x 1024 matrices side by side: column k · 1024 + e of the 1024 x 3072 matrix is column e of piece k. -/
theorem cat3_cols_apply {α : Type} (x₁ x₂ x₃ : (⟨2, ![1024, 1024]⟩ : Shape).Idx → α)
    (d e : Fin 1024) (j : Fin 3072) (k : Nat) (hk : k < 3) (hj : j.val = k * 1024 + e.val) :
    concatenate S1024x3072 1 [⟨S1024x1024, x₁⟩, ⟨S1024x1024, x₂⟩, ⟨S1024x1024, x₃⟩]
        concatenates_S1024x1024_S1024x1024_S1024x1024_S1024x3072_d1 (ix2 d j)
      = ([x₁, x₂, x₃][k]'hk) (ix2 d e) := by
  have hoff : ∀ b : Fin S1024x1024.rank, b.cast (rfl : S1024x1024.rank = S1024x3072.rank) ≠ (1 : Fin 2) →
      ((ix2 d e : S1024x1024.Idx) b).val = ((ix2 d j : S1024x3072.Idx) (b.cast rfl)).val := fun b hb =>
    match b, hb with
    | ⟨0, _⟩, _ => rfl
    | ⟨1, _⟩, hb => absurd rfl hb
  interval_cases k
  · exact concatenate_apply_piece (1 : Fin 2) [⟨S1024x1024, x₁⟩, ⟨S1024x1024, x₂⟩, ⟨S1024x1024, x₃⟩] _ (ix2 d j) 0 (by simp) S1024x1024 x₁ rfl rfl 0 rfl (ix2 d e) hoff
      (by show 0 + e.val = j.val; omega)
  · exact concatenate_apply_piece (1 : Fin 2) [⟨S1024x1024, x₁⟩, ⟨S1024x1024, x₂⟩, ⟨S1024x1024, x₃⟩] _ (ix2 d j) 1 (by simp) S1024x1024 x₂ rfl rfl 1024 rfl (ix2 d e) hoff
      (by show 1024 + e.val = j.val; omega)
  · exact concatenate_apply_piece (1 : Fin 2) [⟨S1024x1024, x₁⟩, ⟨S1024x1024, x₂⟩, ⟨S1024x1024, x₃⟩] _ (ix2 d j) 2 (by simp) S1024x1024 x₃ rfl rfl 2048 rfl (ix2 d e) hoff
      (by show 2048 + e.val = j.val; omega)

/-- Three vectors of 1024 end to end: entry k · 1024 + e of the vector of 3072 is entry e of piece k. -/
theorem cat3_vec_apply {α : Type} (x₁ x₂ x₃ : (⟨1, ![1024]⟩ : Shape).Idx → α)
    (e : Fin 1024) (j : Fin 3072) (k : Nat) (hk : k < 3) (hj : j.val = k * 1024 + e.val) :
    concatenate S3072 0 [⟨S1024, x₁⟩, ⟨S1024, x₂⟩, ⟨S1024, x₃⟩]
        concatenates_S1024_S1024_S1024_S3072_d0 (ix1 j)
      = ([x₁, x₂, x₃][k]'hk) (ix1 e) := by
  have hoff : ∀ b : Fin S1024.rank, b.cast (rfl : S1024.rank = S3072.rank) ≠ (0 : Fin 1) →
      ((ix1 e : S1024.Idx) b).val = ((ix1 j : S3072.Idx) (b.cast rfl)).val := fun b hb =>
    match b, hb with
    | ⟨0, _⟩, hb => absurd rfl hb
  interval_cases k
  · exact concatenate_apply_piece (0 : Fin 1) [⟨S1024, x₁⟩, ⟨S1024, x₂⟩, ⟨S1024, x₃⟩] _ (ix1 j) 0 (by simp) S1024 x₁ rfl rfl 0 rfl (ix1 e) hoff
      (by show 0 + e.val = j.val; omega)
  · exact concatenate_apply_piece (0 : Fin 1) [⟨S1024, x₁⟩, ⟨S1024, x₂⟩, ⟨S1024, x₃⟩] _ (ix1 j) 1 (by simp) S1024 x₂ rfl rfl 1024 rfl (ix1 e) hoff
      (by show 1024 + e.val = j.val; omega)
  · exact concatenate_apply_piece (0 : Fin 1) [⟨S1024, x₁⟩, ⟨S1024, x₂⟩, ⟨S1024, x₃⟩] _ (ix1 j) 2 (by simp) S1024 x₃ rfl rfl 2048 rfl (ix1 e) hoff
      (by show 2048 + e.val = j.val; omega)

/-- The flattening [4, 2048, 1024] → [8192, 1024]: row n · 2048 + s is (n, s). -/
theorem flatten_apply {α : Type} (x : (⟨3, ![4, 2048, 1024]⟩ : Shape).Idx → α)
    (n : Fin 4) (s : Fin 2048) (d : Fin 1024) (r : Fin 8192) (hr : r.val = n.val * 2048 + s.val) :
    shapeCast S8192x1024 x shapeCasts_S4x2048x1024_S8192x1024 (ix2 r d) = x (ix3 n s d) := by
  refine shapeCast_apply x _ (ix2 r d) (ix3 n s d) ?_
  rw [Shape.rowMajor_val_three, Shape.rowMajor_val_two]
  show (n.val * 2048 + s.val) * 1024 + d.val = r.val * 1024 + d.val
  omega

/-! ## The buffers after the stretch, as the operations' composed terms -/

/-- The flattened activations: the reshape, then the change of format. -/
theorem host0_v1_eq (W : Valuation τ sig (Elt Ideal)) :
    (StableHlo.after hostOps0 W (Proc.devRef .tc main_v1) : FVec Ideal S8192x1024 .bf16)
      = truncf (F := Ideal) .bf16 (shapeCast S8192x1024 (W (Proc.devRef .tc main_arg0) : FVec Ideal S4x2048x1024 .f32)
          shapeCasts_S4x2048x1024_S8192x1024) bitsLt_bf16_f32 := by
  dsimp only [hostOps0]
  after_results
  rfl

/-- The concatenated weights: the three transposes side by side, then the change of format. -/
theorem host0_v6_eq (W : Valuation τ sig (Elt Ideal)) :
    (StableHlo.after hostOps0 W (Proc.devRef .tc main_v6) : FVec Ideal S1024x3072 .bf16)
      = truncf (F := Ideal) .bf16 (concatenate S1024x3072 1
          [⟨S1024x1024, transpose S1024x1024 [1, 0] (W (Proc.devRef .tc main_arg1) : FVec Ideal S1024x1024 .f32) transposes_S1024x1024_S1024x1024_1_0⟩,
           ⟨S1024x1024, transpose S1024x1024 [1, 0] (W (Proc.devRef .tc main_arg3) : FVec Ideal S1024x1024 .f32) transposes_S1024x1024_S1024x1024_1_0⟩,
           ⟨S1024x1024, transpose S1024x1024 [1, 0] (W (Proc.devRef .tc main_arg5) : FVec Ideal S1024x1024 .f32) transposes_S1024x1024_S1024x1024_1_0⟩]
          concatenates_S1024x1024_S1024x1024_S1024x1024_S1024x3072_d1) bitsLt_bf16_f32 := by
  dsimp only [hostOps0]
  simp only [StableHlo.after_cons, StableHlo.after_nil]
  rw [StableHlo.nary_result_ne]; rotate_left; decide
  rw [StableHlo.unary_result, nary3_result]
  repeat (first
    | rw [StableHlo.unary_result] | rw [StableHlo.reshape_result]
    | (rw [StableHlo.unary_result_ne]; rotate_left; decide)
    | (rw [StableHlo.reshape_result_ne]; rotate_left; decide)
    | (rw [StableHlo.nary_result_ne]; rotate_left; decide))
  rfl

/-- The concatenated bias: the three vectors end to end. -/
theorem host0_v7_eq (W : Valuation τ sig (Elt Ideal)) :
    (StableHlo.after hostOps0 W (Proc.devRef .tc main_v7) : FVec Ideal S3072 .f32)
      = concatenate S3072 0
          [⟨S1024, (W (Proc.devRef .tc main_arg2) : FVec Ideal S1024 .f32)⟩,
           ⟨S1024, (W (Proc.devRef .tc main_arg4) : FVec Ideal S1024 .f32)⟩,
           ⟨S1024, (W (Proc.devRef .tc main_arg6) : FVec Ideal S1024 .f32)⟩]
          concatenates_S1024_S1024_S1024_S3072_d0 := by
  dsimp only [hostOps0]
  simp only [StableHlo.after_cons, StableHlo.after_nil]
  rw [nary3_result]
  repeat (first
    | rw [StableHlo.unary_result] | rw [StableHlo.reshape_result]
    | (rw [StableHlo.unary_result_ne]; rotate_left; decide)
    | (rw [StableHlo.reshape_result_ne]; rotate_left; decide)
    | (rw [StableHlo.nary_result_ne]; rotate_left; decide))
  rfl

/-! ## The buffers after the stretch, at an index -/

/-- Row n · 2048 + s of the flattened activations is the activations' (n, s). -/
theorem host0_x (W : Valuation τ sig (Elt Ideal)) (n : Fin 4) (s : Fin 2048) (d : Fin 1024) (r : Fin 8192)
    (hr : r.val = n.val * 2048 + s.val) :
    (StableHlo.after hostOps0 W (Proc.devRef .tc main_v1) : S8192x1024.Idx → EReal) (ix2 r d)
      = (W (Proc.devRef .tc main_arg0) : S4x2048x1024.Idx → EReal) (ix3 n s d) := by
  rw [host0_v1_eq, truncf_apply]
  exact flatten_apply _ n s d r hr

/-- Column e of the concatenated weights is the query weights' row e. -/
theorem host0_wq (W : Valuation τ sig (Elt Ideal)) (d e : Fin 1024) (j : Fin 3072) (hj : j.val = 0 + e.val) :
    (StableHlo.after hostOps0 W (Proc.devRef .tc main_v6) : S1024x3072.Idx → EReal) (ix2 d j)
      = (W (Proc.devRef .tc main_arg1) : S1024x1024.Idx → EReal) (ix2 e d) := by
  rw [host0_v6_eq, truncf_apply, cat3_cols_apply _ _ _ d e j 0 (by decide) (by omega)]
  exact transpose_ix2_apply _ _ d e

/-- Column 1024 + e of the concatenated weights is the key weights' row e. -/
theorem host0_wk (W : Valuation τ sig (Elt Ideal)) (d e : Fin 1024) (j : Fin 3072) (hj : j.val = 1024 + e.val) :
    (StableHlo.after hostOps0 W (Proc.devRef .tc main_v6) : S1024x3072.Idx → EReal) (ix2 d j)
      = (W (Proc.devRef .tc main_arg3) : S1024x1024.Idx → EReal) (ix2 e d) := by
  rw [host0_v6_eq, truncf_apply, cat3_cols_apply _ _ _ d e j 1 (by decide) (by omega)]
  exact transpose_ix2_apply _ _ d e

/-- Column 2048 + e of the concatenated weights is the value weights' row e. -/
theorem host0_wv (W : Valuation τ sig (Elt Ideal)) (d e : Fin 1024) (j : Fin 3072) (hj : j.val = 2048 + e.val) :
    (StableHlo.after hostOps0 W (Proc.devRef .tc main_v6) : S1024x3072.Idx → EReal) (ix2 d j)
      = (W (Proc.devRef .tc main_arg5) : S1024x1024.Idx → EReal) (ix2 e d) := by
  rw [host0_v6_eq, truncf_apply, cat3_cols_apply _ _ _ d e j 2 (by decide) (by omega)]
  exact transpose_ix2_apply _ _ d e

/-- Entry e of the concatenated bias is the query bias' entry e. -/
theorem host0_bq (W : Valuation τ sig (Elt Ideal)) (e : Fin 1024) (j : Fin 3072) (hj : j.val = 0 + e.val) :
    (StableHlo.after hostOps0 W (Proc.devRef .tc main_v7) : S3072.Idx → EReal) (ix1 j)
      = (W (Proc.devRef .tc main_arg2) : S1024.Idx → EReal) (ix1 e) := by
  rw [host0_v7_eq, cat3_vec_apply _ _ _ e j 0 (by decide) (by omega)]
  rfl

/-- Entry 1024 + e of the concatenated bias is the key bias' entry e. -/
theorem host0_bk (W : Valuation τ sig (Elt Ideal)) (e : Fin 1024) (j : Fin 3072) (hj : j.val = 1024 + e.val) :
    (StableHlo.after hostOps0 W (Proc.devRef .tc main_v7) : S3072.Idx → EReal) (ix1 j)
      = (W (Proc.devRef .tc main_arg4) : S1024.Idx → EReal) (ix1 e) := by
  rw [host0_v7_eq, cat3_vec_apply _ _ _ e j 1 (by decide) (by omega)]
  rfl

/-- Entry 2048 + e of the concatenated bias is the value bias' entry e. -/
theorem host0_bv (W : Valuation τ sig (Elt Ideal)) (e : Fin 1024) (j : Fin 3072) (hj : j.val = 2048 + e.val) :
    (StableHlo.after hostOps0 W (Proc.devRef .tc main_v7) : S3072.Idx → EReal) (ix1 j)
      = (W (Proc.devRef .tc main_arg6) : S1024.Idx → EReal) (ix1 e) := by
  rw [host0_v7_eq, cat3_vec_apply _ _ _ e j 2 (by decide) (by omega)]
  rfl

end Cert.KernelIdeal.KVal
-- ==== Proof.KV.Host1.lean ====
/-
  The host operations between the projection region and the attention region, read at an index on the extended
  reals (where a change of float format is the identity): each projected [8192, 1024] buffer unflattened to
  [4, 2048, 1024], (n, s) being row n · 2048 + s; the output weights transposed; the output bias untouched.
-/
import proofs.«136797_j3427383902664_2_alg».proof.Proof.Gen.KernelIdeal.Launch
import proofs.«136797_j3427383902664_2_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KVal

open Idealize.ShloMosaic Idealize.ShloMosaic.ValueIdx Cert.KernelIdeal Cert.KernelIdeal.Gen

/-- The unflattening [8192, 1024] → [4, 2048, 1024]: (n, s) is row n · 2048 + s. -/
theorem unflatten_apply {α : Type} (x : (⟨2, ![8192, 1024]⟩ : Shape).Idx → α)
    (n : Fin 4) (s : Fin 2048) (e : Fin 1024) (r : Fin 8192) (hr : r.val = n.val * 2048 + s.val) :
    shapeCast S4x2048x1024 x shapeCasts_S8192x1024_S4x2048x1024 (ix3 n s e) = x (ix2 r e) := by
  refine shapeCast_apply x _ (ix3 n s e) (ix2 r e) ?_
  rw [Shape.rowMajor_val_three, Shape.rowMajor_val_two]
  show r.val * 1024 + e.val = (n.val * 2048 + s.val) * 1024 + e.val
  omega

/-! ## The buffers after the stretch, as the operations' composed terms -/

/-- The queries unflattened. -/
theorem host1_v9_eq (W : Valuation τ sig (Elt Ideal)) :
    (StableHlo.after hostOps1 W (Proc.devRef .tc main_v9) : FVec Ideal S4x2048x1024 .bf16)
      = shapeCast S4x2048x1024 (W (Proc.devRef .tc main_v8_0) : FVec Ideal S8192x1024 .bf16) shapeCasts_S8192x1024_S4x2048x1024 := by
  dsimp only [hostOps1]
  after_results
  rfl

/-- The keys unflattened. -/
theorem host1_v10_eq (W : Valuation τ sig (Elt Ideal)) :
    (StableHlo.after hostOps1 W (Proc.devRef .tc main_v10) : FVec Ideal S4x2048x1024 .bf16)
      = shapeCast S4x2048x1024 (W (Proc.devRef .tc main_v8_1) : FVec Ideal S8192x1024 .bf16) shapeCasts_S8192x1024_S4x2048x1024 := by
  dsimp only [hostOps1]
  after_results
  rfl

/-- The values unflattened. -/
theorem host1_v11_eq (W : Valuation τ sig (Elt Ideal)) :
    (StableHlo.after hostOps1 W (Proc.devRef .tc main_v11) : FVec Ideal S4x2048x1024 .bf16)
      = shapeCast S4x2048x1024 (W (Proc.devRef .tc main_v8_2) : FVec Ideal S8192x1024 .bf16) shapeCasts_S8192x1024_S4x2048x1024 := by
  dsimp only [hostOps1]
  after_results
  rfl

/-- The output weights: the transpose, then the change of format. -/
theorem host1_v13_eq (W : Valuation τ sig (Elt Ideal)) :
    (StableHlo.after hostOps1 W (Proc.devRef .tc main_v13) : FVec Ideal S1024x1024 .bf16)
      = truncf (F := Ideal) .bf16 (transpose S1024x1024 [1, 0] (W (Proc.devRef .tc main_arg7) : FVec Ideal S1024x1024 .f32)
          transposes_S1024x1024_S1024x1024_1_0) bitsLt_bf16_f32 := by
  dsimp only [hostOps1]
  after_results

/-! ## The buffers after the stretch, at an index -/

/-- The unflattened queries at (n, s) are row n · 2048 + s of the projected queries. -/
theorem host1_q (W : Valuation τ sig (Elt Ideal)) (n : Fin 4) (s : Fin 2048) (e : Fin 1024) (r : Fin 8192)
    (hr : r.val = n.val * 2048 + s.val) :
    (StableHlo.after hostOps1 W (Proc.devRef .tc main_v9) : S4x2048x1024.Idx → EReal) (ix3 n s e)
      = (W (Proc.devRef .tc main_v8_0) : S8192x1024.Idx → EReal) (ix2 r e) := by
  rw [host1_v9_eq]
  exact unflatten_apply _ n s e r hr

/-- The unflattened keys at (n, s) are row n · 2048 + s of the projected keys. -/
theorem host1_k (W : Valuation τ sig (Elt Ideal)) (n : Fin 4) (s : Fin 2048) (e : Fin 1024) (r : Fin 8192)
    (hr : r.val = n.val * 2048 + s.val) :
    (StableHlo.after hostOps1 W (Proc.devRef .tc main_v10) : S4x2048x1024.Idx → EReal) (ix3 n s e)
      = (W (Proc.devRef .tc main_v8_1) : S8192x1024.Idx → EReal) (ix2 r e) := by
  rw [host1_v10_eq]
  exact unflatten_apply _ n s e r hr

/-- The unflattened values at (n, s) are row n · 2048 + s of the projected values. -/
theorem host1_v (W : Valuation τ sig (Elt Ideal)) (n : Fin 4) (s : Fin 2048) (e : Fin 1024) (r : Fin 8192)
    (hr : r.val = n.val * 2048 + s.val) :
    (StableHlo.after hostOps1 W (Proc.devRef .tc main_v11) : S4x2048x1024.Idx → EReal) (ix3 n s e)
      = (W (Proc.devRef .tc main_v8_2) : S8192x1024.Idx → EReal) (ix2 r e) := by
  rw [host1_v11_eq]
  exact unflatten_apply _ n s e r hr

/-- The transposed output weights at (j, e) are the output weights at (e, j). -/
theorem host1_wo (W : Valuation τ sig (Elt Ideal)) (j e : Fin 1024) :
    (StableHlo.after hostOps1 W (Proc.devRef .tc main_v13) : S1024x1024.Idx → EReal) (ix2 j e)
      = (W (Proc.devRef .tc main_arg7) : S1024x1024.Idx → EReal) (ix2 e j) := by
  rw [host1_v13_eq, truncf_apply]
  exact transpose_ix2_apply _ _ j e

/-- No operation of the stretch writes the output bias. -/
theorem host1_bo (W : Valuation τ sig (Elt Ideal)) :
    StableHlo.after hostOps1 W (Proc.devRef .tc main_arg8) = W (Proc.devRef .tc main_arg8) :=
  StableHlo.after_of_writes_sub hostOps1 W hostOps1_writes (by decide)

end Cert.KernelIdeal.KVal
-- ==== Proof.KV.Dots.lean ====
/-
  The kernel's four matrix products into a zero accumulator, read at an index on the extended reals: each is the sum over
  the one contracted coordinate of the products of the operands' entries (the scores contract the key's SECOND axis:
  q · kᵀ).
-/
import proofs.«136797_j3427383902664_2_alg».proof.Proof.Gen.KernelIdeal
import Idealize.ShloMosaic.Lib.ValueIdx
import Idealize.ShloMosaic.PureOps.Ideal.Laws

noncomputable section

namespace Cert.KernelIdeal.KVal

open Idealize.ShloMosaic Idealize.ShloMosaic.ValueIdx Cert.KernelIdeal Cert.KernelIdeal.Gen

theorem projDot_l0 (i : S512x3072.Idx) (q : dot_S512x1024_S1024x3072_S512x3072_1_0_0_1_n_n.contr.Idx) : (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem projDot_l1 (i : S512x3072.Idx) (q : dot_S512x1024_S1024x3072_S512x3072_1_0_0_1_n_n.contr.Idx) : (dot_S512x1024_S1024x3072_S512x3072_1_0_0_1_n_n.lhsIdx i q 1).val = (q ⟨0, by decide⟩).val :=
  dot_S512x1024_S1024x3072_S512x3072_1_0_0_1_n_n.lhsIdx_val_of_single rfl i q
theorem projDot_rn (i : S512x3072.Idx) (q : dot_S512x1024_S1024x3072_S512x3072_1_0_0_1_n_n.contr.Idx) : (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl
theorem projDot_rc (i : S512x3072.Idx) (q : dot_S512x1024_S1024x3072_S512x3072_1_0_0_1_n_n.contr.Idx) : (dot_S512x1024_S1024x3072_S512x3072_1_0_0_1_n_n.rhsIdx i q 0).val = (q ⟨0, by decide⟩).val :=
  dot_S512x1024_S1024x3072_S512x3072_1_0_0_1_n_n.rhsIdx_val_of_single rfl i q
/-- The fused projection's product at (p, j): the sum over the 1024 input features. -/
theorem projDot_apply {φ₁ φ₂ : FTy} (x : FVec Ideal S512x1024 φ₁) (w : FVec Ideal S1024x3072 φ₂) (p : Fin 512) (j : Fin 3072) :
    matmul dot_S512x1024_S1024x3072_S512x3072_1_0_0_1_n_n none x w (constant S512x3072 .f32 0x00000000#32) (ix2 p j)
      = ∑ k : Fin 1024, x (ix2 p k) * w (ix2 k j) := by
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p j) ((contrEquiv1 dot_S512x1024_S1024x3072_S512x3072_1_0_0_1_n_n 1024 rfl rfl).symm k) = ix2 p k :=
    funext fun a => Fin.ext (by
      match a with
      | ⟨0, _⟩ => exact projDot_l0 _ _
      | ⟨1, _⟩ => exact (projDot_l1 _ _).trans hk)
  have er : dot_S512x1024_S1024x3072_S512x3072_1_0_0_1_n_n.rhsIdx (ix2 p j) ((contrEquiv1 dot_S512x1024_S1024x3072_S512x3072_1_0_0_1_n_n 1024 rfl rfl).symm k) = ix2 k j :=
    funext fun a => Fin.ext (by
      match a with
      | ⟨1, _⟩ => exact projDot_rn _ _
      | ⟨0, _⟩ => exact (projDot_rc _ _).trans hk)
  rw [el, er]

theorem scoreDot_l0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem scoreDot_l1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem scoreDot_rn (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem scoreDot_rc (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q
/-- A head's scores q · kᵀ at (p, j): the sum over the head's 64 columns of query row p times key row j. -/
theorem scoreDot_apply {φ₁ φ₂ : FTy} (x : FVec Ideal S512x64 φ₁) (w : FVec Ideal S2048x64 φ₂) (p : Fin 512) (j : Fin 2048) :
    matmul dot_S512x64_S2048x64_S512x2048_1_1_0_0_n_n none x w (constant S512x2048 .f32 0x00000000#32) (ix2 p j)
      = ∑ k : Fin 64, x (ix2 p k) * w (ix2 j k) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 p j) ((contrEquiv1 dot_S512x64_S2048x64_S512x2048_1_1_0_0_n_n 64 rfl rfl).symm k) = ix2 p k :=
    funext fun a => Fin.ext (by
      match a with
      | ⟨0, _⟩ => exact scoreDot_l0 _ _
      | ⟨1, _⟩ => exact (scoreDot_l1 _ _).trans hk)
  have er : dot_S512x64_S2048x64_S512x2048_1_1_0_0_n_n.rhsIdx (ix2 p j) ((contrEquiv1 dot_S512x64_S2048x64_S512x2048_1_1_0_0_n_n 64 rfl rfl).symm k) = ix2 j k :=
    funext fun a => Fin.ext (by
      match a with
      | ⟨0, _⟩ => exact scoreDot_rn _ _
      | ⟨1, _⟩ => exact (scoreDot_rc _ _).trans hk)
  rw [el, er]

theorem ctxDot_l0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem ctxDot_l1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem ctxDot_rn (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
theorem ctxDot_rc (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
/-- A head's context (probabilities times values) at (p, j): the sum over the 2048 keys. -/
theorem ctxDot_apply {φ₁ φ₂ : FTy} (x : FVec Ideal S512x2048 φ₁) (w : FVec Ideal S2048x64 φ₂) (p : Fin 512) (j : Fin 64) :
    matmul dot_S512x2048_S2048x64_S512x64_1_0_0_1_n_n none x w (constant S512x64 .f32 0x00000000#32) (ix2 p j)
      = ∑ k : Fin 2048, x (ix2 p k) * w (ix2 k j) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p j) ((contrEquiv1 dot_S512x2048_S2048x64_S512x64_1_0_0_1_n_n 2048 rfl rfl).symm k) = ix2 p k :=
    funext fun a => Fin.ext (by
      match a with
      | ⟨0, _⟩ => exact ctxDot_l0 _ _
      | ⟨1, _⟩ => exact (ctxDot_l1 _ _).trans hk)
  have er : dot_S512x2048_S2048x64_S512x64_1_0_0_1_n_n.rhsIdx (ix2 p j) ((contrEquiv1 dot_S512x2048_S2048x64_S512x64_1_0_0_1_n_n 2048 rfl rfl).symm k) = ix2 k j :=
    funext fun a => Fin.ext (by
      match a with
      | ⟨1, _⟩ => exact ctxDot_rn _ _
      | ⟨0, _⟩ => exact (ctxDot_rc _ _).trans hk)
  rw [el, er]

theorem outDot_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem outDot_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem outDot_rn (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem outDot_rc (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
/-- The output projection's product at (p, j): the sum over the 1024 context columns. -/
theorem outDot_apply {φ₁ φ₂ : FTy} (x : FVec Ideal S512x1024 φ₁) (w : FVec Ideal S1024x1024 φ₂) (p : Fin 512) (j : Fin 1024) :
    matmul dot_S512x1024_S1024x1024_S512x1024_1_0_0_1_n_n none x w (constant S512x1024 .f32 0x00000000#32) (ix2 p j)
      = ∑ k : Fin 1024, x (ix2 p k) * w (ix2 k j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p j) ((contrEquiv1 dot_S512x1024_S1024x1024_S512x1024_1_0_0_1_n_n 1024 rfl rfl).symm k) = ix2 p k :=
    funext fun a => Fin.ext (by
      match a with
      | ⟨0, _⟩ => exact outDot_l0 _ _
      | ⟨1, _⟩ => exact (outDot_l1 _ _).trans hk)
  have er : dot_S512x1024_S1024x1024_S512x1024_1_0_0_1_n_n.rhsIdx (ix2 p j) ((contrEquiv1 dot_S512x1024_S1024x1024_S512x1024_1_0_0_1_n_n 1024 rfl rfl).symm k) = ix2 k j :=
    funext fun a => Fin.ext (by
      match a with
      | ⟨1, _⟩ => exact outDot_rn _ _
      | ⟨0, _⟩ => exact (outDot_rc _ _).trans hk)
  rw [el, er]

end Cert.KernelIdeal.KVal

end
-- ==== Proof.KV.Pay0.lean ====
/-
  The projection body's three stored values, read at an index on the extended reals: with x the loaded 512 x 1024
  block of activations, W the 1024 x 3072 concatenated weights and b the 3072 concatenated bias,
  the stored query / key / value blocks at (p, e) are (∑ d, x(p,d) · W(d, o+e)) + b(o+e) for o = 0, 1024, 2048.
-/
import proofs.«136797_j3427383902664_2_alg».proof.Proof.Gen.KernelIdeal.Skeleton
import proofs.«136797_j3427383902664_2_alg».proof.Proof.KV.Dots
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Idealize.ShloMosaic Idealize.ShloMosaic.ValueIdx Cert.KernelIdeal Cert.KernelIdeal.Gen

/-- The projection before it is cut in three: x · W + b at (p, j) over all 3072 columns. -/
theorem projAll_apply (x0 : Vec Ideal S512x1024 .bf16) (x1 : Vec Ideal S1024x3072 .bf16) (x2 : Vec Ideal S3072 .f32)
    (p : Fin 512) (j : Fin 3072) :
    k0_pay1 x0 x1 x2 (ix2 p j) = (∑ d : Fin 1024, x0 (ix2 p d) * x1 (ix2 d j)) + x2 (ix1 j) := by
  unfold k0_pay1
  rw [addf_apply, shapeCast_self, shapeCast_self, shapeCast_self, projDot_apply,
    broadcastTo_1b_ab_apply, shapeCast_a_1a_apply]

/-- The stored query block at (p, e): column e of x · W + b. -/
theorem projQ_pay_apply (x0 : Vec Ideal S512x1024 .bf16) (x1 : Vec Ideal S1024x3072 .bf16) (x2 : Vec Ideal S3072 .f32)
    (p : Fin 512) (e : Fin 1024) (j : Fin 3072) (hj : j.val = 0 + e.val) :
    k0_pay2 x0 x1 x2 (ix2 p e) = (∑ d : Fin 1024, x0 (ix2 p d) * x1 (ix2 d j)) + x2 (ix1 j) := by
  unfold k0_pay2
  show truncf .bf16 (extractStridedSlice S512x1024 ![0, 0] (k0_pay1 x0 x1 x2) slices_S512x3072_o0_0_S512x1024) bitsLt_bf16_f32 (ix2 p e) = _
  rw [truncf_apply, slice2_axis1_apply 0 _ _ p e j hj, projAll_apply]

/-- The stored key block at (p, e): column 1024 + e of x · W + b. -/
theorem projK_pay_apply (x0 : Vec Ideal S512x1024 .bf16) (x1 : Vec Ideal S1024x3072 .bf16) (x2 : Vec Ideal S3072 .f32)
    (p : Fin 512) (e : Fin 1024) (j : Fin 3072) (hj : j.val = 1024 + e.val) :
    k0_pay3 x0 x1 x2 (ix2 p e) = (∑ d : Fin 1024, x0 (ix2 p d) * x1 (ix2 d j)) + x2 (ix1 j) := by
  unfold k0_pay3
  show truncf .bf16 (extractStridedSlice S512x1024 ![0, 1024] (k0_pay1 x0 x1 x2) slices_S512x3072_o0_1024_S512x1024) bitsLt_bf16_f32 (ix2 p e) = _
  rw [truncf_apply, slice2_axis1_apply 1024 _ _ p e j hj, projAll_apply]

/-- The stored value block at (p, e): column 2048 + e of x · W + b. -/
theorem projV_pay_apply (x0 : Vec Ideal S512x1024 .bf16) (x1 : Vec Ideal S1024x3072 .bf16) (x2 : Vec Ideal S3072 .f32)
    (p : Fin 512) (e : Fin 1024) (j : Fin 3072) (hj : j.val = 2048 + e.val) :
    k0_pay4 x0 x1 x2 (ix2 p e) = (∑ d : Fin 1024, x0 (ix2 p d) * x1 (ix2 d j)) + x2 (ix1 j) := by
  unfold k0_pay4
  show truncf .bf16 (extractStridedSlice S512x1024 ![0, 2048] (k0_pay1 x0 x1 x2) slices_S512x3072_o0_2048_S512x1024) bitsLt_bf16_f32 (ix2 p e) = _
  rw [truncf_apply, slice2_axis1_apply 2048 _ _ p e j hj, projAll_apply]

end Cert.KernelIdeal.KVal

end
-- ==== Proof.KV.Final0.lean ====
/-
  From blocks to whole arrays, region 0 (the fused projection), on the extended reals: after the region each of the
  three result arrays, at row r and column e, is (∑ d, X(r,d) · W(d, o+e)) + b(o+e) with o = 0, 1024, 2048, where
  X, W, b are the activations, the concatenated weights and the concatenated bias as the region finds them.
  Each grid point t writes rows 512·t .. 512·t+511; the sixteen points' blocks tile the 8192 rows.
-/
import proofs.«136797_j3427383902664_2_alg».proof.Proof.KI.Blocks
import proofs.«136797_j3427383902664_2_alg».proof.Proof.KV.Pay0
import Idealize.ShloMosaic.Lib.Pipeline.Value

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

-- the TensorCore's buffer contents when the region is entered, on the extended reals
variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-! ## The whole-array functions -/

/-- The activations, the concatenated weights and the concatenated bias as the region finds them, as functions on
    their index types. -/
abbrev inX (c : Dev nD) : S8192x1024.Idx → EReal := V c main_v1
abbrev inW (c : Dev nD) : S1024x3072.Idx → EReal := V c main_v6
abbrev inB (c : Dev nD) : S3072.Idx → EReal := V c main_v7

/-- Column j of X · W + b at row r. -/
def projAt (X : S8192x1024.Idx → EReal) (W : S1024x3072.Idx → EReal) (B : S3072.Idx → EReal)
    (r : Fin 8192) (j : Fin 3072) : EReal :=
  (∑ d : Fin 1024, X (ix2 r d) * W (ix2 d j)) + B (ix1 j)

/-- Column o + e among the 3072 concatenated columns. -/
def colAt (o : Nat) (ho : o + 1024 ≤ 3072) (e : Fin 1024) : Fin 3072 := ⟨o + e.val, by have := e.isLt; omega⟩

theorem colAt_eq (o : Nat) (ho : o + 1024 ≤ 3072) (e : Fin 1024) (j : Fin 3072) (hj : j.val = o + e.val) : colAt o ho e = j :=
  Fin.ext hj.symm

/-- Column o + e of X · W + b at row r, as a function of the array index (r, e). -/
def projArr (o : Nat) (ho : o + 1024 ≤ 3072) (X : S8192x1024.Idx → EReal) (W : S1024x3072.Idx → EReal) (B : S3072.Idx → EReal) :
    S8192x1024.Idx → EReal :=
  fun i => projAt X W B ⟨(i 0).val, (i 0).isLt⟩ (colAt o ho ⟨(i 1).val, (i 1).isLt⟩)

theorem projArr_ix2 (o : Nat) (ho : o + 1024 ≤ 3072) (X : S8192x1024.Idx → EReal) (W : S1024x3072.Idx → EReal) (B : S3072.Idx → EReal)
    (r : Fin 8192) (e : Fin 1024) : projArr o ho X W B (ix2 r e) = projAt X W B r (colAt o ho e) := rfl

/-! ## The index maps, decided over the grid -/

/-- The activations' window and the three result windows sit at row block t, column block 0; the weights' and the
    bias' windows at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks, read at an index -/

/-- The activations' block at point t, row p, is row 512·t + p of the array. -/
theorem blockX_apply (c : Dev nD) (t : Fin cfg0.N) (p : Fin 512) (d : Fin 1024) (r : Fin 8192) (hr : r.val = t.val * 512 + p.val) :
    (blockOf0 V c 0 t : Vec Ideal S512x1024 .bf16) (ix2 p d) = (V c main_v1 : S8192x1024.Idx → EReal) (ix2 r d) := by
  obtain ⟨e0, e1, -⟩ := idx_facts0 t
  unfold blockOf0
  rw [View.read_apply]
  show (V c main_v1 : S8192x1024.Idx → EReal) (((cfg0.win 0).blk t).view.emb (ix2 p d)) = _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * d.val = d.val; rw [e1]; omega

/-- The weights' block at any point is the whole array. -/
theorem blockW_apply (c : Dev nD) (t : Fin cfg0.N) (d : Fin 1024) (j : Fin 3072) :
    (blockOf0 V c 1 t : Vec Ideal S1024x3072 .bf16) (ix2 d j) = (V c main_v6 : S1024x3072.Idx → EReal) (ix2 d j) := by
  obtain ⟨-, -, e0, e1, -⟩ := idx_facts0 t
  unfold blockOf0
  rw [View.read_apply]
  show (V c main_v6 : S1024x3072.Idx → EReal) (((cfg0.win 1).blk t).view.emb (ix2 d j)) = _
  congr 1
  funext a
  apply Fin.ext
  match a with
  | ⟨0, _⟩ => show win0_1.index t (0 : Fin 2) * 1024 + 1 * d.val = d.val; rw [e0]; omega
  | ⟨1, _⟩ => show win0_1.index t (1 : Fin 2) * 3072 + 1 * j.val = j.val; rw [e1]; omega

/-- The bias' block at any point is the whole array. -/
theorem blockB_apply (c : Dev nD) (t : Fin cfg0.N) (j : Fin 3072) :
    (blockOf0 V c 2 t : Vec Ideal S3072 .f32) (ix1 j) = (V c main_v7 : S3072.Idx → EReal) (ix1 j) := by
  obtain ⟨-, -, -, -, e0, -⟩ := idx_facts0 t
  unfold blockOf0
  rw [View.read_apply]
  show (V c main_v7 : S3072.Idx → EReal) (((cfg0.win 2).blk t).view.emb (ix1 j)) = _
  congr 1
  funext a
  apply Fin.ext
  match a with
  | ⟨0, _⟩ => show win0_2.index t (0 : Fin 1) * 3072 + 1 * j.val = j.val; rw [e0]; omega

/-! ## The Q array -/

/-- What point t writes back to the Q array is block t of the whole-array function. -/
theorem flushedQ_eq (c : Dev nD) (t : Fin cfg0.N) :
    (dat0 V c).flushed 3 t = ((cfg0.win 3).blk t).view.read (Elt Ideal)
      (projArr 0 (by omega) (V c main_v1) (V c main_v6) (V c main_v7)) := by
  obtain ⟨-, -, -, -, -, e0, e1, -⟩ := idx_facts0 t
  have ht : t.val < 16 := t.isLt
  show (cfg0.win 3).cut (grid0.coords t) ((dat0 V c).after 3 t) = _
  rw [after0_3]
  unfold projQ
  rw [View.canon_unit_zero zero2]
  simp only [View.ld_unit_zero (S := S512x1024) zero2, View.ld_unit_zero (S := S1024x3072) zero2, View.ld_unit_zero (S := S3072) zero1]
  funext y
  obtain ⟨p, e, rfl⟩ : ∃ (p : Fin 512) (e : Fin 1024), y = ix2 p e := ⟨y 0, y 1, eq_ix2 y⟩
  have hemb : ((cfg0.win 3).blk t).view.emb (ix2 p e) = (ix2 (⟨t.val * 512 + p.val, by have := p.isLt; omega⟩ : Fin 8192) e : S8192x1024.Idx) := by
    funext a
    apply Fin.ext
    match a with
    | ⟨0, _⟩ => show win0_3.index t (0 : Fin 2) * 512 + 1 * p.val = t.val * 512 + p.val; rw [e0]; omega
    | ⟨1, _⟩ => show win0_3.index t (1 : Fin 2) * 1024 + 1 * e.val = e.val; rw [e1]; omega
  rw [View.read_apply, hemb]
  show k0_pay2 (blockOf0 V c 0 t) (blockOf0 V c 1 t) (blockOf0 V c 2 t) (ix2 p e) = projArr 0 (by omega) (V c main_v1) (V c main_v6) (V c main_v7) (ix2 _ e)
  rw [projArr_ix2, projQ_pay_apply _ _ _ p e (colAt 0 (by omega) e) rfl]
  unfold projAt
  simp only [blockX_apply V c t p _ (⟨t.val * 512 + p.val, by have := p.isLt; omega⟩ : Fin 8192) rfl, blockW_apply, blockB_apply]

/-- An index of the Q array is in point t's block iff each coordinate is in the block's range on its axis. -/
theorem mem_blkQ (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v8_0).slice (win0_3.rect t)).set ↔ _
  rw [View.set_slice_whole, Rect.mem_set_unit]
  exact Iff.rfl

/-- Row r is in the block of point r / 512. -/
theorem coverQ (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ : ∃ t : Fin cfg0.N, t.val = (i 0).val / 512 := ⟨⟨(i 0).val / 512, by show _ < 16; omega⟩, rfl⟩
  obtain ⟨-, -, -, -, -, e0, e1, -⟩ := idx_facts0 t
  refine ⟨t, flush0_3 t, ?_⟩
  rw [mem_blkQ]
  intro a
  match a with
  | ⟨0, _⟩ => show win0_3.index t (0 : Fin 2) * 512 ≤ (i 0).val ∧ (i 0).val < win0_3.index t (0 : Fin 2) * 512 + 512; rw [e0]; omega
  | ⟨1, _⟩ => show win0_3.index t (1 : Fin 2) * 1024 ≤ (i 1).val ∧ (i 1).val < win0_3.index t (1 : Fin 2) * 1024 + 1024; rw [e1]; omega

/-- The Q array after the region. -/
theorem arrQ_eq (c : Dev nD) :
    (dat0 V c).arrAt 3 cfg0.N = projArr 0 (by omega) (V c main_v1) (V c main_v6) (V c main_v7) :=
  (dat0 V c).arrAt_eq_of_cover 3 _ (fun t _ => flushedQ_eq V c t) coverQ

/-- The Q array after the region, at row r and column e, for whole arrays given coordinate by coordinate. -/
theorem finalQ_of (c : Dev nD) (X : Fin 8192 → Fin 1024 → EReal) (W : Fin 1024 → Fin 3072 → EReal) (B : Fin 3072 → EReal)
    (hX : ∀ (r : Fin 8192) (d : Fin 1024), (V c main_v1 : S8192x1024.Idx → EReal) (ix2 r d) = X r d)
    (hW : ∀ (d : Fin 1024) (j : Fin 3072), (V c main_v6 : S1024x3072.Idx → EReal) (ix2 d j) = W d j)
    (hB : ∀ j : Fin 3072, (V c main_v7 : S3072.Idx → EReal) (ix1 j) = B j)
    (r : Fin 8192) (e : Fin 1024) (j : Fin 3072) (hj : j.val = 0 + e.val) :
    ((dat0 (F := Ideal) V c).arrAt 3 cfg0.N : S8192x1024.Idx → EReal) (ix2 r e) = (∑ d : Fin 1024, X r d * W d j) + B j := by
  rw [arrQ_eq V c, projArr_ix2, colAt_eq 0 (by omega) e j hj]
  unfold projAt
  simp only [hX, hW, hB]

/-- The same with the arrays read directly. -/
theorem finalQ (c : Dev nD) (r : Fin 8192) (e : Fin 1024) (j : Fin 3072) (hj : j.val = 0 + e.val) :
    ((dat0 (F := Ideal) V c).arrAt 3 cfg0.N : S8192x1024.Idx → EReal) (ix2 r e)
      = (∑ d : Fin 1024, inX V c (ix2 r d) * inW V c (ix2 d j)) + inB V c (ix1 j) :=
  finalQ_of V c (fun r d => inX V c (ix2 r d)) (fun d j => inW V c (ix2 d j)) (fun j => inB V c (ix1 j))
    (fun _ _ => rfl) (fun _ _ => rfl) (fun _ => rfl) r e j hj

/-! ## The K array -/

/-- What point t writes back to the K array is block t of the whole-array function. -/
theorem flushedK_eq (c : Dev nD) (t : Fin cfg0.N) :
    (dat0 V c).flushed 4 t = ((cfg0.win 4).blk t).view.read (Elt Ideal)
      (projArr 1024 (by omega) (V c main_v1) (V c main_v6) (V c main_v7)) := by
  obtain ⟨-, -, -, -, -, -, -, e0, e1, -⟩ := idx_facts0 t
  have ht : t.val < 16 := t.isLt
  show (cfg0.win 4).cut (grid0.coords t) ((dat0 V c).after 4 t) = _
  rw [after0_4]
  unfold projK
  rw [View.canon_unit_zero zero2]
  simp only [View.ld_unit_zero (S := S512x1024) zero2, View.ld_unit_zero (S := S1024x3072) zero2, View.ld_unit_zero (S := S3072) zero1]
  funext y
  obtain ⟨p, e, rfl⟩ : ∃ (p : Fin 512) (e : Fin 1024), y = ix2 p e := ⟨y 0, y 1, eq_ix2 y⟩
  have hemb : ((cfg0.win 4).blk t).view.emb (ix2 p e) = (ix2 (⟨t.val * 512 + p.val, by have := p.isLt; omega⟩ : Fin 8192) e : S8192x1024.Idx) := by
    funext a
    apply Fin.ext
    match a with
    | ⟨0, _⟩ => show win0_4.index t (0 : Fin 2) * 512 + 1 * p.val = t.val * 512 + p.val; rw [e0]; omega
    | ⟨1, _⟩ => show win0_4.index t (1 : Fin 2) * 1024 + 1 * e.val = e.val; rw [e1]; omega
  rw [View.read_apply, hemb]
  show k0_pay3 (blockOf0 V c 0 t) (blockOf0 V c 1 t) (blockOf0 V c 2 t) (ix2 p e) = projArr 1024 (by omega) (V c main_v1) (V c main_v6) (V c main_v7) (ix2 _ e)
  rw [projArr_ix2, projK_pay_apply _ _ _ p e (colAt 1024 (by omega) e) rfl]
  unfold projAt
  simp only [blockX_apply V c t p _ (⟨t.val * 512 + p.val, by have := p.isLt; omega⟩ : Fin 8192) rfl, blockW_apply, blockB_apply]

/-- An index of the K array is in point t's block iff each coordinate is in the block's range on its axis. -/
theorem mem_blkK (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v8_1).slice (win0_4.rect t)).set ↔ _
  rw [View.set_slice_whole, Rect.mem_set_unit]
  exact Iff.rfl

/-- Row r is in the block of point r / 512. -/
theorem coverK (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ : ∃ t : Fin cfg0.N, t.val = (i 0).val / 512 := ⟨⟨(i 0).val / 512, by show _ < 16; omega⟩, rfl⟩
  obtain ⟨-, -, -, -, -, -, -, e0, e1, -⟩ := idx_facts0 t
  refine ⟨t, flush0_4 t, ?_⟩
  rw [mem_blkK]
  intro a
  match a with
  | ⟨0, _⟩ => show win0_4.index t (0 : Fin 2) * 512 ≤ (i 0).val ∧ (i 0).val < win0_4.index t (0 : Fin 2) * 512 + 512; rw [e0]; omega
  | ⟨1, _⟩ => show win0_4.index t (1 : Fin 2) * 1024 ≤ (i 1).val ∧ (i 1).val < win0_4.index t (1 : Fin 2) * 1024 + 1024; rw [e1]; omega

/-- The K array after the region. -/
theorem arrK_eq (c : Dev nD) :
    (dat0 V c).arrAt 4 cfg0.N = projArr 1024 (by omega) (V c main_v1) (V c main_v6) (V c main_v7) :=
  (dat0 V c).arrAt_eq_of_cover 4 _ (fun t _ => flushedK_eq V c t) coverK

/-- The K array after the region, at row r and column e, for whole arrays given coordinate by coordinate. -/
theorem finalK_of (c : Dev nD) (X : Fin 8192 → Fin 1024 → EReal) (W : Fin 1024 → Fin 3072 → EReal) (B : Fin 3072 → EReal)
    (hX : ∀ (r : Fin 8192) (d : Fin 1024), (V c main_v1 : S8192x1024.Idx → EReal) (ix2 r d) = X r d)
    (hW : ∀ (d : Fin 1024) (j : Fin 3072), (V c main_v6 : S1024x3072.Idx → EReal) (ix2 d j) = W d j)
    (hB : ∀ j : Fin 3072, (V c main_v7 : S3072.Idx → EReal) (ix1 j) = B j)
    (r : Fin 8192) (e : Fin 1024) (j : Fin 3072) (hj : j.val = 1024 + e.val) :
    ((dat0 (F := Ideal) V c).arrAt 4 cfg0.N : S8192x1024.Idx → EReal) (ix2 r e) = (∑ d : Fin 1024, X r d * W d j) + B j := by
  rw [arrK_eq V c, projArr_ix2, colAt_eq 1024 (by omega) e j hj]
  unfold projAt
  simp only [hX, hW, hB]

/-- The same with the arrays read directly. -/
theorem finalK (c : Dev nD) (r : Fin 8192) (e : Fin 1024) (j : Fin 3072) (hj : j.val = 1024 + e.val) :
    ((dat0 (F := Ideal) V c).arrAt 4 cfg0.N : S8192x1024.Idx → EReal) (ix2 r e)
      = (∑ d : Fin 1024, inX V c (ix2 r d) * inW V c (ix2 d j)) + inB V c (ix1 j) :=
  finalK_of V c (fun r d => inX V c (ix2 r d)) (fun d j => inW V c (ix2 d j)) (fun j => inB V c (ix1 j))
    (fun _ _ => rfl) (fun _ _ => rfl) (fun _ => rfl) r e j hj

/-! ## The V array -/

/-- What point t writes back to the V array is block t of the whole-array function. -/
theorem flushedV_eq (c : Dev nD) (t : Fin cfg0.N) :
    (dat0 V c).flushed 5 t = ((cfg0.win 5).blk t).view.read (Elt Ideal)
      (projArr 2048 (by omega) (V c main_v1) (V c main_v6) (V c main_v7)) := by
  obtain ⟨-, -, -, -, -, -, -, -, -, e0, e1⟩ := idx_facts0 t
  have ht : t.val < 16 := t.isLt
  show (cfg0.win 5).cut (grid0.coords t) ((dat0 V c).after 5 t) = _
  rw [after0_5]
  unfold projV
  rw [View.canon_unit_zero zero2]
  simp only [View.ld_unit_zero (S := S512x1024) zero2, View.ld_unit_zero (S := S1024x3072) zero2, View.ld_unit_zero (S := S3072) zero1]
  funext y
  obtain ⟨p, e, rfl⟩ : ∃ (p : Fin 512) (e : Fin 1024), y = ix2 p e := ⟨y 0, y 1, eq_ix2 y⟩
  have hemb : ((cfg0.win 5).blk t).view.emb (ix2 p e) = (ix2 (⟨t.val * 512 + p.val, by have := p.isLt; omega⟩ : Fin 8192) e : S8192x1024.Idx) := by
    funext a
    apply Fin.ext
    match a with
    | ⟨0, _⟩ => show win0_5.index t (0 : Fin 2) * 512 + 1 * p.val = t.val * 512 + p.val; rw [e0]; omega
    | ⟨1, _⟩ => show win0_5.index t (1 : Fin 2) * 1024 + 1 * e.val = e.val; rw [e1]; omega
  rw [View.read_apply, hemb]
  show k0_pay4 (blockOf0 V c 0 t) (blockOf0 V c 1 t) (blockOf0 V c 2 t) (ix2 p e) = projArr 2048 (by omega) (V c main_v1) (V c main_v6) (V c main_v7) (ix2 _ e)
  rw [projArr_ix2, projV_pay_apply _ _ _ p e (colAt 2048 (by omega) e) rfl]
  unfold projAt
  simp only [blockX_apply V c t p _ (⟨t.val * 512 + p.val, by have := p.isLt; omega⟩ : Fin 8192) rfl, blockW_apply, blockB_apply]

/-- An index of the V array is in point t's block iff each coordinate is in the block's range on its axis. -/
theorem mem_blkV (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v8_2).slice (win0_5.rect t)).set ↔ _
  rw [View.set_slice_whole, Rect.mem_set_unit]
  exact Iff.rfl

/-- Row r is in the block of point r / 512. -/
theorem coverV (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht⟩ : ∃ t : Fin cfg0.N, t.val = (i 0).val / 512 := ⟨⟨(i 0).val / 512, by show _ < 16; omega⟩, rfl⟩
  obtain ⟨-, -, -, -, -, -, -, -, -, e0, e1⟩ := idx_facts0 t
  refine ⟨t, flush0_5 t, ?_⟩
  rw [mem_blkV]
  intro a
  match a with
  | ⟨0, _⟩ => show win0_5.index t (0 : Fin 2) * 512 ≤ (i 0).val ∧ (i 0).val < win0_5.index t (0 : Fin 2) * 512 + 512; rw [e0]; omega
  | ⟨1, _⟩ => show win0_5.index t (1 : Fin 2) * 1024 ≤ (i 1).val ∧ (i 1).val < win0_5.index t (1 : Fin 2) * 1024 + 1024; rw [e1]; omega

/-- The V array after the region. -/
theorem arrV_eq (c : Dev nD) :
    (dat0 V c).arrAt 5 cfg0.N = projArr 2048 (by omega) (V c main_v1) (V c main_v6) (V c main_v7) :=
  (dat0 V c).arrAt_eq_of_cover 5 _ (fun t _ => flushedV_eq V c t) coverV

/-- The V array after the region, at row r and column e, for whole arrays given coordinate by coordinate. -/
theorem finalV_of (c : Dev nD) (X : Fin 8192 → Fin 1024 → EReal) (W : Fin 1024 → Fin 3072 → EReal) (B : Fin 3072 → EReal)
    (hX : ∀ (r : Fin 8192) (d : Fin 1024), (V c main_v1 : S8192x1024.Idx → EReal) (ix2 r d) = X r d)
    (hW : ∀ (d : Fin 1024) (j : Fin 3072), (V c main_v6 : S1024x3072.Idx → EReal) (ix2 d j) = W d j)
    (hB : ∀ j : Fin 3072, (V c main_v7 : S3072.Idx → EReal) (ix1 j) = B j)
    (r : Fin 8192) (e : Fin 1024) (j : Fin 3072) (hj : j.val = 2048 + e.val) :
    ((dat0 (F := Ideal) V c).arrAt 5 cfg0.N : S8192x1024.Idx → EReal) (ix2 r e) = (∑ d : Fin 1024, X r d * W d j) + B j := by
  rw [arrV_eq V c, projArr_ix2, colAt_eq 2048 (by omega) e j hj]
  unfold projAt
  simp only [hX, hW, hB]

/-- The same with the arrays read directly. -/
theorem finalV (c : Dev nD) (r : Fin 8192) (e : Fin 1024) (j : Fin 3072) (hj : j.val = 2048 + e.val) :
    ((dat0 (F := Ideal) V c).arrAt 5 cfg0.N : S8192x1024.Idx → EReal) (ix2 r e)
      = (∑ d : Fin 1024, inX V c (ix2 r d) * inW V c (ix2 d j)) + inB V c (ix1 j) :=
  finalV_of V c (fun r d => inX V c (ix2 r d)) (fun d j => inW V c (ix2 d j)) (fun j => inB V c (ix1 j))
    (fun _ _ => rfl) (fun _ _ => rfl) (fun _ => rfl) r e j hj

end Cert.KernelIdeal.KVal

end
-- ==== Proof.TileSpec.lean ====
/-
  Attention on one tile: what one grid point of the attention region computes from its loaded blocks — 512 query rows,
  all 2048 key rows and value rows of one batch, the output weights stored (input, output) and the output bias — and
  the lemma that such a tile, when its blocks are the right rows of whole arrays Q K V, is the whole-array attention
  (Spec.lean) at those rows.
-/
import proofs.«136797_j3427383902664_2_alg».proof.Proof.Spec

noncomputable section

namespace Cert.Mha

open Idealize.ShloMosaic Idealize.ShloMosaic.ValueIdx

/-- A block of 512 query rows of one batch. -/
abbrev QBlk := (⟨3, ![1, 512, 1024]⟩ : Shape).Idx → EReal
/-- All 2048 key (or value) rows of one batch. -/
abbrev KVBlk := (⟨3, ![1, 2048, 1024]⟩ : Shape).Idx → EReal

/-- The scaled score of the tile's query row p against key row k in head h. -/
def scoreT (q : QBlk) (k : KVBlk) (h : Fin 16) (p : Fin 512) (kk : Fin 2048) : EReal :=
  (∑ d : Fin 64, q (ix3 (0 : Fin 1) p (col h d)) * k (ix3 (0 : Fin 1) kk (col h d))) * eighth

/-- exp(score − row maximum) on the tile. -/
def expoT (q : QBlk) (k : KVBlk) (h : Fin 16) (p : Fin 512) (kk : Fin 2048) : EReal :=
  Ideal.exp (scoreT q k h p kk - rowMax (scoreT q k h p))

/-- The softmax probability on the tile. -/
def probT (q : QBlk) (k : KVBlk) (h : Fin 16) (p : Fin 512) (kk : Fin 2048) : EReal :=
  Ideal.div (expoT q k h p kk) (∑ k' : Fin 2048, expoT q k h p k')

/-- The tile's context at (p, j): head j / 64's probabilities times column j of the values. -/
def ctxT (q : QBlk) (k v : KVBlk) (p : Fin 512) (j : Fin 1024) : EReal :=
  ∑ kk : Fin 2048, probT q k (headOf j) p kk * v (ix3 (0 : Fin 1) kk j)

/-- The tile's result at (p, e): the context times the output weights (stored input-by-output), plus the bias. -/
def outT (q : QBlk) (k v : KVBlk) (w : (⟨2, ![1024, 1024]⟩ : Shape).Idx → EReal) (b : (⟨1, ![1024]⟩ : Shape).Idx → EReal)
    (p : Fin 512) (e : Fin 1024) : EReal :=
  (∑ j : Fin 1024, ctxT q k v p j * w (ix2 j e)) + b (ix1 e)

/-- A tile whose query block is row s of batch n of Q (at its row p), whose key and value blocks are batch n of K and V,
    whose weights are Wo transposed and whose bias is bo, computes the whole-array attention at (n, s, ·). -/
theorem outT_eq (Q K V : Act) (Wo : Wt) (bo : Bias) (n : Fin 4) (s : Fin 2048)
    (q : QBlk) (k v : KVBlk) (w : (⟨2, ![1024, 1024]⟩ : Shape).Idx → EReal) (b : (⟨1, ![1024]⟩ : Shape).Idx → EReal) (p : Fin 512)
    (hq : ∀ j, q (ix3 (0 : Fin 1) p j) = Q n s j) (hk : ∀ kk j, k (ix3 (0 : Fin 1) kk j) = K n kk j)
    (hv : ∀ kk j, v (ix3 (0 : Fin 1) kk j) = V n kk j) (hw : ∀ j e, w (ix2 j e) = Wo e j) (hb : ∀ e, b (ix1 e) = bo e)
    (e : Fin 1024) :
    outT q k v w b p e = lin (ctx Q K V) Wo bo n s e := by
  have hs : ∀ h, scoreT q k h p = score Q K n h s := fun h => funext fun kk => by
    unfold scoreT score; simp only [hq, hk]
  have he : ∀ h, expoT q k h p = expo Q K n h s := fun h => funext fun kk => by
    unfold expoT expo; rw [hs h]
  have hp : ∀ h, probT q k h p = prob Q K n h s := fun h => funext fun kk => by
    unfold probT prob; rw [he h]
  have hc : ∀ j, ctxT q k v p j = ctx Q K V n s j := fun j => by
    unfold ctxT ctx; simp only [hp, hv]
  unfold outT lin
  simp only [hc, hw, hb]

end Cert.Mha

end
-- ==== Proof.KV.HeadVal.lean ====
/-
  One attention head on a tile, read at an index on the extended reals.  For a 512 x 64 slice qh of the queries and
  2048 x 64 slices kh, vh of the keys and values, the body computes
     s = (qh · khᵀ) · (1/8),   m = the row maxima of s,   E = exp (s − m),   P = E / (the row sums of E),   P · vh.
  headVal is that computation, spelt with the operations the body uses; headVal_apply reads it at (p, d):
     ∑ k, (exp (S k − max_k' S k') / ∑ k'', exp (S k'' − max …)) · vh (k, d),   S k = (∑ c, qh (p, c) · kh (k, c)) · (1/8).
-/
import proofs.«136797_j3427383902664_2_alg».proof.Proof.KV.Dots
import proofs.«136797_j3427383902664_2_alg».proof.Proof.TileSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Idealize.ShloMosaic Idealize.ShloMosaic.ValueIdx Cert.KernelIdeal Cert.KernelIdeal.Gen

/-- A vector of row values made a one-column matrix reads, at (p, u), the vector at p. -/
theorem column_of_vector_apply {a : ℕ} {α : Type} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix broadcast along its rows reads, at (p, c), the column at p. -/
theorem broadcast_column_apply {a b : ℕ} {α : Type} (hb : b ≠ 1 ∨ True) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One head: softmax (qh · khᵀ / 8) · vh, in the body's operations. -/
def headVal (qh : FVec Ideal S512x64 .bf16) (kh vh : FVec Ideal S2048x64 .bf16) : FVec Ideal S512x64 .f32 :=
  have cst : FVec Ideal S512x2048 .f32 := constant S512x2048 .f32 0x00000000#32
  have v9 : FVec Ideal S512x2048 .f32 := matmul dot_S512x64_S2048x64_S512x2048_1_1_0_0_n_n none qh kh cst
  have cst_8 : Ideal .f32 := Scalar.ofBits .f32 0x3E000000#32
  have v10 : FVec Ideal S512x2048 .f32 := broadcast S512x2048 cst_8
  have v11 : FVec Ideal S512x2048 .f32 := mulf v9 v10
  have v12 : FVec Ideal S512 .f32 := multiReduction .maximumf [1] S512 v11 0xFF800000#32 reduces_S512x2048_S512 (.inl rfl) rfl
  have v13 : FVec Ideal S512x1 .f32 := shapeCast S512x1 v12 shapeCasts_S512_S512x1
  have v14 : FVec Ideal S512x2048 .f32 := broadcastTo S512x2048 v13 broadcasts_S512x1_S512x2048
  have v15 : FVec Ideal S512x2048 .f32 := subf v11 v14
  have v16 : FVec Ideal S512x2048 .f32 := exp v15
  have v17 : FVec Ideal S512 .f32 := multiReduction .add [1] S512 v16 0x00000000#32 reduces_S512x2048_S512 (.inl rfl) rfl
  have v18 : FVec Ideal S512x1 .f32 := shapeCast S512x1 v17 shapeCasts_S512_S512x1
  have v19 : FVec Ideal S512x2048 .f32 := broadcastTo S512x2048 v18 broadcasts_S512x1_S512x2048
  have v20 : FVec Ideal S512x2048 .f32 := divf v16 v19
  have v21 : FVec Ideal S512x2048 .bf16 := truncf .bf16 v20 bitsLt_bf16_f32
  have cst_11 : FVec Ideal S512x64 .f32 := constant S512x64 .f32 0x00000000#32
  matmul dot_S512x2048_S2048x64_S512x64_1_0_0_1_n_n none v21 vh cst_11

/-- The scaled scores of a head at (p, k). -/
def headScore (qh : FVec Ideal S512x64 .bf16) (kh : FVec Ideal S2048x64 .bf16) (p : Fin 512) (k : Fin 2048) : EReal :=
  (∑ c : Fin 64, qh (ix2 p c) * kh (ix2 k c)) * Cert.Mha.eighth

/-- exp (score − the row's maximum) of a head at (p, k). -/
def headExpo (qh : FVec Ideal S512x64 .bf16) (kh : FVec Ideal S2048x64 .bf16) (p : Fin 512) (k : Fin 2048) : EReal :=
  Ideal.exp (headScore qh kh p k - Cert.Mha.rowMax (headScore qh kh p))

/-- The row maximum the body takes is the fold of max from −∞ over the 2048 keys. -/
theorem rowMax_apply (s : FVec Ideal S512x2048 .f32) (p : Fin 512) :
    multiReduction .maximumf [1] S512 s 0xFF800000#32 reduces_S512x2048_S512 (.inl rfl) rfl (ix1 p)
      = Cert.Mha.rowMax fun k => s (ix2 p k) := by
  refine (Ideal.multiReduction_maximumf_single s 0xFF800000#32 reduces_S512x2048_S512 (.inl rfl) rfl (ix1 p)).trans ?_
  unfold Cert.Mha.rowMax Cert.Mha.floorVal
  show (Finset.univ : Finset (Fin 2048)).fold max (Ideal.ofBits .f32 0xFF800000#32) (fun k => s (reduces_S512x2048_S512.lift (ix1 p) k)) = _
  congr 1
  funext k
  congr 1
  funext a
  match a with
  | ⟨0, _⟩ => rfl
  | ⟨1, _⟩ => rfl

/-- The row sum the body takes is the sum over the 2048 keys. -/
theorem rowSum_apply (s : FVec Ideal S512x2048 .f32) (p : Fin 512) :
    multiReduction .add [1] S512 s 0x00000000#32 reduces_S512x2048_S512 (.inl rfl) rfl (ix1 p)
      = ∑ k : Fin 2048, s (ix2 p k) := by
  refine (Ideal.multiReduction_add_single s 0x00000000#32 reduces_S512x2048_S512 (.inl rfl) rfl (ix1 p)).trans ?_
  show ∑ k : Fin 2048, s (reduces_S512x2048_S512.lift (ix1 p) k) = _
  refine Finset.sum_congr rfl fun k _ => ?_
  congr 1
  funext a
  match a with
  | ⟨0, _⟩ => rfl
  | ⟨1, _⟩ => rfl

/-- One head at (p, d): the softmax-weighted sum of column d of the values. -/
theorem headVal_apply (qh : FVec Ideal S512x64 .bf16) (kh vh : FVec Ideal S2048x64 .bf16) (p : Fin 512) (d : Fin 64) :
    headVal qh kh vh (ix2 p d)
      = ∑ k : Fin 2048, Ideal.div (headExpo qh kh p k) (∑ k' : Fin 2048, headExpo qh kh p k') * vh (ix2 k d) := by
  unfold headVal
  rw [ctxDot_apply]
  refine Finset.sum_congr rfl fun k _ => ?_
  congr 1
  rw [truncf_apply, divf_apply, broadcast_column_apply (Or.inr trivial), column_of_vector_apply, rowSum_apply]
  have hE : ∀ k : Fin 2048, exp (subf (mulf (matmul dot_S512x64_S2048x64_S512x2048_1_1_0_0_n_n none qh kh (constant S512x2048 .f32 0x00000000#32)) (broadcast S512x2048 (Scalar.ofBits (F := Ideal) .f32 0x3E000000#32)))
      (broadcastTo S512x2048 (shapeCast S512x1 (multiReduction .maximumf [1] S512 (mulf (matmul dot_S512x64_S2048x64_S512x2048_1_1_0_0_n_n none qh kh (constant S512x2048 .f32 0x00000000#32)) (broadcast S512x2048 (Scalar.ofBits (F := Ideal) .f32 0x3E000000#32))) 0xFF800000#32 reduces_S512x2048_S512 (.inl rfl) rfl) shapeCasts_S512_S512x1) broadcasts_S512x1_S512x2048)) (ix2 p k)
      = headExpo qh kh p k := fun k => by
    have hS : ∀ k : Fin 2048, mulf (matmul dot_S512x64_S2048x64_S512x2048_1_1_0_0_n_n none qh kh (constant S512x2048 .f32 0x00000000#32)) (broadcast S512x2048 (Scalar.ofBits (F := Ideal) .f32 0x3E000000#32)) (ix2 p k) = headScore qh kh p k := fun k => by
      rw [mulf_apply, scoreDot_apply, broadcast_apply]; rfl
    show Ideal.exp (_ - _) = _
    rw [hS k, broadcast_column_apply (Or.inr trivial), column_of_vector_apply, rowMax_apply]
    unfold headExpo
    congr 2
    exact congrArg Cert.Mha.rowMax (funext hS)
  simp only [hE]

end Cert.KernelIdeal.KVal

end
-- ==== Proof.KV.Pay1.lean ====
/-
  The attention body's stored value, read at an index on the extended reals: with q the loaded block of 512 query rows,
  k and v the 2048 key and value rows of the batch, w the output weights (input, output) and b the output bias, the
  stored block at (0, p, e) is the tile's attention outT q k v w b p e (TileSpec.lean): sixteen heads, each
  softmax(q_h k_hᵀ / 8) v_h on its 64 columns, side by side, times w, plus b.

  Head h reads columns 64h .. 64h+63 of the three blocks; whichever way the body's text is cut, each head is the one
  computation headVal of those three slices, and the sixteen results are laid side by side, so column j of the
  concatenation is column j mod 64 of head j / 64.
-/
import proofs.«136797_j3427383902664_2_alg».proof.Proof.KI.Blocks
import proofs.«136797_j3427383902664_2_alg».proof.Proof.KV.Dots
import proofs.«136797_j3427383902664_2_alg».proof.Proof.KV.HeadVal
import proofs.«136797_j3427383902664_2_alg».proof.Proof.TileSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Idealize.ShloMosaic Idealize.ShloMosaic.ValueIdx Cert.KernelIdeal Cert.KernelIdeal.Gen Cert.KernelIdeal.Hand

/-- Head h of the tile: headVal of columns 64h .. 64h+63 of the query, key and value blocks. -/
def headsFn (v0 : Vec Ideal S1x512x1024 .bf16) (v2 v4 : Vec Ideal S1x2048x1024 .bf16) : Fin 16 → (S512x64.Idx → EReal)
  | ⟨0, _⟩ => headVal (extractStridedSlice S512x64 ![0, 0] (k1_pay3 v0) slices_S512x1024_o0_0_S512x64) (extractStridedSlice S2048x64 ![0, 0] (k1_pay4 v2) slices_S2048x1024_o0_0_S2048x64) (extractStridedSlice S2048x64 ![0, 0] (k1_pay5 v4) slices_S2048x1024_o0_0_S2048x64)
  | ⟨1, _⟩ => headVal (extractStridedSlice S512x64 ![0, 64] (k1_pay3 v0) slices_S512x1024_o0_64_S512x64) (extractStridedSlice S2048x64 ![0, 64] (k1_pay4 v2) slices_S2048x1024_o0_64_S2048x64) (extractStridedSlice S2048x64 ![0, 64] (k1_pay5 v4) slices_S2048x1024_o0_64_S2048x64)
  | ⟨2, _⟩ => headVal (extractStridedSlice S512x64 ![0, 128] (k1_pay3 v0) slices_S512x1024_o0_128_S512x64) (extractStridedSlice S2048x64 ![0, 128] (k1_pay4 v2) slices_S2048x1024_o0_128_S2048x64) (extractStridedSlice S2048x64 ![0, 128] (k1_pay5 v4) slices_S2048x1024_o0_128_S2048x64)
  | ⟨3, _⟩ => headVal (extractStridedSlice S512x64 ![0, 192] (k1_pay3 v0) slices_S512x1024_o0_192_S512x64) (extractStridedSlice S2048x64 ![0, 192] (k1_pay4 v2) slices_S2048x1024_o0_192_S2048x64) (extractStridedSlice S2048x64 ![0, 192] (k1_pay5 v4) slices_S2048x1024_o0_192_S2048x64)
  | ⟨4, _⟩ => headVal (extractStridedSlice S512x64 ![0, 256] (k1_pay3 v0) slices_S512x1024_o0_256_S512x64) (extractStridedSlice S2048x64 ![0, 256] (k1_pay4 v2) slices_S2048x1024_o0_256_S2048x64) (extractStridedSlice S2048x64 ![0, 256] (k1_pay5 v4) slices_S2048x1024_o0_256_S2048x64)
  | ⟨5, _⟩ => headVal (extractStridedSlice S512x64 ![0, 320] (k1_pay3 v0) slices_S512x1024_o0_320_S512x64) (extractStridedSlice S2048x64 ![0, 320] (k1_pay4 v2) slices_S2048x1024_o0_320_S2048x64) (extractStridedSlice S2048x64 ![0, 320] (k1_pay5 v4) slices_S2048x1024_o0_320_S2048x64)
  | ⟨6, _⟩ => headVal (extractStridedSlice S512x64 ![0, 384] (k1_pay3 v0) slices_S512x1024_o0_384_S512x64) (extractStridedSlice S2048x64 ![0, 384] (k1_pay4 v2) slices_S2048x1024_o0_384_S2048x64) (extractStridedSlice S2048x64 ![0, 384] (k1_pay5 v4) slices_S2048x1024_o0_384_S2048x64)
  | ⟨7, _⟩ => headVal (extractStridedSlice S512x64 ![0, 448] (k1_pay3 v0) slices_S512x1024_o0_448_S512x64) (extractStridedSlice S2048x64 ![0, 448] (k1_pay4 v2) slices_S2048x1024_o0_448_S2048x64) (extractStridedSlice S2048x64 ![0, 448] (k1_pay5 v4) slices_S2048x1024_o0_448_S2048x64)
  | ⟨8, _⟩ => headVal (extractStridedSlice S512x64 ![0, 512] (k1_pay3 v0) slices_S512x1024_o0_512_S512x64) (extractStridedSlice S2048x64 ![0, 512] (k1_pay4 v2) slices_S2048x1024_o0_512_S2048x64) (extractStridedSlice S2048x64 ![0, 512] (k1_pay5 v4) slices_S2048x1024_o0_512_S2048x64)
  | ⟨9, _⟩ => headVal (extractStridedSlice S512x64 ![0, 576] (k1_pay3 v0) slices_S512x1024_o0_576_S512x64) (extractStridedSlice S2048x64 ![0, 576] (k1_pay4 v2) slices_S2048x1024_o0_576_S2048x64) (extractStridedSlice S2048x64 ![0, 576] (k1_pay5 v4) slices_S2048x1024_o0_576_S2048x64)
  | ⟨10, _⟩ => headVal (extractStridedSlice S512x64 ![0, 640] (k1_pay3 v0) slices_S512x1024_o0_640_S512x64) (extractStridedSlice S2048x64 ![0, 640] (k1_pay4 v2) slices_S2048x1024_o0_640_S2048x64) (extractStridedSlice S2048x64 ![0, 640] (k1_pay5 v4) slices_S2048x1024_o0_640_S2048x64)
  | ⟨11, _⟩ => headVal (extractStridedSlice S512x64 ![0, 704] (k1_pay3 v0) slices_S512x1024_o0_704_S512x64) (extractStridedSlice S2048x64 ![0, 704] (k1_pay4 v2) slices_S2048x1024_o0_704_S2048x64) (extractStridedSlice S2048x64 ![0, 704] (k1_pay5 v4) slices_S2048x1024_o0_704_S2048x64)
  | ⟨12, _⟩ => headVal (extractStridedSlice S512x64 ![0, 768] (k1_pay3 v0) slices_S512x1024_o0_768_S512x64) (extractStridedSlice S2048x64 ![0, 768] (k1_pay4 v2) slices_S2048x1024_o0_768_S2048x64) (extractStridedSlice S2048x64 ![0, 768] (k1_pay5 v4) slices_S2048x1024_o0_768_S2048x64)
  | ⟨13, _⟩ => headVal (extractStridedSlice S512x64 ![0, 832] (k1_pay3 v0) slices_S512x1024_o0_832_S512x64) (extractStridedSlice S2048x64 ![0, 832] (k1_pay4 v2) slices_S2048x1024_o0_832_S2048x64) (extractStridedSlice S2048x64 ![0, 832] (k1_pay5 v4) slices_S2048x1024_o0_832_S2048x64)
  | ⟨14, _⟩ => headVal (extractStridedSlice S512x64 ![0, 896] (k1_pay3 v0) slices_S512x1024_o0_896_S512x64) (extractStridedSlice S2048x64 ![0, 896] (k1_pay4 v2) slices_S2048x1024_o0_896_S2048x64) (extractStridedSlice S2048x64 ![0, 896] (k1_pay5 v4) slices_S2048x1024_o0_896_S2048x64)
  | ⟨15, _⟩ => headVal (extractStridedSlice S512x64 ![0, 960] (k1_pay3 v0) slices_S512x1024_o0_960_S512x64) (extractStridedSlice S2048x64 ![0, 960] (k1_pay4 v2) slices_S2048x1024_o0_960_S2048x64) (extractStridedSlice S2048x64 ![0, 960] (k1_pay5 v4) slices_S2048x1024_o0_960_S2048x64)
  | ⟨_ + 16, h⟩ => absurd h (Nat.not_lt.2 (Nat.le_add_left _ _))

/-- The body's sixteen heads, however its text is cut, are headsFn 0 .. 15 side by side. -/
theorem headsCat_eq (v0 : Vec Ideal S1x512x1024 .bf16) (v2 v4 : Vec Ideal S1x2048x1024 .bf16) :
    headsCat v0 v2 v4 = concatenate S512x1024 1 (List.ofFn fun n : Fin 16 => (⟨S512x64, headsFn v0 v2 v4 n⟩ : (s : Shape) × (s.Idx → EReal)))
      concatenates_S512x64_S512x64_S512x64_S512x64_S512x64_S512x64_S512x64_S512x64_S512x64_S512x64_S512x64_S512x64_S512x64_S512x64_S512x64_S512x64_S512x1024_d1 := rfl

/-- A head built from the slices at offset o = 64h is, at (p, d), the tile's context at column o + d. -/
theorem head_ctx (v0 : Vec Ideal S1x512x1024 .bf16) (v2 v4 : Vec Ideal S1x2048x1024 .bf16) (h : Fin 16) (o : Nat) (ho : o = h.val * 64)
    (hq : S512x1024.Slices ![0, o] S512x64) (hk : S2048x1024.Slices ![0, o] S2048x64) (hv : S2048x1024.Slices ![0, o] S2048x64)
    (p : Fin 512) (d : Fin 64) (j : Fin 1024) (hj : j.val = o + d.val) :
    headVal (extractStridedSlice S512x64 ![0, o] (k1_pay3 v0) hq) (extractStridedSlice S2048x64 ![0, o] (k1_pay4 v2) hk)
        (extractStridedSlice S2048x64 ![0, o] (k1_pay5 v4) hv) (ix2 p d)
      = Cert.Mha.ctxT v0 v2 v4 p j := by
  rw [headVal_apply]
  unfold Cert.Mha.ctxT
  have hh : Cert.Mha.headOf j = h := Fin.ext (by show j.val / 64 = h.val; have := d.isLt; omega)
  rw [hh]
  have hQ : ∀ c : Fin 64, extractStridedSlice S512x64 ![0, o] (k1_pay3 v0) hq (ix2 p c) = v0 (ix3 (0 : Fin 1) p (Cert.Mha.col h c)) := fun c => by
    rw [slice2_axis1_apply o _ hq p c (Cert.Mha.col h c) (by show h.val * 64 + c.val = o + c.val; omega)]
    unfold k1_pay3
    exact shapeCast_1ab_ab_apply v0 _ p _
  have hK : ∀ (kk : Fin 2048) (c : Fin 64), extractStridedSlice S2048x64 ![0, o] (k1_pay4 v2) hk (ix2 kk c) = v2 (ix3 (0 : Fin 1) kk (Cert.Mha.col h c)) := fun kk c => by
    rw [slice2_axis1_apply o _ hk kk c (Cert.Mha.col h c) (by show h.val * 64 + c.val = o + c.val; omega)]
    unfold k1_pay4
    exact shapeCast_1ab_ab_apply v2 _ kk _
  have hV : ∀ kk : Fin 2048, extractStridedSlice S2048x64 ![0, o] (k1_pay5 v4) hv (ix2 kk d) = v4 (ix3 (0 : Fin 1) kk j) := fun kk => by
    rw [slice2_axis1_apply o _ hv kk d j hj]
    unfold k1_pay5
    exact shapeCast_1ab_ab_apply v4 _ kk _
  have hS : headScore (extractStridedSlice S512x64 ![0, o] (k1_pay3 v0) hq) (extractStridedSlice S2048x64 ![0, o] (k1_pay4 v2) hk) p
      = Cert.Mha.scoreT v0 v2 h p := funext fun kk => by
    unfold headScore Cert.Mha.scoreT
    simp only [hQ, hK]
  have hE : headExpo (extractStridedSlice S512x64 ![0, o] (k1_pay3 v0) hq) (extractStridedSlice S2048x64 ![0, o] (k1_pay4 v2) hk) p
      = Cert.Mha.expoT v0 v2 h p := funext fun kk => by
    unfold headExpo Cert.Mha.expoT
    rw [hS]
  unfold Cert.Mha.probT
  simp only [hE, hV]

/-- The sixteen heads side by side, at (p, j): the tile's context. -/
theorem headsCat_apply (v0 : Vec Ideal S1x512x1024 .bf16) (v2 v4 : Vec Ideal S1x2048x1024 .bf16) (p : Fin 512) (j : Fin 1024) :
    headsCat v0 v2 v4 (ix2 p j) = Cert.Mha.ctxT v0 v2 v4 p j := by
  rw [headsCat_eq]
  have hd : j.val % 64 < 64 := Nat.mod_lt _ (by decide)
  refine (concatenate_ofFn_apply (1 : Fin S512x1024.rank) (headsFn v0 v2 v4) _ rfl 64 rfl (ix2 p j) (Cert.Mha.headOf j) rfl
    (ix2 p (⟨j.val % 64, hd⟩ : Fin 64)) rfl (fun b hb => ?_)).trans ?_
  · match b with
    | ⟨0, _⟩ => rfl
    | ⟨1, _⟩ => exact absurd rfl hb
  · have key : ∀ (h : Fin 16) (d : Fin 64), j.val = h.val * 64 + d.val → headsFn v0 v2 v4 h (ix2 p d) = Cert.Mha.ctxT v0 v2 v4 p j := by
      intro h d hj'
      have hj : j.val = h.val * 64 + d.val := hj'
      match h, hj with
      | ⟨0, _⟩, hj => exact head_ctx v0 v2 v4 ⟨0, by decide⟩ 0 rfl _ _ _ p d j hj
      | ⟨1, _⟩, hj => exact head_ctx v0 v2 v4 ⟨1, by decide⟩ 64 rfl _ _ _ p d j hj
      | ⟨2, _⟩, hj => exact head_ctx v0 v2 v4 ⟨2, by decide⟩ 128 rfl _ _ _ p d j hj
      | ⟨3, _⟩, hj => exact head_ctx v0 v2 v4 ⟨3, by decide⟩ 192 rfl _ _ _ p d j hj
      | ⟨4, _⟩, hj => exact head_ctx v0 v2 v4 ⟨4, by decide⟩ 256 rfl _ _ _ p d j hj
      | ⟨5, _⟩, hj => exact head_ctx v0 v2 v4 ⟨5, by decide⟩ 320 rfl _ _ _ p d j hj
      | ⟨6, _⟩, hj => exact head_ctx v0 v2 v4 ⟨6, by decide⟩ 384 rfl _ _ _ p d j hj
      | ⟨7, _⟩, hj => exact head_ctx v0 v2 v4 ⟨7, by decide⟩ 448 rfl _ _ _ p d j hj
      | ⟨8, _⟩, hj => exact head_ctx v0 v2 v4 ⟨8, by decide⟩ 512 rfl _ _ _ p d j hj
      | ⟨9, _⟩, hj => exact head_ctx v0 v2 v4 ⟨9, by decide⟩ 576 rfl _ _ _ p d j hj
      | ⟨10, _⟩, hj => exact head_ctx v0 v2 v4 ⟨10, by decide⟩ 640 rfl _ _ _ p d j hj
      | ⟨11, _⟩, hj => exact head_ctx v0 v2 v4 ⟨11, by decide⟩ 704 rfl _ _ _ p d j hj
      | ⟨12, _⟩, hj => exact head_ctx v0 v2 v4 ⟨12, by decide⟩ 768 rfl _ _ _ p d j hj
      | ⟨13, _⟩, hj => exact head_ctx v0 v2 v4 ⟨13, by decide⟩ 832 rfl _ _ _ p d j hj
      | ⟨14, _⟩, hj => exact head_ctx v0 v2 v4 ⟨14, by decide⟩ 896 rfl _ _ _ p d j hj
      | ⟨15, _⟩, hj => exact head_ctx v0 v2 v4 ⟨15, by decide⟩ 960 rfl _ _ _ p d j hj
      | ⟨_ + 16, h⟩, _ => exact absurd h (Nat.not_lt.2 (Nat.le_add_left _ _))
    exact key (Cert.Mha.headOf j) ⟨j.val % 64, hd⟩ (by show j.val = j.val / 64 * 64 + j.val % 64; omega)

/-- The stored result block at (0, p, e) is the tile's attention. -/
theorem attn_pay_apply (v0 : Vec Ideal S1x512x1024 .bf16) (v2 v4 : Vec Ideal S1x2048x1024 .bf16)
    (w : Vec Ideal S1024x1024 .bf16) (b : Vec Ideal S1024 .f32) (p : Fin 512) (e : Fin 1024) :
    k1_pay2 (headsCat v0 v2 v4) w b (ix3 (0 : Fin 1) p e) = Cert.Mha.outT v0 v2 v4 w b p e := by
  unfold k1_pay2
  rw [shapeCast_ab_1ab_apply, addf_apply, outDot_apply, broadcastTo_1b_ab_apply, shapeCast_a_1a_apply]
  unfold Cert.Mha.outT
  congr 1
  refine Finset.sum_congr rfl fun j _ => ?_
  rw [truncf_apply, headsCat_apply, shapeCast_self]

end Cert.KernelIdeal.KVal

end
-- ==== Proof.KV.Final1.lean ====
/-
  From blocks to the whole array, region 1 (attention and the output projection), on the extended reals: after the
  region the result array at (n, s, e) is lin (ctx Q K V) Wo bo n s e, where Q K V are the query, key and value arrays
  as the region finds them, Wo the output weights (found transposed) and bo the output bias.  Grid point (n, i) writes
  rows 512·i .. 512·i+511 of batch n; the sixteen points' blocks tile the array.
-/
import proofs.«136797_j3427383902664_2_alg».proof.Proof.KI.Blocks
import proofs.«136797_j3427383902664_2_alg».proof.Proof.KV.Pay1
import proofs.«136797_j3427383902664_2_alg».proof.Proof.TileSpec
import Idealize.ShloMosaic.Lib.Pipeline.Value

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

-- the TensorCore's buffer contents when the region is entered, on the extended reals
variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a; rfl

/-! ## The whole-array function -/

/-- The attention result as a function of the array index (n, s, e). -/
def attnArr (Q K Vv : Cert.Mha.Act) (Wo : Cert.Mha.Wt) (bo : Cert.Mha.Bias) : S4x2048x1024.Idx → EReal :=
  fun i => Cert.Mha.lin (Cert.Mha.ctx Q K Vv) Wo bo ⟨(i 0).val, (i 0).isLt⟩ ⟨(i 1).val, (i 1).isLt⟩ ⟨(i 2).val, (i 2).isLt⟩

theorem attnArr_ix3 (Q K Vv : Cert.Mha.Act) (Wo : Cert.Mha.Wt) (bo : Cert.Mha.Bias) (n : Fin 4) (s : Fin 2048) (e : Fin 1024) :
    attnArr Q K Vv Wo bo (ix3 n s e) = Cert.Mha.lin (Cert.Mha.ctx Q K Vv) Wo bo n s e := rfl

/-! ## The index maps, decided over the grid -/

/-- The queries' window moves with the result's (batch, query tile, 0); the keys' and the values' windows sit at
    (batch, 0, 0); the weights' and the bias' at block 0; the result's block indices stay in their ranges. -/
theorem idx_facts1 : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0
    ∧ win1_4.index t (0 : Fin 1) = 0
    ∧ win1_5.index t (0 : Fin 3) < 4 ∧ win1_5.index t (1 : Fin 3) < 4 ∧ win1_5.index t (2 : Fin 3) = 0 :=
  (by decide +kernel : ∀ t : Fin grid1.N, _)

/-- Every (batch, query tile) is some point's. -/
theorem idx_onto1 : ∀ (q0 : Fin 4) (q1 : Fin 4), ∃ t : Fin cfg1.N,
    win1_5.index t (0 : Fin 3) = q0.val ∧ win1_5.index t (1 : Fin 3) = q1.val :=
  (by decide +kernel : ∀ (q0 : Fin 4) (q1 : Fin 4), ∃ t : Fin grid1.N, win1_5.index t (0 : Fin 3) = q0.val ∧ win1_5.index t (1 : Fin 3) = q1.val)

/-! ## The input blocks, read at an index -/

/-- The queries' block at point t, row p, is row 512·(tile) + p of batch n of the array. -/
theorem blockQ_apply (c : Dev nD) (t : Fin cfg1.N) (p : Fin 512) (j : Fin 1024) (n : Fin 4) (s : Fin 2048)
    (hn : n.val = win1_5.index t (0 : Fin 3)) (hs : s.val = win1_5.index t (1 : Fin 3) * 512 + p.val) :
    (blockOf1 V c 0 t : Vec Ideal S1x512x1024 .bf16) (ix3 (0 : Fin 1) p j) = (V c main_v9 : S4x2048x1024.Idx → EReal) (ix3 n s j) := by
  obtain ⟨e0, e1, e2, -⟩ := idx_facts1 t
  unfold blockOf1
  rw [View.read_apply]
  show (V c main_v9 : S4x2048x1024.Idx → EReal) (((cfg1.win 0).blk t).view.emb (ix3 (0 : Fin 1) p j)) = _
  congr 1
  funext a
  apply Fin.ext
  match a with
  | ⟨0, _⟩ => show win1_0.index t (0 : Fin 3) * 1 + 1 * 0 = n.val; rw [e0, hn]; omega
  | ⟨1, _⟩ => show win1_0.index t (1 : Fin 3) * 512 + 1 * p.val = s.val; rw [e1, hs]; omega
  | ⟨2, _⟩ => show win1_0.index t (2 : Fin 3) * 1024 + 1 * j.val = j.val; rw [e2]; omega

/-- The keys' block at point t is batch n of the array. -/
theorem blockK_apply (c : Dev nD) (t : Fin cfg1.N) (kk : Fin 2048) (j : Fin 1024) (n : Fin 4)
    (hn : n.val = win1_5.index t (0 : Fin 3)) :
    (blockOf1 V c 1 t : Vec Ideal S1x2048x1024 .bf16) (ix3 (0 : Fin 1) kk j) = (V c main_v10 : S4x2048x1024.Idx → EReal) (ix3 n kk j) := by
  obtain ⟨-, -, -, e0, e1, e2, -⟩ := idx_facts1 t
  unfold blockOf1
  rw [View.read_apply]
  show (V c main_v10 : S4x2048x1024.Idx → EReal) (((cfg1.win 1).blk t).view.emb (ix3 (0 : Fin 1) kk j)) = _
  congr 1
  funext a
  apply Fin.ext
  match a with
  | ⟨0, _⟩ => show win1_1.index t (0 : Fin 3) * 1 + 1 * 0 = n.val; rw [e0, hn]; omega
  | ⟨1, _⟩ => show win1_1.index t (1 : Fin 3) * 2048 + 1 * kk.val = kk.val; rw [e1]; omega
  | ⟨2, _⟩ => show win1_1.index t (2 : Fin 3) * 1024 + 1 * j.val = j.val; rw [e2]; omega

/-- The values' block at point t is batch n of the array. -/
theorem blockV_apply (c : Dev nD) (t : Fin cfg1.N) (kk : Fin 2048) (j : Fin 1024) (n : Fin 4)
    (hn : n.val = win1_5.index t (0 : Fin 3)) :
    (blockOf1 V c 2 t : Vec Ideal S1x2048x1024 .bf16) (ix3 (0 : Fin 1) kk j) = (V c main_v11 : S4x2048x1024.Idx → EReal) (ix3 n kk j) := by
  obtain ⟨-, -, -, -, -, -, e0, e1, e2, -⟩ := idx_facts1 t
  unfold blockOf1
  rw [View.read_apply]
  show (V c main_v11 : S4x2048x1024.Idx → EReal) (((cfg1.win 2).blk t).view.emb (ix3 (0 : Fin 1) kk j)) = _
  congr 1
  funext a
  apply Fin.ext
  match a with
  | ⟨0, _⟩ => show win1_2.index t (0 : Fin 3) * 1 + 1 * 0 = n.val; rw [e0, hn]; omega
  | ⟨1, _⟩ => show win1_2.index t (1 : Fin 3) * 2048 + 1 * kk.val = kk.val; rw [e1]; omega
  | ⟨2, _⟩ => show win1_2.index t (2 : Fin 3) * 1024 + 1 * j.val = j.val; rw [e2]; omega

/-- The output weights' block at any point is the whole array. -/
theorem blockWo_apply (c : Dev nD) (t : Fin cfg1.N) (j e : Fin 1024) :
    (blockOf1 V c 3 t : Vec Ideal S1024x1024 .bf16) (ix2 j e) = (V c main_v13 : S1024x1024.Idx → EReal) (ix2 j e) := by
  obtain ⟨-, -, -, -, -, -, -, -, -, e0, e1, -⟩ := idx_facts1 t
  unfold blockOf1
  rw [View.read_apply]
  show (V c main_v13 : S1024x1024.Idx → EReal) (((cfg1.win 3).blk t).view.emb (ix2 j e)) = _
  congr 1
  funext a
  apply Fin.ext
  match a with
  | ⟨0, _⟩ => show win1_3.index t (0 : Fin 2) * 1024 + 1 * j.val = j.val; rw [e0]; omega
  | ⟨1, _⟩ => show win1_3.index t (1 : Fin 2) * 1024 + 1 * e.val = e.val; rw [e1]; omega

/-- The output bias' block at any point is the whole array. -/
theorem blockBo_apply (c : Dev nD) (t : Fin cfg1.N) (e : Fin 1024) :
    (blockOf1 V c 4 t : Vec Ideal S1024 .f32) (ix1 e) = (V c main_arg8 : S1024.Idx → EReal) (ix1 e) := by
  obtain ⟨-, -, -, -, -, -, -, -, -, -, -, e0, -⟩ := idx_facts1 t
  unfold blockOf1
  rw [View.read_apply]
  show (V c main_arg8 : S1024.Idx → EReal) (((cfg1.win 4).blk t).view.emb (ix1 e)) = _
  congr 1
  funext a
  apply Fin.ext
  match a with
  | ⟨0, _⟩ => show win1_4.index t (0 : Fin 1) * 1024 + 1 * e.val = e.val; rw [e0]; omega

/-! ## The result array -/

section Arrays
variable (c : Dev nD) (Q K Vv : Cert.Mha.Act) (Wo : Cert.Mha.Wt) (bo : Cert.Mha.Bias)
  (hQ : ∀ (n : Fin 4) (s : Fin 2048) (j : Fin 1024), (V c main_v9 : S4x2048x1024.Idx → EReal) (ix3 n s j) = Q n s j)
  (hK : ∀ (n : Fin 4) (s : Fin 2048) (j : Fin 1024), (V c main_v10 : S4x2048x1024.Idx → EReal) (ix3 n s j) = K n s j)
  (hV : ∀ (n : Fin 4) (s : Fin 2048) (j : Fin 1024), (V c main_v11 : S4x2048x1024.Idx → EReal) (ix3 n s j) = Vv n s j)
  (hW : ∀ (j e : Fin 1024), (V c main_v13 : S1024x1024.Idx → EReal) (ix2 j e) = Wo e j)
  (hb : ∀ e : Fin 1024, (V c main_arg8 : S1024.Idx → EReal) (ix1 e) = bo e)

include hQ hK hV hW hb in
/-- What point t writes back to the result array is block t of the whole-array function. -/
theorem flushedOut_eq (t : Fin cfg1.N) :
    (dat1 V c).flushed 5 t = ((cfg1.win 5).blk t).view.read (Elt Ideal) (attnArr Q K Vv Wo bo) := by
  obtain ⟨-, -, -, -, -, -, -, -, -, -, -, -, b0, b1, e2⟩ := idx_facts1 t
  show (cfg1.win 5).cut (grid1.coords t) ((dat1 V c).after 5 t) = _
  rw [after1_5]
  unfold attnOut
  rw [View.canon_unit_zero zeros3]
  simp only [View.ld_unit_zero (S := S1x512x1024) zeros3, View.ld_unit_zero (S := S1x2048x1024) zeros3,
    View.ld_unit_zero (S := S1024x1024) zeros2, View.ld_unit_zero (S := S1024) zeros1]
  funext y
  obtain ⟨u, p, e, rfl⟩ : ∃ (u : Fin 1) (p : Fin 512) (e : Fin 1024), y = ix3 u p e := ⟨y 0, y 1, y 2, eq_ix3 y⟩
  obtain rfl : u = 0 := Subsingleton.elim _ _
  have hp : p.val < 512 := p.isLt
  obtain ⟨n, hn⟩ : ∃ n : Fin 4, n.val = win1_5.index t (0 : Fin 3) := ⟨⟨_, b0⟩, rfl⟩
  obtain ⟨s, hs⟩ : ∃ s : Fin 2048, s.val = win1_5.index t (1 : Fin 3) * 512 + p.val := ⟨⟨_, by omega⟩, rfl⟩
  have hemb : ((cfg1.win 5).blk t).view.emb (ix3 (0 : Fin 1) p e) = (ix3 n s e : S4x2048x1024.Idx) := by
    funext a
    apply Fin.ext
    match a with
    | ⟨0, _⟩ => show win1_5.index t (0 : Fin 3) * 1 + 1 * 0 = n.val; rw [hn]; omega
    | ⟨1, _⟩ => show win1_5.index t (1 : Fin 3) * 512 + 1 * p.val = s.val; rw [hs]; omega
    | ⟨2, _⟩ => show win1_5.index t (2 : Fin 3) * 1024 + 1 * e.val = e.val; rw [e2]; omega
  rw [View.read_apply, hemb]
  show k1_pay2 (headsCat (blockOf1 V c 0 t) (blockOf1 V c 1 t) (blockOf1 V c 2 t)) (blockOf1 V c 3 t) (blockOf1 V c 4 t) (ix3 (0 : Fin 1) p e)
    = attnArr Q K Vv Wo bo (ix3 n s e)
  rw [attnArr_ix3, attn_pay_apply]
  refine Cert.Mha.outT_eq Q K Vv Wo bo n s _ _ _ _ _ p ?_ ?_ ?_ ?_ ?_ e
  · intro j; rw [blockQ_apply V c t p j n s hn hs, hQ]
  · intro kk j; rw [blockK_apply V c t kk j n hn, hK]
  · intro kk j; rw [blockV_apply V c t kk j n hn, hV]
  · intro j e'; rw [blockWo_apply, hW]
  · intro e'; rw [blockBo_apply, hb]

/-- An index of the result array is in point t's block iff each coordinate is in the block's range on its axis. -/
theorem mem_blkOut (t : Fin cfg1.N) (i : S4x2048x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v14).slice (win1_5.rect t)).set ↔ _
  rw [View.set_slice_whole, Rect.mem_set_unit]
  exact Iff.rfl

/-- Index (n, s, e) is in the block of point (n, s / 512). -/
theorem coverOut (i : S4x2048x1024.Idx) : ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  obtain ⟨t, q0, q1⟩ := idx_onto1 ⟨(i 0).val, hi0⟩ ⟨(i 1).val / 512, by omega⟩
  obtain ⟨-, -, -, -, -, -, -, -, -, -, -, -, -, -, e2⟩ := idx_facts1 t
  refine ⟨t, flush1_5 t, ?_⟩
  rw [mem_blkOut]
  intro a
  match a with
  | ⟨0, _⟩ => show win1_5.index t (0 : Fin 3) * 1 ≤ (i 0).val ∧ (i 0).val < win1_5.index t (0 : Fin 3) * 1 + 1; rw [q0]; show (i 0).val * 1 ≤ (i 0).val ∧ (i 0).val < (i 0).val * 1 + 1; omega
  | ⟨1, _⟩ => show win1_5.index t (1 : Fin 3) * 512 ≤ (i 1).val ∧ (i 1).val < win1_5.index t (1 : Fin 3) * 512 + 512; rw [q1]; show (i 1).val / 512 * 512 ≤ (i 1).val ∧ (i 1).val < (i 1).val / 512 * 512 + 512; omega
  | ⟨2, _⟩ => show win1_5.index t (2 : Fin 3) * 1024 ≤ (i 2).val ∧ (i 2).val < win1_5.index t (2 : Fin 3) * 1024 + 1024; rw [e2]; omega

include hQ hK hV hW hb in
/-- The result array after the region. -/
theorem arrOut_eq : (dat1 V c).arrAt 5 cfg1.N = attnArr Q K Vv Wo bo :=
  (dat1 V c).arrAt_eq_of_cover 5 _ (fun t _ => flushedOut_eq V c Q K Vv Wo bo hQ hK hV hW hb t) coverOut

end Arrays

theorem finalOut (c : Dev nD) (Q K Vv : Cert.Mha.Act) (Wo : Cert.Mha.Wt) (bo : Cert.Mha.Bias)
    (hQ : ∀ (n : Fin 4) (s : Fin 2048) (j : Fin 1024), (V c main_v9 : S4x2048x1024.Idx → EReal) (ix3 n s j) = Q n s j)
    (hK : ∀ (n : Fin 4) (s : Fin 2048) (j : Fin 1024), (V c main_v10 : S4x2048x1024.Idx → EReal) (ix3 n s j) = K n s j)
    (hV : ∀ (n : Fin 4) (s : Fin 2048) (j : Fin 1024), (V c main_v11 : S4x2048x1024.Idx → EReal) (ix3 n s j) = Vv n s j)
    (hW : ∀ (j e : Fin 1024), (V c main_v13 : S1024x1024.Idx → EReal) (ix2 j e) = Wo e j)
    (hb : ∀ e : Fin 1024, (V c main_arg8 : S1024.Idx → EReal) (ix1 e) = bo e)
    (n : Fin 4) (s : Fin 2048) (e : Fin 1024) :
    ((dat1 (F := Ideal) V c).arrAt 5 cfg1.N : S4x2048x1024.Idx → EReal) (ix3 n s e) = Cert.Mha.lin (Cert.Mha.ctx Q K Vv) Wo bo n s e := by
  rw [arrOut_eq V c Q K Vv Wo bo hQ hK hV hW hb, attnArr_ix3]

end Cert.KernelIdeal.KVal

end
-- ==== Proof.KV.Result.lean ====
/-
  The idealized kernel's result, read index by index: it is multi-head attention (Spec.lean's mha) of the argument arrays.

  The result array holds what region 1's write-backs leave: the output projection of the attention context of the
  queries, keys and values that the second host stretch reshaped from region 0's three result arrays.  Those hold, row
  n · 2048 + s, the three linear layers of the activations' row (n, s): the first host stretch flattened the
  activations, transposed the three weight matrices and laid them side by side, and laid the three biases end to end.
  The output weights reach region 1 transposed, and the output bias is an argument array read in place.
-/
import proofs.«136797_j3427383902664_2_alg».proof.Proof.KI.Run
import proofs.«136797_j3427383902664_2_alg».proof.Proof.Spec
import proofs.«136797_j3427383902664_2_alg».proof.Proof.KV.Host0
import proofs.«136797_j3427383902664_2_alg».proof.Proof.KV.Host1
import proofs.«136797_j3427383902664_2_alg».proof.Proof.KV.Final0
import proofs.«136797_j3427383902664_2_alg».proof.Proof.KV.Final1
import Idealize.ShloMosaic.Lib.ValueIdx
import Idealize.ShloMosaic.Lib.StableHlo.Run
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal

variable (m : (ℓ : Loc nD τ sig) → Buf (Elt Ideal) ℓ) (ρ : Dev nD → PrngReg) (c : Dev nD)

/-! ## An argument reaches region 1 as launched -/

/-- A buffer the first host stretch does not write and that is no window's array of region 0 holds, at region 0's
    exit, what the launch memory holds. -/
theorem W2_of_untouched (b : Ref sig .tc) (h2 : ∀ w, Pipeline.arrRef spec0 w ≠ b) (h1 : b ∉ Gen.hostOps0_W) :
    Hand.W2 m ρ c (Proc.devRef .tc b) = m ((c : Thread nD τ).loc b) :=
  (Hand.W2_of_ne m ρ c b h2).trans (StableHlo.after_of_writes_sub Gen.hostOps0 _ Gen.hostOps0_writes h1)

/-! ## The three linear layers -/

/-- Row n · 2048 + s of the flattened activations. -/
def flatRow (n : Fin 4) (s : Fin 2048) : Fin 8192 := ⟨n.val * 2048 + s.val, by have := n.isLt; have := s.isLt; omega⟩
/-- Column o + e of the concatenated weights, for o = 0, 1024, 2048. -/
def catCol (o : Nat) (ho : o ≤ 2048) (e : Fin 1024) : Fin 3072 := ⟨o + e.val, by have := e.isLt; omega⟩

/-- The queries as region 1 finds them: the query layer of the activations. -/
theorem entry_q (n : Fin 4) (s : Fin 2048) (j : Fin 1024) :
    (Hand.V3 m ρ c main_v9 : S4x2048x1024.Idx → EReal) (ix3 n s j)
      = Cert.Mha.lin (Cert.Mha.act3 (m ((c.tc : Thread nD τ).loc main_arg0))) (Cert.Mha.mat2 (m ((c.tc : Thread nD τ).loc main_arg1)))
          (Cert.Mha.vec1 (m ((c.tc : Thread nD τ).loc main_arg2))) n s j := by
  have h2 : (Hand.W2 m ρ c (Proc.devRef .tc main_v8_0) : S8192x1024.Idx → EReal)
      = ((Hand.dat0 (F := Ideal) (Hand.V1 m ρ) c).arrAt 3 cfg0.N : S8192x1024.Idx → EReal) := Hand.W2_arr m ρ c 3
  show (StableHlo.after Gen.hostOps1 (Hand.W2 m ρ c) (Proc.devRef .tc main_v9) : S4x2048x1024.Idx → EReal) (ix3 n s j) = _
  rw [host1_q (Hand.W2 m ρ c) n s j (flatRow n s) rfl, h2, finalQ (Hand.V1 m ρ) c (flatRow n s) j (catCol 0 (by omega) j) rfl]
  refine congrArg₂ (fun a b : EReal => a + b) (Finset.sum_congr rfl fun d _ => ?_) ?_
  · exact congrArg₂ (fun a b : EReal => a * b) (host0_x (Hand.W0 m ρ c) n s d (flatRow n s) rfl)
      (host0_wq (Hand.W0 m ρ c) d j (catCol 0 (by omega) j) rfl)
  · exact host0_bq (Hand.W0 m ρ c) j (catCol 0 (by omega) j) rfl

/-- The keys as region 1 finds them: the key layer of the activations. -/
theorem entry_k (n : Fin 4) (s : Fin 2048) (j : Fin 1024) :
    (Hand.V3 m ρ c main_v10 : S4x2048x1024.Idx → EReal) (ix3 n s j)
      = Cert.Mha.lin (Cert.Mha.act3 (m ((c.tc : Thread nD τ).loc main_arg0))) (Cert.Mha.mat2 (m ((c.tc : Thread nD τ).loc main_arg3)))
          (Cert.Mha.vec1 (m ((c.tc : Thread nD τ).loc main_arg4))) n s j := by
  have h2 : (Hand.W2 m ρ c (Proc.devRef .tc main_v8_1) : S8192x1024.Idx → EReal)
      = ((Hand.dat0 (F := Ideal) (Hand.V1 m ρ) c).arrAt 4 cfg0.N : S8192x1024.Idx → EReal) := Hand.W2_arr m ρ c 4
  show (StableHlo.after Gen.hostOps1 (Hand.W2 m ρ c) (Proc.devRef .tc main_v10) : S4x2048x1024.Idx → EReal) (ix3 n s j) = _
  rw [host1_k (Hand.W2 m ρ c) n s j (flatRow n s) rfl, h2, finalK (Hand.V1 m ρ) c (flatRow n s) j (catCol 1024 (by omega) j) rfl]
  refine congrArg₂ (fun a b : EReal => a + b) (Finset.sum_congr rfl fun d _ => ?_) ?_
  · exact congrArg₂ (fun a b : EReal => a * b) (host0_x (Hand.W0 m ρ c) n s d (flatRow n s) rfl)
      (host0_wk (Hand.W0 m ρ c) d j (catCol 1024 (by omega) j) rfl)
  · exact host0_bk (Hand.W0 m ρ c) j (catCol 1024 (by omega) j) rfl

/-- The values as region 1 finds them: the value layer of the activations. -/
theorem entry_v (n : Fin 4) (s : Fin 2048) (j : Fin 1024) :
    (Hand.V3 m ρ c main_v11 : S4x2048x1024.Idx → EReal) (ix3 n s j)
      = Cert.Mha.lin (Cert.Mha.act3 (m ((c.tc : Thread nD τ).loc main_arg0))) (Cert.Mha.mat2 (m ((c.tc : Thread nD τ).loc main_arg5)))
          (Cert.Mha.vec1 (m ((c.tc : Thread nD τ).loc main_arg6))) n s j := by
  have h2 : (Hand.W2 m ρ c (Proc.devRef .tc main_v8_2) : S8192x1024.Idx → EReal)
      = ((Hand.dat0 (F := Ideal) (Hand.V1 m ρ) c).arrAt 5 cfg0.N : S8192x1024.Idx → EReal) := Hand.W2_arr m ρ c 5
  show (StableHlo.after Gen.hostOps1 (Hand.W2 m ρ c) (Proc.devRef .tc main_v11) : S4x2048x1024.Idx → EReal) (ix3 n s j) = _
  rw [host1_v (Hand.W2 m ρ c) n s j (flatRow n s) rfl, h2, finalV (Hand.V1 m ρ) c (flatRow n s) j (catCol 2048 (by omega) j) rfl]
  refine congrArg₂ (fun a b : EReal => a + b) (Finset.sum_congr rfl fun d _ => ?_) ?_
  · exact congrArg₂ (fun a b : EReal => a * b) (host0_x (Hand.W0 m ρ c) n s d (flatRow n s) rfl)
      (host0_wv (Hand.W0 m ρ c) d j (catCol 2048 (by omega) j) rfl)
  · exact host0_bv (Hand.W0 m ρ c) j (catCol 2048 (by omega) j) rfl

/-! ## The output layer's weights and bias -/

/-- The output weights as region 1 finds them: the argument's transpose. -/
theorem entry_wo (j e : Fin 1024) :
    (Hand.V3 m ρ c main_v13 : S1024x1024.Idx → EReal) (ix2 j e) = Cert.Mha.mat2 (m ((c.tc : Thread nD τ).loc main_arg7)) e j := by
  have h : (Hand.W2 m ρ c (Proc.devRef .tc main_arg7) : S1024x1024.Idx → EReal) = (m ((c.tc : Thread nD τ).loc main_arg7) : S1024x1024.Idx → EReal) :=
    W2_of_untouched m ρ c main_arg7 (by decide) (by decide)
  show (StableHlo.after Gen.hostOps1 (Hand.W2 m ρ c) (Proc.devRef .tc main_v13) : S1024x1024.Idx → EReal) (ix2 j e) = _
  rw [host1_wo (Hand.W2 m ρ c) j e, h]
  rfl

/-- The output bias as region 1 finds it: the argument, as launched. -/
theorem entry_bo (e : Fin 1024) :
    (Hand.V3 m ρ c main_arg8 : S1024.Idx → EReal) (ix1 e) = Cert.Mha.vec1 (m ((c.tc : Thread nD τ).loc main_arg8)) e := by
  have h : (StableHlo.after Gen.hostOps1 (Hand.W2 m ρ c) (Proc.devRef .tc main_arg8) : S1024.Idx → EReal) = (m ((c.tc : Thread nD τ).loc main_arg8) : S1024.Idx → EReal) :=
    (host1_bo (Hand.W2 m ρ c)).trans (W2_of_untouched m ρ c main_arg8 (by decide) (by decide))
  exact congrFun h (ix1 e)

/-! ## The result -/

/-- The idealized kernel's result at (n, s, e) is multi-head attention of the arrays it was launched with. -/
theorem kernel_result (n : Fin 4) (s : Fin 2048) (e : Fin 1024) :
    (Hand.W4 m ρ c (Proc.devRef .tc main_v14) : S4x2048x1024.Idx → EReal) (ix3 n s e)
      = Cert.Mha.mha (Cert.Mha.act3 (m ((c.tc : Thread nD τ).loc main_arg0))) (Cert.Mha.mat2 (m ((c.tc : Thread nD τ).loc main_arg1))) (Cert.Mha.vec1 (m ((c.tc : Thread nD τ).loc main_arg2)))
          (Cert.Mha.mat2 (m ((c.tc : Thread nD τ).loc main_arg3))) (Cert.Mha.vec1 (m ((c.tc : Thread nD τ).loc main_arg4))) (Cert.Mha.mat2 (m ((c.tc : Thread nD τ).loc main_arg5))) (Cert.Mha.vec1 (m ((c.tc : Thread nD τ).loc main_arg6)))
          (Cert.Mha.mat2 (m ((c.tc : Thread nD τ).loc main_arg7))) (Cert.Mha.vec1 (m ((c.tc : Thread nD τ).loc main_arg8))) n s e := by
  have h4 : (Hand.W4 m ρ c (Proc.devRef .tc main_v14) : S4x2048x1024.Idx → EReal)
      = ((Hand.dat1 (F := Ideal) (Hand.V3 m ρ) c).arrAt 5 cfg1.N : S4x2048x1024.Idx → EReal) := Hand.W4_main_v14 m ρ c
  rw [h4]
  exact finalOut (Hand.V3 m ρ) c _ _ _ _ _ (entry_q m ρ c) (entry_k m ρ c) (entry_v m ρ c) (entry_wo m ρ c) (entry_bo m ρ c) n s e

end Cert.KernelIdeal.KVal

end
-- ==== Proof.Ref.Linear.lean ====
/-
  The three input projections of the reference, read at an index: each is a linear layer of the activations (Spec.lean's lin),
  and its reshaped-and-transposed form, entry (n, h, s, d), is that layer at column 64 h + d.
-/
import proofs.«136797_j3427383902664_2_alg».proof.Defs
import proofs.«136797_j3427383902664_2_alg».proof.Proof.Gen.ReferenceIdeal.Run
import proofs.«136797_j3427383902664_2_alg».proof.Proof.Gen.ReferenceIdeal.Read
import proofs.«136797_j3427383902664_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.Mha Idealize.ShloMosaic Idealize.ShloMosaic.ValueIdx

/-- The query projection at (n, s, e): row (n, s) of the activations against row e of the weight matrix, plus the bias. -/
theorem lin_q (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (n : Fin 4) (s : Fin 2048) (e : Fin 1024) :
    val_main_v3 (F := Ideal) x0 x1 x2 (ix3 n s e) = lin (act3 x0) (mat2 x1) (vec1 x2) n s e := by
  rw [val_main_v3_apply, val_main_v0_apply, val_main_v2_apply, val_main_v1_apply]
  show (∑ k : Fin 1024, x0 (lidx_main_v0 (ix3 n s e) k) * x1 (ridx_main_v0 (ix3 n s e) k))
        + x2 (idx_main_v1 (idx_main_v2 (ix3 n s e)))
      = (∑ d : Fin 1024, x0 (ix3 n s d) * x1 (ix2 e d)) + x2 (ix1 e)
  have el : ∀ k : Fin 1024, lidx_main_v0 (ix3 n s e) k = ix3 n s k := fun k => funext fun a => Fin.ext (by
    match a with | ⟨0, _⟩ => rfl | ⟨1, _⟩ => rfl | ⟨2, _⟩ => rfl)
  have er : ∀ k : Fin 1024, ridx_main_v0 (ix3 n s e) k = ix2 e k := fun k => funext fun a => Fin.ext (by
    match a with | ⟨0, _⟩ => rfl | ⟨1, _⟩ => rfl)
  have eb : idx_main_v1 (idx_main_v2 (ix3 n s e)) = ix1 e := funext fun a => Fin.ext (by
    match a with | ⟨0, _⟩ => rfl)
  rw [eb]
  refine congrArg (· + _) (Finset.sum_congr rfl fun k _ => ?_)
  rw [el, er]

/-- Splitting the 1024 features into 16 heads of 64 and moving the head axis forward: entry (n, h, s, d) of the result is
    entry (n, s, 64 h + d) of the projection. -/
theorem heads_q (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (n : Fin 4) (h : Fin 16) (s : Fin 2048) (d : Fin 64) :
    val_main_v5 (F := Ideal) x0 x1 x2 (ix4 n h s d) = lin (act3 x0) (mat2 x1) (vec1 x2) n s (col h d) := by
  rw [val_main_v5_apply, val_main_v4_apply]
  have ei : idx_main_v4 (idx_main_v5 (ix4 n h s d)) = ix3 n s (col h d) := funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)
  rw [ei]
  exact lin_q x0 x1 x2 n s (col h d)

/-- The key projection at (n, s, e): row (n, s) of the activations against row e of the weight matrix, plus the bias. -/
theorem lin_k (x0 : (⟨S4x2048x1024, .f32⟩ : BufTy).Contents (Elt Ideal)) (x3 : (⟨S1024x1024, .f32⟩ : BufTy).Contents (Elt Ideal)) (x4 : (⟨S1024, .f32⟩ : BufTy).Contents (Elt Ideal)) (n : Fin 4) (s : Fin 2048) (e : Fin 1024) :
    val_main_v9 (F := Ideal) x0 x3 x4 (ix3 n s e) = lin (act3 x0) (mat2 x3) (vec1 x4) n s e := by
  rw [val_main_v9_apply, val_main_v6_apply, val_main_v8_apply, val_main_v7_apply]
  show (∑ k : Fin 1024, x0 (lidx_main_v6 (ix3 n s e) k) * x3 (ridx_main_v6 (ix3 n s e) k))
        + x4 (idx_main_v7 (idx_main_v8 (ix3 n s e)))
      = (∑ d : Fin 1024, x0 (ix3 n s d) * x3 (ix2 e d)) + x4 (ix1 e)
  have el : ∀ k : Fin 1024, lidx_main_v6 (ix3 n s e) k = ix3 n s k := fun k => funext fun a => Fin.ext (by
    match a with | ⟨0, _⟩ => rfl | ⟨1, _⟩ => rfl | ⟨2, _⟩ => rfl)
  have er : ∀ k : Fin 1024, ridx_main_v6 (ix3 n s e) k = ix2 e k := fun k => funext fun a => Fin.ext (by
    match a with | ⟨0, _⟩ => rfl | ⟨1, _⟩ => rfl)
  have eb : idx_main_v7 (idx_main_v8 (ix3 n s e)) = ix1 e := funext fun a => Fin.ext (by
    match a with | ⟨0, _⟩ => rfl)
  rw [eb]
  refine congrArg (· + _) (Finset.sum_congr rfl fun k _ => ?_)
  rw [el, er]

/-- Splitting the 1024 features into 16 heads of 64 and moving the head axis forward: entry (n, h, s, d) of the result is
    entry (n, s, 64 h + d) of the projection. -/
theorem heads_k (x0 : (⟨S4x2048x1024, .f32⟩ : BufTy).Contents (Elt Ideal)) (x3 : (⟨S1024x1024, .f32⟩ : BufTy).Contents (Elt Ideal)) (x4 : (⟨S1024, .f32⟩ : BufTy).Contents (Elt Ideal)) (n : Fin 4) (h : Fin 16) (s : Fin 2048) (d : Fin 64) :
    val_main_v11 (F := Ideal) x0 x3 x4 (ix4 n h s d) = lin (act3 x0) (mat2 x3) (vec1 x4) n s (col h d) := by
  rw [val_main_v11_apply, val_main_v10_apply]
  have ei : idx_main_v10 (idx_main_v11 (ix4 n h s d)) = ix3 n s (col h d) := funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)
  rw [ei]
  exact lin_k x0 x3 x4 n s (col h d)

/-- The value projection at (n, s, e): row (n, s) of the activations against row e of the weight matrix, plus the bias. -/
theorem lin_v (x0 : (⟨S4x2048x1024, .f32⟩ : BufTy).Contents (Elt Ideal)) (x5 : (⟨S1024x1024, .f32⟩ : BufTy).Contents (Elt Ideal)) (x6 : (⟨S1024, .f32⟩ : BufTy).Contents (Elt Ideal)) (n : Fin 4) (s : Fin 2048) (e : Fin 1024) :
    val_main_v15 (F := Ideal) x0 x5 x6 (ix3 n s e) = lin (act3 x0) (mat2 x5) (vec1 x6) n s e := by
  rw [val_main_v15_apply, val_main_v12_apply, val_main_v14_apply, val_main_v13_apply]
  show (∑ k : Fin 1024, x0 (lidx_main_v12 (ix3 n s e) k) * x5 (ridx_main_v12 (ix3 n s e) k))
        + x6 (idx_main_v13 (idx_main_v14 (ix3 n s e)))
      = (∑ d : Fin 1024, x0 (ix3 n s d) * x5 (ix2 e d)) + x6 (ix1 e)
  have el : ∀ k : Fin 1024, lidx_main_v12 (ix3 n s e) k = ix3 n s k := fun k => funext fun a => Fin.ext (by
    match a with | ⟨0, _⟩ => rfl | ⟨1, _⟩ => rfl | ⟨2, _⟩ => rfl)
  have er : ∀ k : Fin 1024, ridx_main_v12 (ix3 n s e) k = ix2 e k := fun k => funext fun a => Fin.ext (by
    match a with | ⟨0, _⟩ => rfl | ⟨1, _⟩ => rfl)
  have eb : idx_main_v13 (idx_main_v14 (ix3 n s e)) = ix1 e := funext fun a => Fin.ext (by
    match a with | ⟨0, _⟩ => rfl)
  rw [eb]
  refine congrArg (· + _) (Finset.sum_congr rfl fun k _ => ?_)
  rw [el, er]

/-- Splitting the 1024 features into 16 heads of 64 and moving the head axis forward: entry (n, h, s, d) of the result is
    entry (n, s, 64 h + d) of the projection. -/
theorem heads_v (x0 : (⟨S4x2048x1024, .f32⟩ : BufTy).Contents (Elt Ideal)) (x5 : (⟨S1024x1024, .f32⟩ : BufTy).Contents (Elt Ideal)) (x6 : (⟨S1024, .f32⟩ : BufTy).Contents (Elt Ideal)) (n : Fin 4) (h : Fin 16) (s : Fin 2048) (d : Fin 64) :
    val_main_v17 (F := Ideal) x0 x5 x6 (ix4 n h s d) = lin (act3 x0) (mat2 x5) (vec1 x6) n s (col h d) := by
  rw [val_main_v17_apply, val_main_v16_apply]
  have ei : idx_main_v16 (idx_main_v17 (ix4 n h s d)) = ix3 n s (col h d) := funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)
  rw [ei]
  exact lin_v x0 x5 x6 n s (col h d)

end Cert.ReferenceIdeal.RefValue

end
-- ==== Proof.Ref.Softmax.lean ====
/-
  The reference's softmax stages read at an index: the scaled scores, each row's maximum, the exponentials, their sum and
  the probabilities are Spec.lean's score, rowMax, expo and prob of the query and key projections.
-/
import proofs.«136797_j3427383902664_2_alg».proof.Defs
import proofs.«136797_j3427383902664_2_alg».proof.Proof.Gen.ReferenceIdeal.Run
import proofs.«136797_j3427383902664_2_alg».proof.Proof.Gen.ReferenceIdeal.Read
import proofs.«136797_j3427383902664_2_alg».proof.Proof.Spec
import proofs.«136797_j3427383902664_2_alg».proof.Proof.Ref.Linear
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.Mha Idealize.ShloMosaic Idealize.ShloMosaic.ValueIdx

/-- The scaled score at (n, h, q, k): the inner product of query row q and key row k over head h's 64 columns, times 1/8. -/
theorem score_eq (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 4) (h : Fin 16) (q k : Fin 2048) :
    val_main_v20 (F := Ideal) x0 x1 x2 x3 x4 (ix4 n h q k) = score (lin (act3 x0) (mat2 x1) (vec1 x2)) (lin (act3 x0) (mat2 x3) (vec1 x4)) n h q k := by
  rw [val_main_v20_apply, val_main_v18_apply, val_main_v19_apply, val_main_cst_apply]
  show (∑ d : Fin 64, val_main_v5 (F := Ideal) x0 x1 x2 (lidx_main_v18 (ix4 n h q k) d)
          * val_main_v11 (F := Ideal) x0 x3 x4 (ridx_main_v18 (ix4 n h q k) d)) * Ideal.ofBits .f32 0x3E000000#32
      = (∑ d : Fin 64, lin (act3 x0) (mat2 x1) (vec1 x2) n q (col h d) * lin (act3 x0) (mat2 x3) (vec1 x4) n k (col h d))
          * Ideal.ofBits .f32 0x3E000000#32
  refine congrArg (· * _) (Finset.sum_congr rfl fun d _ => ?_)
  have el : lidx_main_v18 (ix4 n h q k) d = ix4 n h q d := funext fun a => Fin.ext (by
    match a with | ⟨0, _⟩ => rfl | ⟨1, _⟩ => rfl | ⟨2, _⟩ => rfl | ⟨3, _⟩ => rfl)
  have er : ridx_main_v18 (ix4 n h q k) d = ix4 n h k d := funext fun a => Fin.ext (by
    match a with | ⟨0, _⟩ => rfl | ⟨1, _⟩ => rfl | ⟨2, _⟩ => rfl | ⟨3, _⟩ => rfl)
  rw [el, er, heads_q, heads_k]

/-- The reduced index (n, h, q) with key k put back on the last axis is (n, h, q, k). -/
theorem lift_row (hr : S4x16x2048x2048.Reduces [3] S4x16x2048) (n : Fin 4) (h : Fin 16) (q : Fin 2048)
    (k : Fin (S4x16x2048x2048.size 3)) : hr.lift (ix3 n h q) k = ix4 n h q (⟨k.val, k.isLt⟩ : Fin 2048) := by
  funext c; apply Fin.ext
  fin_cases c <;> rfl

/-- A maximum-reduce over the last axis from −∞, at (n, h, q), is the fold of max over that row. -/
theorem hostMax_row (y : FVec Ideal S4x16x2048x2048 .f32) (n : Fin 4) (h : Fin 16) (q : Fin 2048) :
    Host.reduce FloatOps.maximumf y (constant (F := Ideal) S_ .f32 0xFF800000#32) reducesTo_S4x16x2048x2048_S4x16x2048_d3 h_S_ (ix3 n h q)
      = rowMax (fun k => y (ix4 n h q k)) := by
  have hr : S4x16x2048x2048.Reduces [3] S4x16x2048 := by decide
  refine (Host.reduce_eq_fold_single FloatOps.maximumf y _ reducesTo_S4x16x2048x2048_S4x16x2048_d3 hr h_S_ (ix3 n h q)).trans ?_
  have hf : (y ∘ hr.lift (ix3 n h q)) = fun k : Fin 2048 => y (ix4 n h q k) :=
    funext fun k => congrArg y (lift_row hr n h q k)
  exact congrArg (fun f => Finset.fold max (Ideal.ofBits .f32 0xFF800000#32) f (Finset.univ : Finset (Fin 2048))) hf

/-- The row maximum at (n, h, q): the maximum with −∞ once more changes nothing. -/
theorem rowmax_eq (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 4) (h : Fin 16) (q : Fin 2048) :
    val_main_v23 (F := Ideal) x0 x1 x2 x3 x4 (ix3 n h q) = rowMax (score (lin (act3 x0) (mat2 x1) (vec1 x2)) (lin (act3 x0) (mat2 x3) (vec1 x4)) n h q) := by
  rw [val_main_v23_apply, val_main_v22_apply, val_main_cst_1_apply]
  have h21 : val_main_v21 (F := Ideal) x0 x1 x2 x3 x4 (ix3 n h q) = rowMax (score (lin (act3 x0) (mat2 x1) (vec1 x2)) (lin (act3 x0) (mat2 x3) (vec1 x4)) n h q) := by
    unfold val_main_v21 val_main_cst_0
    refine (hostMax_row _ n h q).trans ?_
    exact congrArg rowMax (funext fun k => score_eq x0 x1 x2 x3 x4 n h q k)
  rw [h21]
  exact max_floor_rowMax _

/-- The exponential at (n, h, q, k): exp of the score minus its row's maximum. -/
theorem expo_eq (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 4) (h : Fin 16) (q k : Fin 2048) :
    val_main_v27 (F := Ideal) x0 x1 x2 x3 x4 (ix4 n h q k) = expo (lin (act3 x0) (mat2 x1) (vec1 x2)) (lin (act3 x0) (mat2 x3) (vec1 x4)) n h q k := by
  rw [val_main_v27_apply, val_main_v26_apply, val_main_v25_apply, val_main_v24_apply]
  have ei : idx_main_v24 (idx_main_v25 (ix4 n h q k)) = ix3 n h q := funext fun a => Fin.ext (by
    match a with | ⟨0, _⟩ => rfl | ⟨1, _⟩ => rfl | ⟨2, _⟩ => rfl)
  rw [ei, score_eq, rowmax_eq]
  rfl

/-- The denominator at (n, h, q): the sum of the row's exponentials (the sum starts from the zero word). -/
theorem denom_eq (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 4) (h : Fin 16) (q : Fin 2048) :
    val_main_v28 (F := Ideal) x0 x1 x2 x3 x4 (ix3 n h q) = ∑ k : Fin 2048, expo (lin (act3 x0) (mat2 x1) (vec1 x2)) (lin (act3 x0) (mat2 x3) (vec1 x4)) n h q k := by
  rw [val_main_v28_apply, val_main_cst_2_apply, Ideal.ofBits_def, Ideal.ofBits_zero_f32, zero_add]
  refine Finset.sum_congr rfl fun k _ => ?_
  have ei : idx_main_v28 (ix3 n h q) k = ix4 n h q k := funext fun a => Fin.ext (by
    match a with | ⟨0, _⟩ => rfl | ⟨1, _⟩ => rfl | ⟨2, _⟩ => rfl | ⟨3, _⟩ => rfl)
  rw [ei, expo_eq]

/-- The probability at (n, h, q, k): the exponential over the row's sum. -/
theorem prob_eq (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 4) (h : Fin 16) (q k : Fin 2048) :
    val_main_v31 (F := Ideal) x0 x1 x2 x3 x4 (ix4 n h q k) = prob (lin (act3 x0) (mat2 x1) (vec1 x2)) (lin (act3 x0) (mat2 x3) (vec1 x4)) n h q k := by
  rw [val_main_v31_apply, val_main_v30_apply, val_main_v29_apply]
  have ei : idx_main_v29 (idx_main_v30 (ix4 n h q k)) = ix3 n h q := funext fun a => Fin.ext (by
    match a with | ⟨0, _⟩ => rfl | ⟨1, _⟩ => rfl | ⟨2, _⟩ => rfl)
  rw [ei, expo_eq, denom_eq]
  rfl

end Cert.ReferenceIdeal.RefValue

end
-- ==== Proof.Ref.Output.lean ====
/-
  The reference's last stages read at an index: the probabilities times the values head by head, the heads put back side by
  side (Spec.lean's ctx), and the output linear layer: the result is Spec.lean's mha of the nine argument arrays.
-/
import proofs.«136797_j3427383902664_2_alg».proof.Defs
import proofs.«136797_j3427383902664_2_alg».proof.Proof.Gen.ReferenceIdeal.Run
import proofs.«136797_j3427383902664_2_alg».proof.Proof.Gen.ReferenceIdeal.Read
import proofs.«136797_j3427383902664_2_alg».proof.Proof.Spec
import proofs.«136797_j3427383902664_2_alg».proof.Proof.Ref.Linear
import proofs.«136797_j3427383902664_2_alg».proof.Proof.Ref.Softmax
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.Mha Idealize.ShloMosaic Idealize.ShloMosaic.ValueIdx

/-- The context of head h at (n, h, s, d): the probabilities of query row s against the values' column 64 h + d. -/
theorem ctxHeads_eq (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (n : Fin 4) (h : Fin 16) (s : Fin 2048) (d : Fin 64) :
    val_main_v32 (F := Ideal) x0 x1 x2 x3 x4 x5 x6 (ix4 n h s d)
      = ∑ k : Fin 2048, prob (lin (act3 x0) (mat2 x1) (vec1 x2)) (lin (act3 x0) (mat2 x3) (vec1 x4)) n h s k * (lin (act3 x0) (mat2 x5) (vec1 x6)) n k (col h d) := by
  rw [val_main_v32_apply]
  refine Finset.sum_congr rfl fun k _ => ?_
  have el : lidx_main_v32 (ix4 n h s d) k = ix4 n h s k := funext fun a => Fin.ext (by
    match a with | ⟨0, _⟩ => rfl | ⟨1, _⟩ => rfl | ⟨2, _⟩ => rfl | ⟨3, _⟩ => rfl)
  have er : ridx_main_v32 (ix4 n h s d) k = ix4 n h k d := funext fun a => Fin.ext (by
    match a with | ⟨0, _⟩ => rfl | ⟨1, _⟩ => rfl | ⟨2, _⟩ => rfl | ⟨3, _⟩ => rfl)
  rw [el, er, prob_eq, heads_v]

/-- Feature column j is column j mod 64 of head j / 64. -/
theorem col_headOf (j : Fin 1024) (hd : j.val % 64 < 64) : col (headOf j) ⟨j.val % 64, hd⟩ = j :=
  Fin.ext (by show j.val / 64 * 64 + j.val % 64 = j.val; omega)

/-- The heads side by side again: entry (n, s, j) is head j / 64's context at column j mod 64, which is Spec.lean's ctx. -/
theorem ctx_eq (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (n : Fin 4) (s : Fin 2048) (j : Fin 1024) :
    val_main_v34 (F := Ideal) x0 x1 x2 x3 x4 x5 x6 (ix3 n s j)
      = ctx (lin (act3 x0) (mat2 x1) (vec1 x2)) (lin (act3 x0) (mat2 x3) (vec1 x4)) (lin (act3 x0) (mat2 x5) (vec1 x6)) n s j := by
  rw [val_main_v34_apply, val_main_v33_apply]
  have hd : j.val % 64 < 64 := Nat.mod_lt _ (by decide)
  have ei : idx_main_v33 (idx_main_v34 (ix3 n s j)) = ix4 n (headOf j) s (⟨j.val % 64, hd⟩ : Fin 64) := funext fun a => Fin.ext (by
    have hn := n.isLt; have hs := s.isLt; have hj := j.isLt
    match a with
    | ⟨0, _⟩ => show ((n.val * 2048 + s.val) * 1024 + j.val) / 2097152 = n.val; omega
    | ⟨1, _⟩ => show ((n.val * 2048 + s.val) * 1024 + j.val) / 64 % 16 = j.val / 64; omega
    | ⟨2, _⟩ => show ((n.val * 2048 + s.val) * 1024 + j.val) / 1024 % 2048 = s.val; omega
    | ⟨3, _⟩ => show ((n.val * 2048 + s.val) * 1024 + j.val) % 64 = j.val % 64; omega)
  rw [ei, ctxHeads_eq, col_headOf]
  rfl

/-- The output layer at (n, s, e): the reference's result is multi-head attention of its nine arguments. -/
theorem out_eq (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (n : Fin 4) (s : Fin 2048) (e : Fin 1024) :
    val_main_v38 (F := Ideal) x0 x1 x2 x3 x4 x5 x6 x7 x8 (ix3 n s e)
      = mha (act3 x0) (mat2 x1) (vec1 x2) (mat2 x3) (vec1 x4) (mat2 x5) (vec1 x6) (mat2 x7) (vec1 x8) n s e := by
  rw [val_main_v38_apply, val_main_v35_apply, val_main_v37_apply, val_main_v36_apply]
  show (∑ k : Fin 1024, val_main_v34 (F := Ideal) x0 x1 x2 x3 x4 x5 x6 (lidx_main_v35 (ix3 n s e) k) * x7 (ridx_main_v35 (ix3 n s e) k))
        + x8 (idx_main_v36 (idx_main_v37 (ix3 n s e)))
      = (∑ d : Fin 1024, ctx (lin (act3 x0) (mat2 x1) (vec1 x2)) (lin (act3 x0) (mat2 x3) (vec1 x4)) (lin (act3 x0) (mat2 x5) (vec1 x6)) n s d * x7 (ix2 e d)) + x8 (ix1 e)
  have el : ∀ k : Fin 1024, lidx_main_v35 (ix3 n s e) k = ix3 n s k := fun k => funext fun a => Fin.ext (by
    match a with | ⟨0, _⟩ => rfl | ⟨1, _⟩ => rfl | ⟨2, _⟩ => rfl)
  have er : ∀ k : Fin 1024, ridx_main_v35 (ix3 n s e) k = ix2 e k := fun k => funext fun a => Fin.ext (by
    match a with | ⟨0, _⟩ => rfl | ⟨1, _⟩ => rfl)
  have eb : idx_main_v36 (idx_main_v37 (ix3 n s e)) = ix1 e := funext fun a => Fin.ext (by
    match a with | ⟨0, _⟩ => rfl)
  rw [eb]
  refine congrArg (· + _) (Finset.sum_congr rfl fun k _ => ?_)
  rw [el, er, ctx_eq]

end Cert.ReferenceIdeal.RefValue

end
-- ==== Proof.RefValue.lean ====
/-
  The reference's result, read index by index: it is multi-head attention (Spec.lean's mha) of the argument arrays.
  The stages are read one by one in Ref/Linear.lean, Ref/Softmax.lean and Ref/Output.lean; here they meet the run's term.
-/
import proofs.«136797_j3427383902664_2_alg».proof.Defs
import proofs.«136797_j3427383902664_2_alg».proof.Proof.Gen.ReferenceIdeal.Run
import proofs.«136797_j3427383902664_2_alg».proof.Proof.Gen.ReferenceIdeal.Read
import proofs.«136797_j3427383902664_2_alg».proof.Proof.Spec
import proofs.«136797_j3427383902664_2_alg».proof.Proof.Ref.Linear
import proofs.«136797_j3427383902664_2_alg».proof.Proof.Ref.Softmax
import proofs.«136797_j3427383902664_2_alg».proof.Proof.Ref.Output
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read Cert.Mha Idealize.ShloMosaic Idealize.ShloMosaic.ValueIdx

open Idealize.ShloMosaic.TcCoe Idealize.SL.Sem in
/-- The reference's result at (n, s, e) is multi-head attention of the arrays it was launched with. -/
theorem result_eq (m : (ℓ : Loc Cert.ReferenceIdeal.nD Cert.ReferenceIdeal.τ Cert.ReferenceIdeal.sig) → Buf (Elt Ideal) ℓ)
    (c : Dev Cert.ReferenceIdeal.nD) (n : Fin 4) (s : Fin 2048) (e : Fin 1024) :
    Cert.ReferenceIdeal.Value.res_main_v38 (F := Ideal) m c (Idealize.ShloMosaic.ValueIdx.ix3 n s e)
      = Cert.Mha.mha (Cert.Mha.act3 (m ((c.tc : Thread nD τ).loc main_arg0))) (Cert.Mha.mat2 (m ((c.tc : Thread nD τ).loc main_arg1))) (Cert.Mha.vec1 (m ((c.tc : Thread nD τ).loc main_arg2)))
          (Cert.Mha.mat2 (m ((c.tc : Thread nD τ).loc main_arg3))) (Cert.Mha.vec1 (m ((c.tc : Thread nD τ).loc main_arg4))) (Cert.Mha.mat2 (m ((c.tc : Thread nD τ).loc main_arg5))) (Cert.Mha.vec1 (m ((c.tc : Thread nD τ).loc main_arg6)))
          (Cert.Mha.mat2 (m ((c.tc : Thread nD τ).loc main_arg7))) (Cert.Mha.vec1 (m ((c.tc : Thread nD τ).loc main_arg8))) n s e := by
  rw [val_main_v38_eq]
  exact out_eq _ _ _ _ _ _ _ _ _ n s e

end Cert.ReferenceIdeal.RefValue

end
-- ==== Proof.lean ====
/-
  Both programs compute multi-head attention (Spec.lean's mha: four linear layers around sixteen softmax heads) of the
  same nine argument arrays.  The kernel does it in two pipelined regions among host reshapes, casts, transposes and
  concatenations; each program's run terminates with the argument arrays as launched (the three frames).  On the
  extended reals the kernel's result array and the reference's result are that one function index by index, so from
  memories that agree on the arguments the two results are equal.  The idealization rewrote no operation, so there is
  nothing to preserve.
-/
import proofs.«136797_j3427383902664_2_alg».proof.Defs
import proofs.«136797_j3427383902664_2_alg».proof.Proof.Gen.Kernel
import proofs.«136797_j3427383902664_2_alg».proof.Proof.Gen.KernelIdeal
import proofs.«136797_j3427383902664_2_alg».proof.Proof.Gen.ReferenceIdeal
import proofs.«136797_j3427383902664_2_alg».proof.Proof.Gen.ReferenceIdeal.Run
import proofs.«136797_j3427383902664_2_alg».proof.Proof.Gen.Pre_finite_inputs
import proofs.«136797_j3427383902664_2_alg».proof.Proof.K.Run
import proofs.«136797_j3427383902664_2_alg».proof.Proof.KI.Run
import proofs.«136797_j3427383902664_2_alg».proof.Proof.KV.Result
import proofs.«136797_j3427383902664_2_alg».proof.Proof.RefValue
import Idealize.ShloMosaic.Lib.ValueIdx
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Hand.frame m ρ
/-- So does the kernel read on the extended reals. -/
theorem frame_ki : Cert.frame_KernelIdeal := fun m ρ _ => Cert.KernelIdeal.Hand.frame m ρ
/-- So does the reference: its run's statement without the result. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at what region 1's write-backs leave, which is multi-head
    attention of the arguments; the reference's result is the same function of arguments that agree. -/
theorem algebraic : Cert.algebraic_KernelIdeal_ReferenceIdeal := by
  intro m ρ m' ρ' _ hagree
  refine ⟨fun c => Cert.KernelIdeal.Hand.W4 m ρ c (Proc.devRef .tc Cert.KernelIdeal.main_v14), ?_, ?_⟩
  · exact (θ_run Cert.KernelIdeal.defs _ _).mono (fun r h c =>
      ⟨h c _ (Cert.KernelIdeal.Hand.mem_uc Cert.KernelIdeal.main_v14 (by decide)),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c),
      (h c _ (Cert.KernelIdeal.Hand.mem_uc Cert.KernelIdeal.main_arg8 (by decide))).trans (Cert.KernelIdeal.Hand.W4_main_arg8 m ρ c)⟩)
      (Cert.KernelIdeal.Hand.run_all m ρ)
  · refine (θ_run Cert.ReferenceIdeal.defs _ _).mono (fun r h c => ⟨(h c).1.trans ?_, (h c).2⟩)
      (Cert.ReferenceIdeal.Value.run (F := Ideal) m' ρ')
    show @Eq ((⟨3, ![4, 2048, 1024]⟩ : Shape).Idx → EReal) (Cert.ReferenceIdeal.Value.res_main_v38 (F := Ideal) m' c)
      (Cert.KernelIdeal.Hand.W4 m ρ c (Proc.devRef .tc Cert.KernelIdeal.main_v14))
    funext i
    obtain ⟨n, s, e, rfl⟩ : ∃ (n : Fin 4) (s : Fin 2048) (e : Fin 1024), i = ValueIdx.ix3 n s e :=
      ⟨i 0, i 1, i 2, ValueIdx.eq_ix3 i⟩
    rw [Cert.ReferenceIdeal.RefValue.result_eq m' c, Cert.KernelIdeal.KVal.kernel_result m ρ c,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
